-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S512x128 : Shape := ⟨2, ![512, 128]⟩
abbrev S128 : Shape := ⟨1, ![128]⟩
abbrev S_ : Shape := ⟨0, ![]⟩
abbrev S4096 : Shape := ⟨1, ![4096]⟩
abbrev S4096x1 : Shape := ⟨2, ![4096, 1]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S4096x1_S_d0_1 : S4096x1.ReducesTo [0, 1] S_

variable [Facts]

def fn_part3 {F : FTy → Type} [FloatOps F] (main_v43 : IVec S_ 1) (main_v50 : IVec S4096x1 1) : IVec S_ 1 :=
  let main_c_19 : IVec S_ 1 := constantI S_ 1 1#1
  let main_v51 : IVec S_ 1 := (fun x v => Host.reduce IntOp.andi x v reducesTo_S4096x1_S_d0_1 h_S_) main_v50 main_c_19
  let main_v52 : IVec S_ 1 := andi main_v43 main_v51
  main_v52

def fn_part2 {F : FTy → Type} [FloatOps F] (main_arg1 : FVec F S4096x4096 .f32) (main_arg7 : FVec F S512x128 .f32) (main_arg8 : FVec F S128 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_cst_16 : FVec F S_ .f32 := constant S_ .f32 0x00000000#32
  let main_v44 : FVec F S4096 .f32 := (fun x v => Host.reduceAdd x v reducesTo_S4096x4096_S4096_d1 h_S_) main_arg1 main_cst_16
  let main_v45 : FVec F S4096x1 .f32 := broadcastInDim S4096x1 ![0] bcast_S4096_S4096x1_0 main_v44
  let main_cst_17 : FVec F S_ .f32 := constant S_ .f32 0x322BCC77#32
  let main_v46 : FVec F S4096x1 .f32 := broadcastInDim S4096x1 ![] bcast_S_S4096x1 main_cst_17
  let main_v47 : FVec F S4096x1 .f32 := addf main_v45 main_v46
  let main_v48 : FVec F S4096x1 .f32 := Host.absf main_v47
  let main_cst_18 : FVec F S_ .f32 := constant S_ .f32 0x00000000#32
  let main_v49 : FVec F S4096x1 .f32 := broadcastInDim S4096x1 ![] bcast_S_S4096x1 main_cst_18
  let main_v50 : IVec S4096x1 1 := cmpf .olt main_v49 main_v48
  fn_part3 (F := F) main_v43 main_v50

def fn_part1 {F : FTy → Type} [FloatOps F] (main_arg1 : FVec F S4096x4096 .f32) (main_arg4 : FVec F S256 .f32) (main_arg5 : FVec F S256x256 .f32) (main_arg6 : FVec F S256 .f32) (main_arg7 : FVec F S512x128 .f32) (main_arg8 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg7 main_arg8 main_v33

def fn {F : FTy → Type} [FloatOps F] (main_arg0 : FVec F S4096x256 .f32) (main_arg1 : FVec F S4096x4096 .f32) (main_arg2 : FVec F S4096x4096 .f32) (main_arg3 : FVec F S256x256 .f32) (main_arg4 : FVec F S256 .f32) (main_arg5 : FVec F S256x256 .f32) (main_arg6 : FVec F S256 .f32) (main_arg7 : FVec F S512x128 .f32) (main_arg8 : FVec F S128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg4 main_arg5 main_arg6 main_arg7 main_arg8 main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S512x128 : Shape := ⟨2, ![512, 128]⟩
abbrev S128 : Shape := ⟨1, ![128]⟩
abbrev S1x256 : Shape := ⟨2, ![1, 256]⟩
abbrev S1x128 : Shape := ⟨2, ![1, 128]⟩
abbrev S4096x128 : Shape := ⟨2, ![4096, 128]⟩
abbrev S256x4096 : Shape := ⟨2, ![256, 4096]⟩
abbrev S256x1 : Shape := ⟨2, ![256, 1]⟩
abbrev S256x128 : Shape := ⟨2, ![256, 128]⟩
abbrev S512x4096 : Shape := ⟨2, ![512, 4096]⟩

abbrev nBuf : Space → Nat
  | .hbm => 13
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x4096, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x128, .f32⟩
  | .hbm, ⟨8, _⟩ => ⟨S128, .f32⟩
  | .hbm, ⟨9, _⟩ => ⟨S1x256, .f32⟩
  | .hbm, ⟨10, _⟩ => ⟨S1x256, .f32⟩
  | .hbm, ⟨11, _⟩ => ⟨S1x128, .f32⟩
  | .hbm, ⟨12, _⟩ => ⟨S4096x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x256, .f32⟩
  | .local _ .vmem, ⟨5, _⟩ => ⟨S256x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S512x128, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S4096x256, .bf16⟩
  | .local _ .vmem, ⟨14, _⟩ => ⟨S4096x256, .bf16⟩
  | .local _ .vmem, ⟨15, _⟩ => ⟨S4096x4096, .bf16⟩
  | .local _ .vmem, ⟨16, _⟩ => ⟨S4096x128, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c16_i32 : BitVec 32 := 16#32
  let v4 : BitVec 1 := Scalar.cmpi .sle arg0 c16_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_4 : BitVec 32 := 1#32
  let v11 : BitVec 32 := Scalar.subi arg0 c1_i32_4
  let c256_i32 : BitVec 32 := 256#32
  let v33 : BitVec 32 := Scalar.muli v11 c256_i32
  let v34 : Index := Scalar.indexCast v33
  let c0_16 : Index := 0#32
  ![v34.toNat, 0]
def k0_off2 (i : grid0.Coords) : Fin 2 → Nat :=
  let arg0 : BitVec 32 := BitVec.ofNat 32 (i 0).val
  let c1_i32_4 : BitVec 32 := 1#32
  let v11 : BitVec 32 := Scalar.subi arg0 c1_i32_4
  let c256_i32_31 : BitVec 32 := 256#32
  let v60 : BitVec 32 := Scalar.muli v11 c256_i32_31
  let v61 : Index := Scalar.indexCast v60
  let c0_32 : Index := 0#32
  ![v61.toNat, 0]
def k0_cond3 (i : grid0.Coords) : BitVec 1 :=
  let arg0 : BitVec 32 := BitVec.ofNat 32 (i 0).val
  let c16_i32_2 : BitVec 32 := 16#32
  let v8 : BitVec 1 := Scalar.cmpi .sgt arg0 c16_i32_2
  let v9 : BitVec 32 := Scalar.extui v8
  let c0_i32_3 : BitVec 32 := 0#32
  let v10 : BitVec 1 := Scalar.cmpi .ne v9 c0_i32_3
  v10

def k0_off3 (i : grid0.Coords) : Fin 2 → Nat :=
  let arg0 : BitVec 32 := BitVec.ofNat 32 (i 0).val
  let c17_i32 : BitVec 32 := 17#32
  let v11 : BitVec 32 := Scalar.subi arg0 c17_i32
  let c512_i32 : BitVec 32 := 512#32
  let v12 : BitVec 32 := Scalar.muli v11 c512_i32
  let v13 : Index := Scalar.indexCast v12
  let c0 : Index := 0#32
  ![v13.toNat, 0]
def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c17_i32 : BitVec 32 := 17#32
  let v0 : BitVec 32 := Scalar.subi arg0 c17_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S256_S1x256 : S256.ShapeCasts S1x256
  shapeCasts_S128_S1x128 : S128.ShapeCasts S1x128
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  broadcasts_S256x1_S256x256 : S256x1.Broadcasts S256x256
  inb_S512x128_S256x128_0_0 : ∀ a, (![0, 0] : Fin 2 → Nat) a + S256x128.size a ≤ S512x128.size a
  h_S256x128 : 0 < S256x128.numel
  inb_S512x128_S256x128_256_0 : ∀ a, (![256, 0] : Fin 2 → Nat) a + S256x128.size a ≤ S512x128.size a
  shapeCasts_S256x128_S256x128 : S256x128.ShapeCasts S256x128
  h_S512x4096 : 0 < S512x4096.numel
  inb_S4096x128_S4096x128_0_0 : ∀ a, (![0, 0] : Fin 2 → Nat) a + S4096x128.size a ≤ S4096x128.size a
  h_S4096x128 : 0 < S4096x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S4096x256_S256x256_S4096x256_1_0_0_1_n_n_wf : DotDims.WF S4096x256 S256x256 S4096x256 [1] [0] [0] [1] [] []
  dot_S256x4096_S4096x256_S256x256_1_0_0_1_n_n_wf : DotDims.WF S256x4096 S4096x256 S256x256 [1] [0] [0] [1] [] []
  dot_S256x256_S256x128_S256x128_1_0_0_1_n_n_wf : DotDims.WF S256x256 S256x128 S256x128 [1] [0] [0] [1] [] []
  dot_S512x4096_S4096x128_S512x128_1_0_0_1_n_n_wf : DotDims.WF S512x4096 S4096x128 S512x128 [1] [0] [0] [1] [] []
  hrank0 : 0 < grid0.rank
  k0_off1_inb : ∀ i : grid0.Coords, ∀ (k0_h2 : k0_cond2 i = 1#1), ∀ a, (k0_off1 i) a + S256x4096.size a ≤ S4096x4096.size a
  k0_off1_packedbf16 : ∀ i : grid0.Coords, ∀ (k0_h2 : k0_cond2 i = 1#1), (Rect.unit (s := S4096x4096) (k0_off1 i) S256x4096.size (k0_off1_inb i k0_h2)).PackedRows (EltTy.packing .bf16)
  k0_off2_inb : ∀ i : grid0.Coords, ∀ (k0_h2 : k0_cond2 i = 1#1), ∀ a, (k0_off2 i) a + S256x128.size a ≤ S4096x128.size a
  k0_off2_packedbf16 : ∀ i : grid0.Coords, ∀ (k0_h2 : k0_cond2 i = 1#1), (Rect.unit (s := S4096x128) (k0_off2 i) S256x128.size (k0_off2_inb i k0_h2)).PackedRows (EltTy.packing .bf16)
  k0_off3_inb : ∀ i : grid0.Coords, ∀ (k0_h3 : k0_cond3 i = 1#1), ∀ a, (k0_off3 i) a + S512x4096.size a ≤ S4096x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .f32 = 32 ∨ (Rect.block (s := S512x128) S512x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S4096x128.size a
  hwx0_9 : ∀ i : grid0.Coords, EltTy.bits .f32 = 32 ∨ (Rect.block (s := S4096x128) S512x128.size (cc0_transform_9 i) (hinb0_9 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S512x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond3 i == 1#1) | ⟨_ + 10, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S512x128 : Shape := ⟨2, ![512, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S4096x512 : Shape := ⟨2, ![4096, 512]⟩
abbrev S4096x128 : Shape := ⟨2, ![4096, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x4096, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x128, .f32⟩
  | .hbm, ⟨8, _⟩ => ⟨S128, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x256, .f32⟩
  | .hbm, ⟨18, _⟩ => ⟨S4096x256, .f32⟩
  | .hbm, ⟨19, _⟩ => ⟨S1x256, .f32⟩
  | .hbm, ⟨20, _⟩ => ⟨S4096x256, .f32⟩
  | .hbm, ⟨21, _⟩ => ⟨S4096x256, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S4096x256, .f32⟩
  | .hbm, ⟨32, _⟩ => ⟨S4096x256, .f32⟩
  | .hbm, ⟨33, _⟩ => ⟨S1x256, .f32⟩
  | .hbm, ⟨34, _⟩ => ⟨S4096x256, .f32⟩
  | .hbm, ⟨35, _⟩ => ⟨S4096x256, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x4096, .f32⟩
  | .hbm, ⟨47, _⟩ => ⟨S4096x4096, .f32⟩
  | .hbm, ⟨48, _⟩ => ⟨S4096x128, .f32⟩
  | .hbm, ⟨49, _⟩ => ⟨S4096x128, .f32⟩
  | .hbm, ⟨50, _⟩ => ⟨S1x128, .f32⟩
  | .hbm, ⟨51, _⟩ => ⟨S4096x128, .f32⟩
  | .hbm, ⟨52, _⟩ => ⟨S4096x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  bcast_S_S4096x512 : S_.BroadcastsInDim S4096x512 (![] : Fin 0 → Fin S4096x512.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []
  dot_S4096x512_S512x128_S4096x128_1_0_0_1_n_n_wf : DotDims.WF S4096x512 S512x128 S4096x128 [1] [0] [0] [1] [] []
  dot_S4096x4096_S4096x128_S4096x128_1_0_0_1_n_n_wf : DotDims.WF S4096x4096 S4096x128 S4096x128 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KBBase.lean ====
/-
  What the runs of the kernel body share: which of the body's three branches a grid coordinate takes, the row
  offsets of the row-blocked scratch accesses in closed form, where the result window is idle, and the names of the
  staging and scratch memrefs.
-/
import proofs.«171890_g89756226552612_cont_sun_m_1083_24_alg».proof.Proof.Gen.Kernel.Launch
import proofs.«171890_g89756226552612_cont_sun_m_1083_24_alg».proof.Proof.Gen.Kernel.Skeleton
import proofs.«171890_g89756226552612_cont_sun_m_1083_24_alg».proof.Proof.Gen.Kernel.Points
import proofs.«171890_g89756226552612_cont_sun_m_1083_24_alg».proof.Proof.Gen.Kernel.Frame
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body is taken: the grid coordinate is 0. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The second branch is taken: the coordinate lies in 1..16 (the sixteen row blocks of the aggregation). -/
abbrev cond2 (i : grid0.Coords) : Prop := k0_cond2 i = 1#1
theorem hcond2 : ∀ t : Fin cfg0.N, cond2 (grid0.coords t) ↔ (1 ≤ t.val ∧ t.val ≤ 16) :=
  (by decide +kernel : ∀ t : Fin grid0.N, cond2 (grid0.coords t) ↔ (1 ≤ t.val ∧ t.val ≤ 16))

/-- The third branch is taken: the coordinate lies in 17..24 (the eight row blocks of the result). -/
abbrev cond3 (i : grid0.Coords) : Prop := k0_cond3 i = 1#1
theorem hcond3 : ∀ t : Fin cfg0.N, cond3 (grid0.coords t) ↔ 17 ≤ t.val :=
  (by decide +kernel : ∀ t : Fin grid0.N, cond3 (grid0.coords t) ↔ 17 ≤ t.val)

/-- At coordinate t in 1..16 the rows stored into the two row-blocked scratch buffers start at 256·(t−1). -/
theorem off1_eq : ∀ t : Fin cfg0.N, 1 ≤ t.val → t.val ≤ 16 → k0_off1 (grid0.coords t) = ![256 * (t.val - 1), 0] :=
  (by decide +kernel : ∀ t : Fin grid0.N, 1 ≤ t.val → t.val ≤ 16 → k0_off1 (grid0.coords t) = ![256 * (t.val - 1), 0])
theorem off2_eq : ∀ t : Fin cfg0.N, 1 ≤ t.val → t.val ≤ 16 → k0_off2 (grid0.coords t) = ![256 * (t.val - 1), 0] :=
  (by decide +kernel : ∀ t : Fin grid0.N, 1 ≤ t.val → t.val ≤ 16 → k0_off2 (grid0.coords t) = ![256 * (t.val - 1), 0])
/-- At coordinate t in 17..24 the rows read back start at 512·(t−17). -/
theorem off3_eq : ∀ t : Fin cfg0.N, 17 ≤ t.val → k0_off3 (grid0.coords t) = ![512 * (t.val - 17), 0] :=
  (by decide +kernel : ∀ t : Fin grid0.N, 17 ≤ t.val → k0_off3 (grid0.coords t) = ![512 * (t.val - 17), 0])

/-- The result window is idle, and not written back, before coordinate 17; live from 17 on. -/
theorem idle9 : ∀ t : Fin cfg0.N, t.val < 17 → cfg0.idle 9 (grid0.coords t) = true := by decide +kernel
theorem noFlush9 : ∀ t : Fin cfg0.N, t.val < 17 → (cfg0.win 9).flush t = false := by decide +kernel
theorem live9 : ∀ t : Fin cfg0.N, 17 ≤ t.val → cfg0.idle 9 (grid0.coords t) = false := by decide +kernel

/-- Each window's current staging memref at a point, and its wholeness. -/
abbrev ms0 (t : Fin cfg0.N) : Memref sig .tc .vmem S256x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x128 .f32 := win0_9.stage (cfg0.slots t 9)
abbrev hs9 (t : Fin cfg0.N) : (ms9 t).IsWhole := hstage0_9 ((cfg0.slots t 9).cast nbuf0_9)

/-- The four scratch operands: the two feature projections, the normalised distance rows, the projected hidden rows. -/
abbrev scM0 : Memref sig .tc .vmem S4096x256 .bf16 := Memref.whole cc0_scratch0
abbrev scM1 : Memref sig .tc .vmem S4096x256 .bf16 := Memref.whole cc0_scratch1
abbrev scM2 : Memref sig .tc .vmem S4096x4096 .bf16 := Memref.whole cc0_scratch2
abbrev scM3 : Memref sig .tc .vmem S4096x128 .bf16 := Memref.whole cc0_scratch3

/-- The class invariant with the scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

end Cert.Kernel.Body

end
-- ==== Proof.KBRunA.lean ====
/-
  The kernel body at the first grid point.
-/
import proofs.«171890_g89756226552612_cont_sun_m_1083_24_alg».proof.Proof.KBBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT. The body loads the features and the two 256×256 weights and stores the two projections
    F·W₁ and F·Wₐ whole into the first two scratch buffers; it touches nothing else. The pieces each scratch ends with
    are found by the run. -/
noncomputable def kernelRun0_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : cond0 i) (hc2 : ¬cond2 i) (hc3 : ¬cond3 i)
    (x2 : Vec F S4096x256 .f32) (x3 : Vec F S256x256 .f32) (x4 : Vec F S256x256 .f32) :
    Σ' (LS0 : List (View.Piece (Elt F) S4096x256 .bf16)), { LS1 : List (View.Piece (Elt F) S4096x256 .bf16) //
      ∀ (E : Set ℕ) (K : PUnit → sProp 𝕄),
        iprop(owns (c : Thread nD τ) arg3 fullShare x2 ∗ owns (c : Thread nD τ) arg4 fullShare x3 ∗ owns (c : Thread nD τ) arg5 fullShare x4 ∗ (∃ d, owns (c : Thread nD τ) arg11 fullShare d) ∗ (∃ d, owns (c : Thread nD τ) arg12 fullShare d)
            ∗ (iprop(owns (c : Thread nD τ) arg3 fullShare x2 ∗ owns (c : Thread nD τ) arg4 fullShare x3 ∗ owns (c : Thread nD τ) arg5 fullShare x4
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__main_body_eq_skeleton]; unfold cc0__main_body_skel
    unfold owns
    iintro ⟨⟨%f2, %hf2, H2⟩, ⟨%f3, %hf3, H3⟩, ⟨%f4, %hf4, H4⟩, ⟨%d0, %fs0, -, HS0⟩, ⟨%d1, %fs1, -, HS1⟩, Hk⟩
    obtain rfl := harg3.eq_unread hf2; obtain rfl := harg4.eq_unread hf3; obtain rfl := harg5.eq_unread hf4
    sl_exec (disch := first | exact hc0 | exact hc2 | exact hc3)
    sl_step
    iapply Hk
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Body

end
-- ==== Proof.KBRunB.lean ====
/-
  The kernel body at an aggregation point.
-/
import proofs.«171890_g89756226552612_cont_sun_m_1083_24_alg».proof.Proof.KBBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- AN AGGREGATION POINT (coordinates 1..16). The body loads the point's 256 rows of the two adjacency arrays, the two
    projections, the two bias rows and the output weight; stores the 256 normalised distance rows into the third scratch
    buffer and the 256 projected hidden rows into the fourth, both at the point's row offset; everything else is left as it
    was. The pieces are found by the run; the two row-blocked scratch buffers keep their earlier contents under the pieces. -/
noncomputable def kernelRun0_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : cond2 i) (hc3 : ¬cond3 i)
    (x0 x1 : Vec F S256x4096 .f32) (x5 x6 : Vec F S1x256 .f32) (x7 : Vec F S512x128 .f32)
    (xs0 xs1 : Vec F S4096x256 .bf16) (xs2 : Vec F S4096x4096 .bf16) (xs3 : Vec F S4096x128 .bf16) :
    Σ' (LS2 : List (View.Piece (Elt F) S4096x4096 .bf16)), { LS3 : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
            ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
                ∗ owns (c : Thread nD τ) arg11 fullShare xs0 ∗ owns (c : Thread nD τ) arg12 fullShare xs1
                ∗ (arg13.view.loc (c : Thread nD τ) ↦[arg13.view.set]{fullShare} arg13.view.writes (Elt F) (harg13.unread xs2) LS2)
                ∗ (arg14.view.loc (c : Thread nD τ) ↦[arg14.view.set]{fullShare} arg14.view.writes (Elt F) (harg14.unread xs3) LS3)) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__main_body_eq_skeleton]; unfold cc0__main_body_skel
    simp only [k0_part1_eq_skeleton]
    unfold owns
    iintro ⟨⟨%f0, %hf0, H0⟩, ⟨%f1, %hf1, H1⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hf5
    obtain rfl := harg7.eq_unread hf6; obtain rfl := harg8.eq_unread hf7; obtain rfl := harg11.eq_unread hfs0
    obtain rfl := harg12.eq_unread hfs1; obtain rfl := harg13.eq_unread hfs2; obtain rfl := harg14.eq_unread hfs3
    sl_exec (disch := first | exact hc0 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg11.read_unread _
      iexact HS0
    isplitl [HS1]
    · iexists _; isplitr; · ipureintro; exact harg12.read_unread _
      iexact HS1
    isplitl [HS2]; · iexact HS2
    iexact HS3

end Cert.Kernel.Body

end
-- ==== Proof.KBRunC.lean ====
/-
  The kernel body at a result point.
-/
import proofs.«171890_g89756226552612_cont_sun_m_1083_24_alg».proof.Proof.KBBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A RESULT POINT (coordinates 17..24). The body loads 512 rows of the normalised distances from the third scratch
    buffer at the point's row offset, the whole fourth scratch buffer and the last bias row, and stores the 512×128 block of
    the result whole into the result window's buffer; everything else is left as it was. -/
noncomputable def kernelRun0_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : ¬cond2 i) (hc3 : cond3 i)
    (x8 : Vec F S1x128 .f32) (xs2 : Vec F S4096x4096 .bf16) (xs3 : Vec F S4096x128 .bf16) :
    { L9 : List (View.Piece (Elt F) S512x128 .f32) //
      ∀ (E : Set ℕ) (K : PUnit → sProp 𝕄),
        iprop(owns (c : Thread nD τ) arg9 fullShare x8 ∗ (∃ d, owns (c : Thread nD τ) arg10 fullShare d) ∗ owns (c : Thread nD τ) arg13 fullShare xs2 ∗ owns (c : Thread nD τ) arg14 fullShare xs3
            ∗ (iprop(owns (c : Thread nD τ) arg9 fullShare x8
                ∗ (∃ f, arg10.view.loc (c : Thread nD τ) ↦[arg10.view.set]{fullShare} arg10.view.writes (Elt F) f L9)
                ∗ owns (c : Thread nD τ) arg13 fullShare xs2 ∗ owns (c : Thread nD τ) arg14 fullShare xs3) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__main_body_eq_skeleton]; unfold cc0__main_body_skel
    unfold owns
    iintro ⟨⟨%f8, %hf8, H8⟩, ⟨%d9, %f9, -, H9⟩, ⟨%fs2, %hfs2, HS2⟩, ⟨%fs3, %hfs3, HS3⟩, Hk⟩
    obtain rfl := harg9.eq_unread hf8; obtain rfl := harg13.eq_unread hfs2; obtain rfl := harg14.eq_unread hfs3
    sl_exec (disch := first | exact hc0 | exact hc2 | exact hc3)
    sl_step
    iapply Hk
    isplitl [H8]
    · iexists _; isplitr; · ipureintro; exact harg9.read_unread _
      iexact H8
    isplitl [H9]; · iexists _; iexact H9
    isplitl [HS2]
    · iexists _; isplitr; · ipureintro; exact harg13.read_unread _
      iexact HS2
    iexists _; isplitr; · ipureintro; exact harg14.read_unread _
    iexact HS3

end Cert.Kernel.Body

end
-- ==== Proof.KBPieces.lean ====
/-
  What the stores of each kind of grid point write, as pieces over the loaded blocks.
-/
import proofs.«171890_g89756226552612_cont_sun_m_1083_24_alg».proof.Proof.KBRunA
import proofs.«171890_g89756226552612_cont_sun_m_1083_24_alg».proof.Proof.KBRunB
import proofs.«171890_g89756226552612_cont_sun_m_1083_24_alg».proof.Proof.KBRunC
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The upper and lower 256 rows of the 512×128 output weight, as the body loads them. -/
abbrev woLo (x7 : Vec F S512x128 .f32) : Vec F S256x128 .f32 :=
  View.ld x7 (Rect.unit (s := S512x128) ![0, 0] S256x128.size inb_S512x128_S256x128_0_0)
abbrev woHi (x7 : Vec F S512x128 .f32) : Vec F S256x128 .f32 :=
  View.ld x7 (Rect.unit (s := S512x128) ![256, 0] S256x128.size inb_S512x128_S256x128_256_0)

/-- The 256 projected hidden rows an aggregation point stores: from the point's rows of the two adjacency arrays,
    the two projections, the two bias rows and the output weight. -/
abbrev hiddenRows (x0 x1 : Vec F S256x4096 .f32) (x5 x6 : Vec F S1x256 .f32) (x7 : Vec F S512x128 .f32)
    (xs0 xs1 : Vec F S4096x256 .bf16) : Vec F S256x128 .bf16 :=
  k0_pay3 (k0_pay7 x0 xs0 x5) (k0_pay8 x1 xs1) x6 (woLo x7) (woHi x7)

/-- The first point stores the projection F·W₁ whole into the first scratch buffer, -/
theorem piecesA_0 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : cond0 i) (hc2 : ¬cond2 i) (hc3 : ¬cond3 i)
    (x2 : Vec F S4096x256 .f32) (x3 : Vec F S256x256 .f32) (x4 : Vec F S256x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4).1 = [⟨Rect.unit (s := S4096x256) ![0, 0] S4096x256.size inb_S4096x256_S4096x256_0_0, k0_pay1 x2 x3⟩] := by
  unfold kernelRun0_A; dsimp only
  simp only [View.readAt_eq_ld, harg3.read_unread, harg4.read_unread, View.ld_unit_zero (S := S4096x256) hz2, View.ld_unit_zero (S := S256x256) hz2]
/-- and F·Wₐ whole into the second. -/
theorem piecesA_1 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : cond0 i) (hc2 : ¬cond2 i) (hc3 : ¬cond3 i)
    (x2 : Vec F S4096x256 .f32) (x3 : Vec F S256x256 .f32) (x4 : Vec F S256x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4).2.1 = [⟨Rect.unit (s := S4096x256) ![0, 0] S4096x256.size inb_S4096x256_S4096x256_0_0, k0_pay2 x2 x4⟩] := by
  unfold kernelRun0_A; dsimp only
  simp only [View.readAt_eq_ld, harg3.read_unread, harg5.read_unread, View.ld_unit_zero (S := S4096x256) hz2, View.ld_unit_zero (S := S256x256) hz2]

/-- An aggregation point stores its 256 normalised distance rows at its row offset, -/
theorem piecesB_2 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : cond2 i) (hc3 : ¬cond3 i)
    (x0 x1 : Vec F S256x4096 .f32) (x5 x6 : Vec F S1x256 .f32) (x7 : Vec F S512x128 .f32)
    (xs0 xs1 : Vec F S4096x256 .bf16) (xs2 : Vec F S4096x4096 .bf16) (xs3 : Vec F S4096x128 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3).1 = [⟨Rect.unit (s := S4096x4096) (k0_off1 i) S256x4096.size (k0_off1_inb i hc2), k0_pay6 x0⟩] := by
  unfold kernelRun0_B; dsimp only
  simp only [View.readAt_eq_ld, harg1.read_unread, View.ld_unit_zero (S := S256x4096) hz2]
/-- and its 256 projected hidden rows at the same row offset. -/
theorem piecesB_3 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : cond2 i) (hc3 : ¬cond3 i)
    (x0 x1 : Vec F S256x4096 .f32) (x5 x6 : Vec F S1x256 .f32) (x7 : Vec F S512x128 .f32)
    (xs0 xs1 : Vec F S4096x256 .bf16) (xs2 : Vec F S4096x4096 .bf16) (xs3 : Vec F S4096x128 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3).2.1 = [⟨Rect.unit (s := S4096x128) (k0_off2 i) S256x128.size (k0_off2_inb i hc2), hiddenRows x0 x1 x5 x6 x7 xs0 xs1⟩] := by
  unfold kernelRun0_B; dsimp only
  sl_unfold_words
  simp only [View.readAt_eq_ld, harg1.read_unread, harg2.read_unread, harg6.read_unread, harg7.read_unread, harg8.read_unread,
    harg11.read_unread, harg12.read_unread, View.ld_unit_zero (S := S256x4096) hz2, View.ld_unit_zero (S := S1x256) hz2,
    View.ld_unit_zero (S := S4096x256) hz2]

/-- A result point stores the 512×128 block of the result whole: from the 512 normalised distance rows at its row
    offset, the projected hidden rows and the last bias row. -/
theorem piecesC_9 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : ¬cond2 i) (hc3 : cond3 i)
    (x8 : Vec F S1x128 .f32) (xs2 : Vec F S4096x4096 .bf16) (xs3 : Vec F S4096x128 .bf16) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x8 xs2 xs3).1 = [⟨Rect.unit (s := S512x128) ![0, 0] S512x128.size inb_S512x128_S512x128_0_0,
      k0_pay4 (View.ld xs2 (Rect.unit (s := S4096x4096) (k0_off3 i) S512x4096.size (k0_off3_inb i hc3))) xs3 x8⟩] := by
  unfold kernelRun0_C; dsimp only
  simp only [View.readAt_eq_ld, harg9.read_unread, harg13.read_unread, harg14.read_unread, View.ld_unit_zero (S := S4096x128) hz2,
    View.ld_unit_zero (S := S1x128) hz2]

end Cert.Kernel.Body

end
-- ==== Proof.KBState.lean ====
/-
  What the four scratch buffers hold from point to point: the two projections after the first point; of the two
  row-blocked buffers, the rows each aggregation point has stored so far, and the closed form once all sixteen have run.
-/
import proofs.«171890_g89756226552612_cont_sun_m_1083_24_alg».proof.Proof.KBPieces
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by rw [show cfg0.N = 25 from N_0]; omega⟩

/-- A store through the whole-shape rectangle at zero offsets reads back as its payload, whatever was there. -/
theorem read_writes_unit_zero {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-! ## What the scratch buffers hold -/

/-- The two feature projections, F·W₁ and F·Wₐ, as the first point stores them. -/
def sH1 (c : Dev nD) : Vec F S4096x256 .bf16 := k0_pay1 (iblk m c 2 t0) (iblk m c 3 t0)
def sH2 (c : Dev nD) : Vec F S4096x256 .bf16 := k0_pay2 (iblk m c 2 t0) (iblk m c 4 t0)

/-- The 256 rows an aggregation point t stores into the third and the fourth scratch buffer, and where. -/
def rows2 (c : Dev nD) (t : Fin cfg0.N) : Vec F S256x4096 .bf16 := k0_pay6 (iblk m c 0 t)
def rows3 (c : Dev nD) (t : Fin cfg0.N) : Vec F S256x128 .bf16 :=
  hiddenRows (iblk m c 0 t) (iblk m c 1 t) (iblk m c 5 t) (iblk m c 6 t) (iblk m c 7 t) (sH1 m c) (sH2 m c)
abbrev rect2 (t : Fin cfg0.N) (h2 : cond2 (grid0.coords t)) : Rect S4096x4096 :=
  Rect.unit (s := S4096x4096) (k0_off1 (grid0.coords t)) S256x4096.size (k0_off1_inb (grid0.coords t) h2)
abbrev rect3 (t : Fin cfg0.N) (h2 : cond2 (grid0.coords t)) : Rect S4096x128 :=
  Rect.unit (s := S4096x128) (k0_off2 (grid0.coords t)) S256x128.size (k0_off2_inb (grid0.coords t) h2)

/-- After point n, contents d of the third scratch buffer agree with every aggregation point up to n: the rows point t
    stored still read what it stored. -/
def Agree2 (c : Dev nD) (n : ℕ) (d : Vec F S4096x4096 .bf16) : Prop :=
  ∀ (t : Fin cfg0.N) (h2 : cond2 (grid0.coords t)), t.val ≤ n → ∀ x : S256x4096.Idx, d ((rect2 t h2).emb x) = rows2 m c t x
def Agree3 (c : Dev nD) (n : ℕ) (d : Vec F S4096x128 .bf16) : Prop :=
  ∀ (t : Fin cfg0.N) (h2 : cond2 (grid0.coords t)), t.val ≤ n → ∀ x : S256x128.Idx, d ((rect3 t h2).emb x) = rows3 m c t x

/-- Row r + x₀ of the row block starting at 256·(t−1). -/
theorem emb2_row (t : Fin cfg0.N) (h2 : cond2 (grid0.coords t)) (x : S256x4096.Idx) :
    (((rect2 t h2).emb x) (0 : Fin 2)).val = 256 * (t.val - 1) + (x (0 : Fin 2)).val := by
  have ht := (hcond2 t).mp h2
  show (k0_off1 (grid0.coords t)) 0 + 1 * (x (0 : Fin 2)).val = _
  rw [off1_eq t ht.1 ht.2]; simp
theorem emb3_row (t : Fin cfg0.N) (h2 : cond2 (grid0.coords t)) (x : S256x128.Idx) :
    (((rect3 t h2).emb x) (0 : Fin 2)).val = 256 * (t.val - 1) + (x (0 : Fin 2)).val := by
  have ht := (hcond2 t).mp h2
  show (k0_off2 (grid0.coords t)) 0 + 1 * (x (0 : Fin 2)).val = _
  rw [off2_eq t ht.1 ht.2]; simp

/-- Before any aggregation point nothing is asked. -/
theorem agree2_zero (c : Dev nD) (d : Vec F S4096x4096 .bf16) : Agree2 m c 0 d := fun t h2 hn _ => by
  have := (hcond2 t).mp h2; omega
theorem agree3_zero (c : Dev nD) (d : Vec F S4096x128 .bf16) : Agree3 m c 0 d := fun t h2 hn _ => by
  have := (hcond2 t).mp h2; omega

/-- Past the last aggregation point nothing more is asked. -/
theorem agree2_mono (c : Dev nD) {n n' : ℕ} (hn : 16 ≤ n) (d : Vec F S4096x4096 .bf16) (h : Agree2 m c n d) : Agree2 m c n' d :=
  fun t h2 _ x => h t h2 (by have := (hcond2 t).mp h2; omega) x
theorem agree3_mono (c : Dev nD) {n n' : ℕ} (hn : 16 ≤ n) (d : Vec F S4096x128 .bf16) (h : Agree3 m c n d) : Agree3 m c n' d :=
  fun t h2 _ x => h t h2 (by have := (hcond2 t).mp h2; omega) x

/-- An aggregation point's store keeps the agreement: its own rows read the new payload, the earlier points' rows lie
    above the stored block and are untouched. -/
theorem agree2_step (c : Dev nD) (t : Fin cfg0.N) (h2 : cond2 (grid0.coords t)) (d : Vec F S4096x4096 .bf16)
    (hd : Agree2 m c (t.val - 1) d) :
    Agree2 m c t.val (scM2.view.read (Elt F) (scM2.view.writes (Elt F) ((Memref.isWhole_whole cc0_scratch2).unread d)
      [(⟨rect2 t h2, rows2 m c t⟩ : View.Piece (Elt F) S4096x4096 .bf16)])) := by
  intro t' h2' hle x
  have ht := (hcond2 t).mp h2
  have ht' := (hcond2 t').mp h2'
  by_cases hEq : t' = t
  · subst hEq
    exact View.read_writes_cons_emb _ _ (rect2 t' h2) (rows2 m c t') [] x
  · have hlt : t'.val ≤ t.val - 1 := by
      have : t'.val ≠ t.val := fun h => hEq (Fin.ext h)
      omega
    have hx0 : (x (0 : Fin 2)).val < 256 := (x (0 : Fin 2)).isLt
    rw [View.read_writes_cons_rows_of_not_mem (o := 256 * (t.val - 1)) (W := 256) _ _ _ _ [] _ (off1_eq t ht.1 ht.2) rfl
      (Or.inl (by rw [emb2_row]; omega))]
    rw [View.writes_nil, (Memref.isWhole_whole cc0_scratch2).read_unread]
    exact hd t' h2' hlt x
theorem agree3_step (c : Dev nD) (t : Fin cfg0.N) (h2 : cond2 (grid0.coords t)) (d : Vec F S4096x128 .bf16)
    (hd : Agree3 m c (t.val - 1) d) :
    Agree3 m c t.val (scM3.view.read (Elt F) (scM3.view.writes (Elt F) ((Memref.isWhole_whole cc0_scratch3).unread d)
      [(⟨rect3 t h2, rows3 m c t⟩ : View.Piece (Elt F) S4096x128 .bf16)])) := by
  intro t' h2' hle x
  have ht := (hcond2 t).mp h2
  have ht' := (hcond2 t').mp h2'
  by_cases hEq : t' = t
  · subst hEq
    exact View.read_writes_cons_emb _ _ (rect3 t' h2) (rows3 m c t') [] x
  · have hlt : t'.val ≤ t.val - 1 := by
      have : t'.val ≠ t.val := fun h => hEq (Fin.ext h)
      omega
    have hx0 : (x (0 : Fin 2)).val < 256 := (x (0 : Fin 2)).isLt
    rw [View.read_writes_cons_rows_of_not_mem (o := 256 * (t.val - 1)) (W := 256) _ _ _ _ [] _ (off2_eq t ht.1 ht.2) rfl
      (Or.inl (by rw [emb3_row]; omega))]
    rw [View.writes_nil, (Memref.isWhole_whole cc0_scratch3).read_unread]
    exact hd t' h2' hlt x

/-! ## The two row-blocked scratch buffers once every aggregation point has run -/

/-- The aggregation point that stores row r: r / 256 + 1. -/
def tOfRow (r : ℕ) : Fin cfg0.N := ⟨r / 256 % 16 + 1, by rw [show cfg0.N = 25 from N_0]; omega⟩
theorem cond2_tOfRow (r : ℕ) : cond2 (grid0.coords (tOfRow r)) := (hcond2 _).mpr (by unfold tOfRow; dsimp only; omega)

/-- All 4096 normalised distance rows, and all 4096 projected hidden rows: row r is row r mod 256 of what point
    r / 256 + 1 stored. -/
def DN (c : Dev nD) : Vec F S4096x4096 .bf16 := fun y =>
  rows2 m c (tOfRow (y (0 : Fin 2)).val) (ValueIdx.ix2 (⟨(y (0 : Fin 2)).val % 256, Nat.mod_lt _ (by norm_num)⟩ : Fin 256) (y (1 : Fin 2)))
def YY (c : Dev nD) : Vec F S4096x128 .bf16 := fun y =>
  rows3 m c (tOfRow (y (0 : Fin 2)).val) (ValueIdx.ix2 (⟨(y (0 : Fin 2)).val % 256, Nat.mod_lt _ (by norm_num)⟩ : Fin 256) (y (1 : Fin 2)))

theorem agree2_full (c : Dev nD) {n : ℕ} (hn : 16 ≤ n) (d : Vec F S4096x4096 .bf16) (h : Agree2 m c n d) : d = DN m c := by
  funext y
  have hy : (y (0 : Fin 2)).val < 4096 := ValueIdx.idx2_lt0 y
  have h2 := cond2_tOfRow (y (0 : Fin 2)).val
  have ht := (hcond2 _).mp h2
  have key := h (tOfRow (y (0 : Fin 2)).val) h2 (by omega)
    (ValueIdx.ix2 (⟨(y (0 : Fin 2)).val % 256, Nat.mod_lt _ (by norm_num)⟩ : Fin 256) (y (1 : Fin 2)))
  have hemb : (rect2 (tOfRow (y (0 : Fin 2)).val) h2).emb
      (ValueIdx.ix2 (⟨(y (0 : Fin 2)).val % 256, Nat.mod_lt _ (by norm_num)⟩ : Fin 256) (y (1 : Fin 2))) = y := by
    funext a
    apply Fin.ext
    match a with
    | ⟨0, _⟩ =>
      show (k0_off1 (grid0.coords (tOfRow (y (0 : Fin 2)).val))) 0 + 1 * ((y (0 : Fin 2)).val % 256) = (y (0 : Fin 2)).val
      rw [off1_eq _ ht.1 ht.2]
      show 256 * ((y (0 : Fin 2)).val / 256 % 16 + 1 - 1) + 1 * ((y (0 : Fin 2)).val % 256) = (y (0 : Fin 2)).val
      omega
    | ⟨1, _⟩ =>
      show (k0_off1 (grid0.coords (tOfRow (y (0 : Fin 2)).val))) 1 + 1 * (y (1 : Fin 2)).val = (y (1 : Fin 2)).val
      rw [off1_eq _ ht.1 ht.2]
      show 0 + 1 * (y (1 : Fin 2)).val = _
      omega
  rw [hemb] at key
  exact key
theorem agree3_full (c : Dev nD) {n : ℕ} (hn : 16 ≤ n) (d : Vec F S4096x128 .bf16) (h : Agree3 m c n d) : d = YY m c := by
  funext y
  have hy : (y (0 : Fin 2)).val < 4096 := ValueIdx.idx2_lt0 y
  have h2 := cond2_tOfRow (y (0 : Fin 2)).val
  have ht := (hcond2 _).mp h2
  have key := h (tOfRow (y (0 : Fin 2)).val) h2 (by omega)
    (ValueIdx.ix2 (⟨(y (0 : Fin 2)).val % 256, Nat.mod_lt _ (by norm_num)⟩ : Fin 256) (y (1 : Fin 2)))
  have hemb : (rect3 (tOfRow (y (0 : Fin 2)).val) h2).emb
      (ValueIdx.ix2 (⟨(y (0 : Fin 2)).val % 256, Nat.mod_lt _ (by norm_num)⟩ : Fin 256) (y (1 : Fin 2))) = y := by
    funext a
    apply Fin.ext
    match a with
    | ⟨0, _⟩ =>
      show (k0_off2 (grid0.coords (tOfRow (y (0 : Fin 2)).val))) 0 + 1 * ((y (0 : Fin 2)).val % 256) = (y (0 : Fin 2)).val
      rw [off2_eq _ ht.1 ht.2]
      show 256 * ((y (0 : Fin 2)).val / 256 % 16 + 1 - 1) + 1 * ((y (0 : Fin 2)).val % 256) = (y (0 : Fin 2)).val
      omega
    | ⟨1, _⟩ =>
      show (k0_off2 (grid0.coords (tOfRow (y (0 : Fin 2)).val))) 1 + 1 * (y (1 : Fin 2)).val = (y (1 : Fin 2)).val
      rw [off2_eq _ ht.1 ht.2]
      show 0 + 1 * (y (1 : Fin 2)).val = _
      omega
  rw [hemb] at key
  exact key

end Cert.Kernel.Body

end
-- ==== Proof.KBRuns.lean ====
/-
  The three kinds of grid point with what each stores named by its payload.
-/
import proofs.«171890_g89756226552612_cont_sun_m_1083_24_alg».proof.Proof.KBState

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's run with its two piece lists named. -/
theorem runA_closed (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : cond0 i) (hc2 : ¬cond2 i) (hc3 : ¬cond3 i)
    (x2 : Vec F S4096x256 .f32) (x3 : Vec F S256x256 .f32) (x4 : Vec F S256x256 .f32) :
    ∃ (LS0 LS1 : List (View.Piece (Elt F) S4096x256 .bf16)),
      LS0 = [⟨Rect.unit (s := S4096x256) ![0, 0] S4096x256.size inb_S4096x256_S4096x256_0_0, k0_pay1 x2 x3⟩]
      ∧ LS1 = [⟨Rect.unit (s := S4096x256) ![0, 0] S4096x256.size inb_S4096x256_S4096x256_0_0, k0_pay2 x2 x4⟩]
      ∧ ∀ (E : Set ℕ) (K : PUnit → sProp 𝕄),
        iprop(owns (c : Thread nD τ) arg3 fullShare x2 ∗ owns (c : Thread nD τ) arg4 fullShare x3 ∗ owns (c : Thread nD τ) arg5 fullShare x4 ∗ (∃ d, owns (c : Thread nD τ) arg11 fullShare d) ∗ (∃ d, owns (c : Thread nD τ) arg12 fullShare d)
            ∗ (iprop(owns (c : Thread nD τ) arg3 fullShare x2 ∗ owns (c : Thread nD τ) arg4 fullShare x3 ∗ owns (c : Thread nD τ) arg5 fullShare x4
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K :=
  ⟨_, _, piecesA_0 c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4, piecesA_1 c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4, (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4).2.2⟩

/-- An aggregation point's run with its two piece lists named. -/
theorem runB_closed (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : cond2 i) (hc3 : ¬cond3 i)
    (x0 x1 : Vec F S256x4096 .f32) (x5 x6 : Vec F S1x256 .f32) (x7 : Vec F S512x128 .f32)
    (xs0 xs1 : Vec F S4096x256 .bf16) (xs2 : Vec F S4096x4096 .bf16) (xs3 : Vec F S4096x128 .bf16) :
    ∃ (LS2 : List (View.Piece (Elt F) S4096x4096 .bf16)) (LS3 : List (View.Piece (Elt F) S4096x128 .bf16)),
      LS2 = [⟨Rect.unit (s := S4096x4096) (k0_off1 i) S256x4096.size (k0_off1_inb i hc2), k0_pay6 x0⟩]
      ∧ LS3 = [⟨Rect.unit (s := S4096x128) (k0_off2 i) S256x128.size (k0_off2_inb i hc2), hiddenRows x0 x1 x5 x6 x7 xs0 xs1⟩]
      ∧ ∀ (E : Set ℕ) (K : PUnit → sProp 𝕄),
        iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
            ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
                ∗ owns (c : Thread nD τ) arg11 fullShare xs0 ∗ owns (c : Thread nD τ) arg12 fullShare xs1
                ∗ (arg13.view.loc (c : Thread nD τ) ↦[arg13.view.set]{fullShare} arg13.view.writes (Elt F) (harg13.unread xs2) LS2)
                ∗ (arg14.view.loc (c : Thread nD τ) ↦[arg14.view.set]{fullShare} arg14.view.writes (Elt F) (harg14.unread xs3) LS3)) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K :=
  ⟨_, _, piecesB_2 c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3, piecesB_3 c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3, (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3).2.2⟩

/-- A result point's run with its piece list named. -/
theorem runC_closed (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : ¬cond2 i) (hc3 : cond3 i)
    (x8 : Vec F S1x128 .f32) (xs2 : Vec F S4096x4096 .bf16) (xs3 : Vec F S4096x128 .bf16) :
    ∃ (L9 : List (View.Piece (Elt F) S512x128 .f32)),
      L9 = [⟨Rect.unit (s := S512x128) ![0, 0] S512x128.size inb_S512x128_S512x128_0_0,
        k0_pay4 (View.ld xs2 (Rect.unit (s := S4096x4096) (k0_off3 i) S512x4096.size (k0_off3_inb i hc3))) xs3 x8⟩]
      ∧ ∀ (E : Set ℕ) (K : PUnit → sProp 𝕄),
        iprop(owns (c : Thread nD τ) arg9 fullShare x8 ∗ (∃ d, owns (c : Thread nD τ) arg10 fullShare d) ∗ owns (c : Thread nD τ) arg13 fullShare xs2 ∗ owns (c : Thread nD τ) arg14 fullShare xs3
            ∗ (iprop(owns (c : Thread nD τ) arg9 fullShare x8
                ∗ (∃ f, arg10.view.loc (c : Thread nD τ) ↦[arg10.view.set]{fullShare} arg10.view.writes (Elt F) f L9)
                ∗ owns (c : Thread nD τ) arg13 fullShare xs2 ∗ owns (c : Thread nD τ) arg14 fullShare xs3) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K :=
  ⟨_, piecesC_9 c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x8 xs2 xs3, (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x8 xs2 xs3).2⟩

/-- The first point, with what it stores named: the two scratch buffers end at F·W₁ and F·Wₐ. -/
theorem runA (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : cond0 i) (hc2 : ¬cond2 i) (hc3 : ¬cond3 i)
    (x2 : Vec F S4096x256 .f32) (x3 : Vec F S256x256 .f32) (x4 : Vec F S256x256 .f32) (E : Set ℕ) (K : PUnit → sProp 𝕄) :
    iprop(owns (c : Thread nD τ) arg3 fullShare x2 ∗ owns (c : Thread nD τ) arg4 fullShare x3 ∗ owns (c : Thread nD τ) arg5 fullShare x4 ∗ (∃ d, owns (c : Thread nD τ) arg11 fullShare d) ∗ (∃ d, owns (c : Thread nD τ) arg12 fullShare d)
        ∗ (iprop(owns (c : Thread nD τ) arg3 fullShare x2 ∗ owns (c : Thread nD τ) arg4 fullShare x3 ∗ owns (c : Thread nD τ) arg5 fullShare x4
            ∗ owns (c : Thread nD τ) arg11 fullShare (k0_pay1 x2 x3) ∗ owns (c : Thread nD τ) arg12 fullShare (k0_pay2 x2 x4)) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K := by
  obtain ⟨LS0, LS1, rfl, rfl, h⟩ := runA_closed c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4
  have h := h E K
  iintro ⟨H2, H3, H4, HS0, HS1, Hk⟩
  iapply h
  isplitl [H2]; · iexact H2
  isplitl [H3]; · iexact H3
  isplitl [H4]; · iexact H4
  isplitl [HS0]; · iexact HS0
  isplitl [HS1]; · iexact HS1
  iintro ⟨H2, H3, H4, ⟨%f0, HS0⟩, ⟨%f1, HS1⟩⟩
  iapply Hk
  isplitl [H2]; · iexact H2
  isplitl [H3]; · iexact H3
  isplitl [H4]; · iexact H4
  isplitl [HS0]
  · unfold owns; iexists _; isplitr
    swap; · iexact HS0
    ipureintro; exact read_writes_unit_zero _ _ hz2 _ _
  unfold owns; iexists _; isplitr
  swap; · iexact HS1
  ipureintro; exact read_writes_unit_zero _ _ hz2 _ _

/-- An aggregation point, with what it stores named: the third and fourth scratch buffers end at their earlier
    contents overwritten, at the point's row offset, by the 256 normalised distance rows and the 256 projected hidden rows. -/
theorem runB (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : cond2 i) (hc3 : ¬cond3 i)
    (x0 x1 : Vec F S256x4096 .f32) (x5 x6 : Vec F S1x256 .f32) (x7 : Vec F S512x128 .f32)
    (xs0 xs1 : Vec F S4096x256 .bf16) (xs2 : Vec F S4096x4096 .bf16) (xs3 : Vec F S4096x128 .bf16) (E : Set ℕ) (K : PUnit → sProp 𝕄) :
    iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
        ∗ owns (c : Thread nD τ) arg11 fullShare xs0 ∗ owns (c : Thread nD τ) arg12 fullShare xs1 ∗ owns (c : Thread nD τ) arg13 fullShare xs2 ∗ owns (c : Thread nD τ) arg14 fullShare xs3
        ∗ (iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
            ∗ owns (c : Thread nD τ) arg11 fullShare xs0 ∗ owns (c : Thread nD τ) arg12 fullShare xs1
            ∗ owns (c : Thread nD τ) arg13 fullShare (arg13.view.read (Elt F) (arg13.view.writes (Elt F) (harg13.unread xs2) [(⟨Rect.unit (s := S4096x4096) (k0_off1 i) S256x4096.size (k0_off1_inb i hc2), k0_pay6 x0⟩ : View.Piece (Elt F) S4096x4096 .bf16)]))
            ∗ owns (c : Thread nD τ) arg14 fullShare (arg14.view.read (Elt F) (arg14.view.writes (Elt F) (harg14.unread xs3) [(⟨Rect.unit (s := S4096x128) (k0_off2 i) S256x128.size (k0_off2_inb i hc2), hiddenRows x0 x1 x5 x6 x7 xs0 xs1⟩ : View.Piece (Elt F) S4096x128 .bf16)]))) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K := by
  obtain ⟨LS2, LS3, rfl, rfl, h⟩ := runB_closed c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3
  have h := h E K
  iintro ⟨H0, H1, H5, H6, H7, HS0, HS1, HS2, HS3, Hk⟩
  iapply h
  isplitl [H0]; · iexact H0
  isplitl [H1]; · iexact H1
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H5, H6, H7, HS0, HS1, HS2, HS3⟩
  iapply Hk
  isplitl [H0]; · iexact H0
  isplitl [H1]; · iexact H1
  isplitl [H5]; · iexact H5
  isplitl [H6]; · iexact H6
  isplitl [H7]; · iexact H7
  isplitl [HS0]; · iexact HS0
  isplitl [HS1]; · iexact HS1
  isplitl [HS2]
  · unfold owns; iexists _; isplitr
    swap; · iexact HS2
    ipureintro; rfl
  unfold owns; iexists _; isplitr
  swap; · iexact HS3
  ipureintro; rfl

/-- A result point, with what it stores named: the result window's buffer ends at the 512×128 block computed from the
    512 normalised distance rows at the point's row offset, the projected hidden rows and the last bias row. -/
theorem runC (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : ¬cond2 i) (hc3 : cond3 i)
    (x8 : Vec F S1x128 .f32) (xs2 : Vec F S4096x4096 .bf16) (xs3 : Vec F S4096x128 .bf16) (E : Set ℕ) (K : PUnit → sProp 𝕄) :
    iprop(owns (c : Thread nD τ) arg9 fullShare x8 ∗ (∃ d, owns (c : Thread nD τ) arg10 fullShare d) ∗ owns (c : Thread nD τ) arg13 fullShare xs2 ∗ owns (c : Thread nD τ) arg14 fullShare xs3
        ∗ (iprop(owns (c : Thread nD τ) arg9 fullShare x8
            ∗ owns (c : Thread nD τ) arg10 fullShare (k0_pay4 (View.ld xs2 (Rect.unit (s := S4096x4096) (k0_off3 i) S512x4096.size (k0_off3_inb i hc3))) xs3 x8)
            ∗ owns (c : Thread nD τ) arg13 fullShare xs2 ∗ owns (c : Thread nD τ) arg14 fullShare xs3) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K := by
  obtain ⟨L9, rfl, h⟩ := runC_closed c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x8 xs2 xs3
  have h := h E K
  iintro ⟨H8, H9, HS2, HS3, Hk⟩
  iapply h
  isplitl [H8]; · iexact H8
  isplitl [H9]; · iexact H9
  isplitl [HS2]; · iexact HS2
  isplitl [HS3]; · iexact HS3
  iintro ⟨H8, ⟨%f9, H9⟩, HS2, HS3⟩
  iapply Hk
  isplitl [H8]; · iexact H8
  isplitl [H9]
  · unfold owns; iexists _; isplitr
    swap; · iexact H9
    ipureintro; exact read_writes_unit_zero _ _ hz2 _ _
  isplitl [HS2]; · iexact HS2
  iexact HS3

end Cert.Kernel.Body

end
-- ==== Proof.KBFrame.lean ====
/-
  The proof data of the pipeline, the body obligation at every grid point, the run and the frame.
-/
import proofs.«171890_g89756226552612_cont_sun_m_1083_24_alg».proof.Proof.KBRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What a result point leaves in the result window's buffer: the 512×128 block from the 512 normalised distance rows
    at the point's row offset, all projected hidden rows and the last bias row. (At the other points the window is idle.) -/
def outAt (c : Dev nD) (t : Fin cfg0.N) : Vec F S512x128 .f32 :=
  if h3 : cond3 (grid0.coords t) then
    k0_pay4 (View.ld (DN m c) (Rect.unit (s := S4096x4096) (k0_off3 (grid0.coords t)) S512x4096.size (k0_off3_inb (grid0.coords t) h3)))
      (YY m c) (iblk m c 8 t)
  else iblk m c 9 t

theorem outAt_pos (c : Dev nD) (t : Fin cfg0.N) (h3 : cond3 (grid0.coords t)) :
    outAt m c t = k0_pay4 (View.ld (DN m c) (Rect.unit (s := S4096x4096) (k0_off3 (grid0.coords t)) S512x4096.size (k0_off3_inb (grid0.coords t) h3)))
      (YY m c) (iblk m c 8 t) := dif_pos h3

/-- The invariant before position p: before the first point the scratch buffers hold anything; afterwards the first two
    hold the two projections and the two row-blocked ones agree with every aggregation point already run. -/
def PhiS (c : Dev nD) : ℕ → sProp 𝕄
  | 0 => Pipeline.ΦA spec0 c
  | p + 1 => iprop(iprop(owns (c : Thread nD τ) scM0 fullShare (sH1 m c) ∗ owns (c : Thread nD τ) scM1 fullShare (sH2 m c)
      ∗ (∃ d, ⌜Agree2 m c p d⌝ ∗ owns (c : Thread nD τ) scM2 fullShare d)
      ∗ (∃ d, ⌜Agree3 m c p d⌝ ∗ owns (c : Thread nD τ) scM3 fullShare d)) ∗ (∃ r, prngReg c r))

theorem PhiS_succ (c : Dev nD) (p : ℕ) :
    PhiS m c (p + 1) = iprop(iprop(owns (c : Thread nD τ) scM0 fullShare (sH1 m c) ∗ owns (c : Thread nD τ) scM1 fullShare (sH2 m c)
      ∗ (∃ d, ⌜Agree2 m c p d⌝ ∗ owns (c : Thread nD τ) scM2 fullShare d)
      ∗ (∃ d, ⌜Agree3 m c p d⌝ ∗ owns (c : Thread nD τ) scM3 fullShare d)) ∗ (∃ r, prngReg c r)) := rfl

theorem PhiS_pos (c : Dev nD) (n : ℕ) (hz : n ≠ 0) :
    PhiS m c n = iprop(iprop(owns (c : Thread nD τ) scM0 fullShare (sH1 m c) ∗ owns (c : Thread nD τ) scM1 fullShare (sH2 m c)
      ∗ (∃ d, ⌜Agree2 m c (n - 1) d⌝ ∗ owns (c : Thread nD τ) scM2 fullShare d)
      ∗ (∃ d, ⌜Agree3 m c (n - 1) d⌝ ∗ owns (c : Thread nD τ) scM3 fullShare d)) ∗ (∃ r, prngReg c r)) := by
  cases n with
  | zero => exact absurd rfl hz
  | succ n => rfl

/-- The proof data of the one pipeline on core c: the arrays as the region finds them; after the body each input's buffer
    at its block and the result's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point, by the kind of the point: the first point fills the two projections; an aggregation point
    extends the agreement of the two row-blocked scratch buffers by its own rows; a result point, all sixteen aggregation
    points behind it, finds the two buffers at their closed forms and stores the result block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from by dsimp only [dats]; simp only [Fin.coe_castSucc]]
  have hN : t.val < 25 := lt_of_lt_of_eq t.isLt (show cfg0.N = 25 from N_0)
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [show (dats m 0 c).leavesExact 4 t = owns (c : Thread nD τ) (ms4 t) fullShare ((dats m 0 c).after 4 t) from by
    unfold Dat.leavesExact; rw [live4 t], after0_4]
  rw [show (dats m 0 c).leavesExact 5 t = owns (c : Thread nD τ) (ms5 t) fullShare ((dats m 0 c).after 5 t) from by
    unfold Dat.leavesExact; rw [live5 t], after0_5]
  rw [show (dats m 0 c).leavesExact 6 t = owns (c : Thread nD τ) (ms6 t) fullShare ((dats m 0 c).after 6 t) from by
    unfold Dat.leavesExact; rw [live6 t], after0_6]
  rw [show (dats m 0 c).leavesExact 7 t = owns (c : Thread nD τ) (ms7 t) fullShare ((dats m 0 c).after 7 t) from by
    unfold Dat.leavesExact; rw [live7 t], after0_7]
  rw [show (dats m 0 c).leavesExact 8 t = owns (c : Thread nD τ) (ms8 t) fullShare ((dats m 0 c).after 8 t) from by
    unfold Dat.leavesExact; rw [live8 t], after0_8]
  by_cases hz : t.val = 0
  · -- the first point
    have hc0 : cond0 (grid0.coords t) := (hcond0 t).mpr hz
    have hc2 : ¬cond2 (grid0.coords t) := fun h => by have := (hcond2 t).mp h; omega
    have hc3 : ¬cond3 (grid0.coords t) := fun h => by have := (hcond3 t).mp h; omega
    have ht : t = t0 := Fin.ext hz
    rw [Dat.leavesExact_idle (dats m 0 c) 9 t (idle9 t (by omega)) (noFlush9 t (by omega))]
    rw [show PhiS m c t.val = Pipeline.ΦA spec0 c from by rw [hz]; rfl, PhiA0_eq]
    iintro ⟨⟨⟨HS0, HS1, HS2, HS3⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, H9⟩
    iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) hc0 hc2 hc3 (iblk m c 2 t) (iblk m c 3 t) (iblk m c 4 t) Set.univ _)
    isplitl [H2]; · iexact H2
    isplitl [H3]; · iexact H3
    isplitl [H4]; · iexact H4
    isplitl [HS0]; · iexact HS0
    isplitl [HS1]; · iexact HS1
    iintro ⟨H2, H3, H4, HS0, HS1⟩
    isplitl [HS0 HS1 HS2 HS3 Hg]
    · isplitr [Hg]
      swap; · iexact Hg
      isplitl [HS0]; · subst ht; iexact HS0
      isplitl [HS1]; · subst ht; iexact HS1
      isplitl [HS2]
      · icases HS2 with ⟨%d, HS2⟩
        iexists d; isplitr; · ipureintro; rw [hz]; exact agree2_zero m c d
        iexact HS2
      icases HS3 with ⟨%d, HS3⟩
      iexists d; isplitr; · ipureintro; rw [hz]; exact agree3_zero m c d
      iexact HS3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h17 : t.val < 17
    · -- an aggregation point
      have hc0 : ¬cond0 (grid0.coords t) := fun h => hz ((hcond0 t).mp h)
      have hc2 : cond2 (grid0.coords t) := (hcond2 t).mpr (by omega)
      have hc3 : ¬cond3 (grid0.coords t) := fun h => by have := (hcond3 t).mp h; omega
      rw [Dat.leavesExact_idle (dats m 0 c) 9 t (idle9 t h17) (noFlush9 t h17)]
      rw [PhiS_pos m c _ hz]
      iintro ⟨⟨⟨HS0, HS1, ⟨%d2, %hA2, HS2⟩, ⟨%d3, %hA3, HS3⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, H9⟩
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) hc0 hc2 hc3 (iblk m c 0 t) (iblk m c 1 t) (iblk m c 5 t) (iblk m c 6 t) (iblk m c 7 t) (sH1 m c) (sH2 m c) d2 d3 Set.univ _)
      isplitl [H0]; · iexact H0
      isplitl [H1]; · iexact H1
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H5, H6, H7, HS0, HS1, HS2, HS3⟩
      isplitl [HS0 HS1 HS2 HS3 Hg]
      · isplitr [Hg]
        swap; · iexact Hg
        isplitl [HS0]; · iexact HS0
        isplitl [HS1]; · iexact HS1
        isplitl [HS2]
        · iexists _; isplitr; · ipureintro; exact agree2_step m c t hc2 d2 hA2
          iexact HS2
        iexists _; isplitr; · ipureintro; exact agree3_step m c t hc2 d3 hA3
        iexact HS3
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a result point
      have hc0 : ¬cond0 (grid0.coords t) := fun h => hz ((hcond0 t).mp h)
      have hc2 : ¬cond2 (grid0.coords t) := fun h => by have := (hcond2 t).mp h; omega
      have hc3 : cond3 (grid0.coords t) := (hcond3 t).mpr (by omega)
      rw [show (dats m 0 c).leavesExact 9 t = owns (c : Thread nD τ) (ms9 t) fullShare ((dats m 0 c).after 9 t) from by
        unfold Dat.leavesExact; rw [live9 t (by omega)], after0_9, outAt_pos m c t hc3]
      rw [PhiS_pos m c _ hz]
      iintro ⟨⟨⟨HS0, HS1, ⟨%d2, %hA2, HS2⟩, ⟨%d3, %hA3, HS3⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
      obtain rfl := agree2_full m c (n := t.val - 1) (by omega) d2 hA2
      obtain rfl := agree3_full m c (n := t.val - 1) (by omega) d3 hA3
      iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) hc0 hc2 hc3 (iblk m c 8 t) (DN m c) (YY m c) Set.univ _)
      isplitl [H8]; · iexact H8
      isplitl [H9]; · iexists _; iexact H9
      isplitl [HS2]; · iexact HS2
      isplitl [HS3]; · iexact HS3
      iintro ⟨H8, H9, HS2, HS3⟩
      isplitl [HS0 HS1 HS2 HS3 Hg]
      · isplitr [Hg]
        swap; · iexact Hg
        isplitl [HS0]; · iexact HS0
        isplitl [HS1]; · iexact HS1
        isplitl [HS2]
        · iexists _; isplitr; · ipureintro; exact agree2_mono m c (n := t.val - 1) (by omega) _ hA2
          iexact HS2
        iexists _; isplitr; · ipureintro; exact agree3_mono m c (n := t.val - 1) (by omega) _ hA3
        iexact HS3
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 25 := N_0; omega), PhiA0_eq]
  iintro ⟨⟨HS0, HS1, ⟨%d2, -, HS2⟩, ⟨%d3, -, HS3⟩⟩, Hg⟩
  isplitr [Hg]
  swap; · iexact Hg
  isplitl [HS0]; · iexists _; iexact HS0
  isplitl [HS1]; · iexists _; iexact HS1
  isplitl [HS2]; · iexists _; iexact HS2
  iexists _; iexact HS3

/-! ## The run and the frame -/

set_option backward.isDefEq.respectTransparency.types false in
/-- Every weakly fair execution of the program terminates, every array of the pipeline ends at what the library computes
    from the proof data, and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program terminates, faults nowhere and leaves its nine argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Body

end
-- ==== Proof.KIBase.lean ====
/-
  What the runs of the kernel body share: which of the body's three branches a grid coordinate takes, the row
  offsets of the row-blocked scratch accesses in closed form, where the result window is idle, and the names of the
  staging and scratch memrefs.
-/
import proofs.«171890_g89756226552612_cont_sun_m_1083_24_alg».proof.Proof.Gen.KernelIdeal.Launch
import proofs.«171890_g89756226552612_cont_sun_m_1083_24_alg».proof.Proof.Gen.KernelIdeal.Skeleton
import proofs.«171890_g89756226552612_cont_sun_m_1083_24_alg».proof.Proof.Gen.KernelIdeal.Points
import proofs.«171890_g89756226552612_cont_sun_m_1083_24_alg».proof.Proof.Gen.KernelIdeal.Frame
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body is taken: the grid coordinate is 0. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The second branch is taken: the coordinate lies in 1..16 (the sixteen row blocks of the aggregation). -/
abbrev cond2 (i : grid0.Coords) : Prop := k0_cond2 i = 1#1
theorem hcond2 : ∀ t : Fin cfg0.N, cond2 (grid0.coords t) ↔ (1 ≤ t.val ∧ t.val ≤ 16) :=
  (by decide +kernel : ∀ t : Fin grid0.N, cond2 (grid0.coords t) ↔ (1 ≤ t.val ∧ t.val ≤ 16))

/-- The third branch is taken: the coordinate lies in 17..24 (the eight row blocks of the result). -/
abbrev cond3 (i : grid0.Coords) : Prop := k0_cond3 i = 1#1
theorem hcond3 : ∀ t : Fin cfg0.N, cond3 (grid0.coords t) ↔ 17 ≤ t.val :=
  (by decide +kernel : ∀ t : Fin grid0.N, cond3 (grid0.coords t) ↔ 17 ≤ t.val)

/-- At coordinate t in 1..16 the rows stored into the two row-blocked scratch buffers start at 256·(t−1). -/
theorem off1_eq : ∀ t : Fin cfg0.N, 1 ≤ t.val → t.val ≤ 16 → k0_off1 (grid0.coords t) = ![256 * (t.val - 1), 0] :=
  (by decide +kernel : ∀ t : Fin grid0.N, 1 ≤ t.val → t.val ≤ 16 → k0_off1 (grid0.coords t) = ![256 * (t.val - 1), 0])
theorem off2_eq : ∀ t : Fin cfg0.N, 1 ≤ t.val → t.val ≤ 16 → k0_off2 (grid0.coords t) = ![256 * (t.val - 1), 0] :=
  (by decide +kernel : ∀ t : Fin grid0.N, 1 ≤ t.val → t.val ≤ 16 → k0_off2 (grid0.coords t) = ![256 * (t.val - 1), 0])
/-- At coordinate t in 17..24 the rows read back start at 512·(t−17). -/
theorem off3_eq : ∀ t : Fin cfg0.N, 17 ≤ t.val → k0_off3 (grid0.coords t) = ![512 * (t.val - 17), 0] :=
  (by decide +kernel : ∀ t : Fin grid0.N, 17 ≤ t.val → k0_off3 (grid0.coords t) = ![512 * (t.val - 17), 0])

/-- The result window is idle, and not written back, before coordinate 17; live from 17 on. -/
theorem idle9 : ∀ t : Fin cfg0.N, t.val < 17 → cfg0.idle 9 (grid0.coords t) = true := by decide +kernel
theorem noFlush9 : ∀ t : Fin cfg0.N, t.val < 17 → (cfg0.win 9).flush t = false := by decide +kernel
theorem live9 : ∀ t : Fin cfg0.N, 17 ≤ t.val → cfg0.idle 9 (grid0.coords t) = false := by decide +kernel

/-- Each window's current staging memref at a point, and its wholeness. -/
abbrev ms0 (t : Fin cfg0.N) : Memref sig .tc .vmem S256x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x128 .f32 := win0_9.stage (cfg0.slots t 9)
abbrev hs9 (t : Fin cfg0.N) : (ms9 t).IsWhole := hstage0_9 ((cfg0.slots t 9).cast nbuf0_9)

/-- The four scratch operands: the two feature projections, the normalised distance rows, the projected hidden rows. -/
abbrev scM0 : Memref sig .tc .vmem S4096x256 .bf16 := Memref.whole cc0_scratch0
abbrev scM1 : Memref sig .tc .vmem S4096x256 .bf16 := Memref.whole cc0_scratch1
abbrev scM2 : Memref sig .tc .vmem S4096x4096 .bf16 := Memref.whole cc0_scratch2
abbrev scM3 : Memref sig .tc .vmem S4096x128 .bf16 := Memref.whole cc0_scratch3

/-- The class invariant with the scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

end Cert.KernelIdeal.Body

end
-- ==== Proof.KIRunA.lean ====
/-
  The kernel body at the first grid point.
-/
import proofs.«171890_g89756226552612_cont_sun_m_1083_24_alg».proof.Proof.KIBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT. The body loads the features and the two 256×256 weights and stores the two projections
    F·W₁ and F·Wₐ whole into the first two scratch buffers; it touches nothing else. The pieces each scratch ends with
    are found by the run. -/
noncomputable def kernelRun0_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : cond0 i) (hc2 : ¬cond2 i) (hc3 : ¬cond3 i)
    (x2 : Vec F S4096x256 .f32) (x3 : Vec F S256x256 .f32) (x4 : Vec F S256x256 .f32) :
    Σ' (LS0 : List (View.Piece (Elt F) S4096x256 .bf16)), { LS1 : List (View.Piece (Elt F) S4096x256 .bf16) //
      ∀ (E : Set ℕ) (K : PUnit → sProp 𝕄),
        iprop(owns (c : Thread nD τ) arg3 fullShare x2 ∗ owns (c : Thread nD τ) arg4 fullShare x3 ∗ owns (c : Thread nD τ) arg5 fullShare x4 ∗ (∃ d, owns (c : Thread nD τ) arg11 fullShare d) ∗ (∃ d, owns (c : Thread nD τ) arg12 fullShare d)
            ∗ (iprop(owns (c : Thread nD τ) arg3 fullShare x2 ∗ owns (c : Thread nD τ) arg4 fullShare x3 ∗ owns (c : Thread nD τ) arg5 fullShare x4
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__main_body_eq_skeleton]; unfold cc0__main_body_skel
    unfold owns
    iintro ⟨⟨%f2, %hf2, H2⟩, ⟨%f3, %hf3, H3⟩, ⟨%f4, %hf4, H4⟩, ⟨%d0, %fs0, -, HS0⟩, ⟨%d1, %fs1, -, HS1⟩, Hk⟩
    obtain rfl := harg3.eq_unread hf2; obtain rfl := harg4.eq_unread hf3; obtain rfl := harg5.eq_unread hf4
    sl_exec (disch := first | exact hc0 | exact hc2 | exact hc3)
    sl_step
    iapply Hk
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Body

end
-- ==== Proof.KIRunB.lean ====
/-
  The kernel body at an aggregation point.
-/
import proofs.«171890_g89756226552612_cont_sun_m_1083_24_alg».proof.Proof.KIBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- AN AGGREGATION POINT (coordinates 1..16). The body loads the point's 256 rows of the two adjacency arrays, the two
    projections, the two bias rows and the output weight; stores the 256 normalised distance rows into the third scratch
    buffer and the 256 projected hidden rows into the fourth, both at the point's row offset; everything else is left as it
    was. The pieces are found by the run; the two row-blocked scratch buffers keep their earlier contents under the pieces. -/
noncomputable def kernelRun0_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : cond2 i) (hc3 : ¬cond3 i)
    (x0 x1 : Vec F S256x4096 .f32) (x5 x6 : Vec F S1x256 .f32) (x7 : Vec F S512x128 .f32)
    (xs0 xs1 : Vec F S4096x256 .bf16) (xs2 : Vec F S4096x4096 .bf16) (xs3 : Vec F S4096x128 .bf16) :
    Σ' (LS2 : List (View.Piece (Elt F) S4096x4096 .bf16)), { LS3 : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
            ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
                ∗ owns (c : Thread nD τ) arg11 fullShare xs0 ∗ owns (c : Thread nD τ) arg12 fullShare xs1
                ∗ (arg13.view.loc (c : Thread nD τ) ↦[arg13.view.set]{fullShare} arg13.view.writes (Elt F) (harg13.unread xs2) LS2)
                ∗ (arg14.view.loc (c : Thread nD τ) ↦[arg14.view.set]{fullShare} arg14.view.writes (Elt F) (harg14.unread xs3) LS3)) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__main_body_eq_skeleton]; unfold cc0__main_body_skel
    simp only [k0_part1_eq_skeleton]
    unfold owns
    iintro ⟨⟨%f0, %hf0, H0⟩, ⟨%f1, %hf1, H1⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hf5
    obtain rfl := harg7.eq_unread hf6; obtain rfl := harg8.eq_unread hf7; obtain rfl := harg11.eq_unread hfs0
    obtain rfl := harg12.eq_unread hfs1; obtain rfl := harg13.eq_unread hfs2; obtain rfl := harg14.eq_unread hfs3
    sl_exec (disch := first | exact hc0 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg11.read_unread _
      iexact HS0
    isplitl [HS1]
    · iexists _; isplitr; · ipureintro; exact harg12.read_unread _
      iexact HS1
    isplitl [HS2]; · iexact HS2
    iexact HS3

end Cert.KernelIdeal.Body

end
-- ==== Proof.KIRunC.lean ====
/-
  The kernel body at a result point.
-/
import proofs.«171890_g89756226552612_cont_sun_m_1083_24_alg».proof.Proof.KIBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A RESULT POINT (coordinates 17..24). The body loads 512 rows of the normalised distances from the third scratch
    buffer at the point's row offset, the whole fourth scratch buffer and the last bias row, and stores the 512×128 block of
    the result whole into the result window's buffer; everything else is left as it was. -/
noncomputable def kernelRun0_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : ¬cond2 i) (hc3 : cond3 i)
    (x8 : Vec F S1x128 .f32) (xs2 : Vec F S4096x4096 .bf16) (xs3 : Vec F S4096x128 .bf16) :
    { L9 : List (View.Piece (Elt F) S512x128 .f32) //
      ∀ (E : Set ℕ) (K : PUnit → sProp 𝕄),
        iprop(owns (c : Thread nD τ) arg9 fullShare x8 ∗ (∃ d, owns (c : Thread nD τ) arg10 fullShare d) ∗ owns (c : Thread nD τ) arg13 fullShare xs2 ∗ owns (c : Thread nD τ) arg14 fullShare xs3
            ∗ (iprop(owns (c : Thread nD τ) arg9 fullShare x8
                ∗ (∃ f, arg10.view.loc (c : Thread nD τ) ↦[arg10.view.set]{fullShare} arg10.view.writes (Elt F) f L9)
                ∗ owns (c : Thread nD τ) arg13 fullShare xs2 ∗ owns (c : Thread nD τ) arg14 fullShare xs3) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__main_body_eq_skeleton]; unfold cc0__main_body_skel
    unfold owns
    iintro ⟨⟨%f8, %hf8, H8⟩, ⟨%d9, %f9, -, H9⟩, ⟨%fs2, %hfs2, HS2⟩, ⟨%fs3, %hfs3, HS3⟩, Hk⟩
    obtain rfl := harg9.eq_unread hf8; obtain rfl := harg13.eq_unread hfs2; obtain rfl := harg14.eq_unread hfs3
    sl_exec (disch := first | exact hc0 | exact hc2 | exact hc3)
    sl_step
    iapply Hk
    isplitl [H8]
    · iexists _; isplitr; · ipureintro; exact harg9.read_unread _
      iexact H8
    isplitl [H9]; · iexists _; iexact H9
    isplitl [HS2]
    · iexists _; isplitr; · ipureintro; exact harg13.read_unread _
      iexact HS2
    iexists _; isplitr; · ipureintro; exact harg14.read_unread _
    iexact HS3

end Cert.KernelIdeal.Body

end
-- ==== Proof.KIPieces.lean ====
/-
  What the stores of each kind of grid point write, as pieces over the loaded blocks.
-/
import proofs.«171890_g89756226552612_cont_sun_m_1083_24_alg».proof.Proof.KIRunA
import proofs.«171890_g89756226552612_cont_sun_m_1083_24_alg».proof.Proof.KIRunB
import proofs.«171890_g89756226552612_cont_sun_m_1083_24_alg».proof.Proof.KIRunC
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The upper and lower 256 rows of the 512×128 output weight, as the body loads them. -/
abbrev woLo (x7 : Vec F S512x128 .f32) : Vec F S256x128 .f32 :=
  View.ld x7 (Rect.unit (s := S512x128) ![0, 0] S256x128.size inb_S512x128_S256x128_0_0)
abbrev woHi (x7 : Vec F S512x128 .f32) : Vec F S256x128 .f32 :=
  View.ld x7 (Rect.unit (s := S512x128) ![256, 0] S256x128.size inb_S512x128_S256x128_256_0)

/-- The 256 projected hidden rows an aggregation point stores: from the point's rows of the two adjacency arrays,
    the two projections, the two bias rows and the output weight. -/
abbrev hiddenRows (x0 x1 : Vec F S256x4096 .f32) (x5 x6 : Vec F S1x256 .f32) (x7 : Vec F S512x128 .f32)
    (xs0 xs1 : Vec F S4096x256 .bf16) : Vec F S256x128 .bf16 :=
  k0_pay3 (k0_pay7 x0 xs0 x5) (k0_pay8 x1 xs1) x6 (woLo x7) (woHi x7)

/-- The first point stores the projection F·W₁ whole into the first scratch buffer, -/
theorem piecesA_0 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : cond0 i) (hc2 : ¬cond2 i) (hc3 : ¬cond3 i)
    (x2 : Vec F S4096x256 .f32) (x3 : Vec F S256x256 .f32) (x4 : Vec F S256x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4).1 = [⟨Rect.unit (s := S4096x256) ![0, 0] S4096x256.size inb_S4096x256_S4096x256_0_0, k0_pay1 x2 x3⟩] := by
  unfold kernelRun0_A; dsimp only
  simp only [View.readAt_eq_ld, harg3.read_unread, harg4.read_unread, View.ld_unit_zero (S := S4096x256) hz2, View.ld_unit_zero (S := S256x256) hz2]
/-- and F·Wₐ whole into the second. -/
theorem piecesA_1 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : cond0 i) (hc2 : ¬cond2 i) (hc3 : ¬cond3 i)
    (x2 : Vec F S4096x256 .f32) (x3 : Vec F S256x256 .f32) (x4 : Vec F S256x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4).2.1 = [⟨Rect.unit (s := S4096x256) ![0, 0] S4096x256.size inb_S4096x256_S4096x256_0_0, k0_pay2 x2 x4⟩] := by
  unfold kernelRun0_A; dsimp only
  simp only [View.readAt_eq_ld, harg3.read_unread, harg5.read_unread, View.ld_unit_zero (S := S4096x256) hz2, View.ld_unit_zero (S := S256x256) hz2]

/-- An aggregation point stores its 256 normalised distance rows at its row offset, -/
theorem piecesB_2 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : cond2 i) (hc3 : ¬cond3 i)
    (x0 x1 : Vec F S256x4096 .f32) (x5 x6 : Vec F S1x256 .f32) (x7 : Vec F S512x128 .f32)
    (xs0 xs1 : Vec F S4096x256 .bf16) (xs2 : Vec F S4096x4096 .bf16) (xs3 : Vec F S4096x128 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3).1 = [⟨Rect.unit (s := S4096x4096) (k0_off1 i) S256x4096.size (k0_off1_inb i hc2), k0_pay6 x0⟩] := by
  unfold kernelRun0_B; dsimp only
  simp only [View.readAt_eq_ld, harg1.read_unread, View.ld_unit_zero (S := S256x4096) hz2]
/-- and its 256 projected hidden rows at the same row offset. -/
theorem piecesB_3 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : cond2 i) (hc3 : ¬cond3 i)
    (x0 x1 : Vec F S256x4096 .f32) (x5 x6 : Vec F S1x256 .f32) (x7 : Vec F S512x128 .f32)
    (xs0 xs1 : Vec F S4096x256 .bf16) (xs2 : Vec F S4096x4096 .bf16) (xs3 : Vec F S4096x128 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3).2.1 = [⟨Rect.unit (s := S4096x128) (k0_off2 i) S256x128.size (k0_off2_inb i hc2), hiddenRows x0 x1 x5 x6 x7 xs0 xs1⟩] := by
  unfold kernelRun0_B; dsimp only
  sl_unfold_words
  simp only [View.readAt_eq_ld, harg1.read_unread, harg2.read_unread, harg6.read_unread, harg7.read_unread, harg8.read_unread,
    harg11.read_unread, harg12.read_unread, View.ld_unit_zero (S := S256x4096) hz2, View.ld_unit_zero (S := S1x256) hz2,
    View.ld_unit_zero (S := S4096x256) hz2]

/-- A result point stores the 512×128 block of the result whole: from the 512 normalised distance rows at its row
    offset, the projected hidden rows and the last bias row. -/
theorem piecesC_9 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : ¬cond2 i) (hc3 : cond3 i)
    (x8 : Vec F S1x128 .f32) (xs2 : Vec F S4096x4096 .bf16) (xs3 : Vec F S4096x128 .bf16) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x8 xs2 xs3).1 = [⟨Rect.unit (s := S512x128) ![0, 0] S512x128.size inb_S512x128_S512x128_0_0,
      k0_pay4 (View.ld xs2 (Rect.unit (s := S4096x4096) (k0_off3 i) S512x4096.size (k0_off3_inb i hc3))) xs3 x8⟩] := by
  unfold kernelRun0_C; dsimp only
  simp only [View.readAt_eq_ld, harg9.read_unread, harg13.read_unread, harg14.read_unread, View.ld_unit_zero (S := S4096x128) hz2,
    View.ld_unit_zero (S := S1x128) hz2]

end Cert.KernelIdeal.Body

end
-- ==== Proof.KIState.lean ====
/-
  What the four scratch buffers hold from point to point: the two projections after the first point; of the two
  row-blocked buffers, the rows each aggregation point has stored so far, and the closed form once all sixteen have run.
-/
import proofs.«171890_g89756226552612_cont_sun_m_1083_24_alg».proof.Proof.KIPieces
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by rw [show cfg0.N = 25 from N_0]; omega⟩

/-- A store through the whole-shape rectangle at zero offsets reads back as its payload, whatever was there. -/
theorem read_writes_unit_zero {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-! ## What the scratch buffers hold -/

/-- The two feature projections, F·W₁ and F·Wₐ, as the first point stores them. -/
def sH1 (c : Dev nD) : Vec F S4096x256 .bf16 := k0_pay1 (iblk m c 2 t0) (iblk m c 3 t0)
def sH2 (c : Dev nD) : Vec F S4096x256 .bf16 := k0_pay2 (iblk m c 2 t0) (iblk m c 4 t0)

/-- The 256 rows an aggregation point t stores into the third and the fourth scratch buffer, and where. -/
def rows2 (c : Dev nD) (t : Fin cfg0.N) : Vec F S256x4096 .bf16 := k0_pay6 (iblk m c 0 t)
def rows3 (c : Dev nD) (t : Fin cfg0.N) : Vec F S256x128 .bf16 :=
  hiddenRows (iblk m c 0 t) (iblk m c 1 t) (iblk m c 5 t) (iblk m c 6 t) (iblk m c 7 t) (sH1 m c) (sH2 m c)
abbrev rect2 (t : Fin cfg0.N) (h2 : cond2 (grid0.coords t)) : Rect S4096x4096 :=
  Rect.unit (s := S4096x4096) (k0_off1 (grid0.coords t)) S256x4096.size (k0_off1_inb (grid0.coords t) h2)
abbrev rect3 (t : Fin cfg0.N) (h2 : cond2 (grid0.coords t)) : Rect S4096x128 :=
  Rect.unit (s := S4096x128) (k0_off2 (grid0.coords t)) S256x128.size (k0_off2_inb (grid0.coords t) h2)

/-- After point n, contents d of the third scratch buffer agree with every aggregation point up to n: the rows point t
    stored still read what it stored. -/
def Agree2 (c : Dev nD) (n : ℕ) (d : Vec F S4096x4096 .bf16) : Prop :=
  ∀ (t : Fin cfg0.N) (h2 : cond2 (grid0.coords t)), t.val ≤ n → ∀ x : S256x4096.Idx, d ((rect2 t h2).emb x) = rows2 m c t x
def Agree3 (c : Dev nD) (n : ℕ) (d : Vec F S4096x128 .bf16) : Prop :=
  ∀ (t : Fin cfg0.N) (h2 : cond2 (grid0.coords t)), t.val ≤ n → ∀ x : S256x128.Idx, d ((rect3 t h2).emb x) = rows3 m c t x

/-- Row r + x₀ of the row block starting at 256·(t−1). -/
theorem emb2_row (t : Fin cfg0.N) (h2 : cond2 (grid0.coords t)) (x : S256x4096.Idx) :
    (((rect2 t h2).emb x) (0 : Fin 2)).val = 256 * (t.val - 1) + (x (0 : Fin 2)).val := by
  have ht := (hcond2 t).mp h2
  show (k0_off1 (grid0.coords t)) 0 + 1 * (x (0 : Fin 2)).val = _
  rw [off1_eq t ht.1 ht.2]; simp
theorem emb3_row (t : Fin cfg0.N) (h2 : cond2 (grid0.coords t)) (x : S256x128.Idx) :
    (((rect3 t h2).emb x) (0 : Fin 2)).val = 256 * (t.val - 1) + (x (0 : Fin 2)).val := by
  have ht := (hcond2 t).mp h2
  show (k0_off2 (grid0.coords t)) 0 + 1 * (x (0 : Fin 2)).val = _
  rw [off2_eq t ht.1 ht.2]; simp

/-- Before any aggregation point nothing is asked. -/
theorem agree2_zero (c : Dev nD) (d : Vec F S4096x4096 .bf16) : Agree2 m c 0 d := fun t h2 hn _ => by
  have := (hcond2 t).mp h2; omega
theorem agree3_zero (c : Dev nD) (d : Vec F S4096x128 .bf16) : Agree3 m c 0 d := fun t h2 hn _ => by
  have := (hcond2 t).mp h2; omega

/-- Past the last aggregation point nothing more is asked. -/
theorem agree2_mono (c : Dev nD) {n n' : ℕ} (hn : 16 ≤ n) (d : Vec F S4096x4096 .bf16) (h : Agree2 m c n d) : Agree2 m c n' d :=
  fun t h2 _ x => h t h2 (by have := (hcond2 t).mp h2; omega) x
theorem agree3_mono (c : Dev nD) {n n' : ℕ} (hn : 16 ≤ n) (d : Vec F S4096x128 .bf16) (h : Agree3 m c n d) : Agree3 m c n' d :=
  fun t h2 _ x => h t h2 (by have := (hcond2 t).mp h2; omega) x

/-- An aggregation point's store keeps the agreement: its own rows read the new payload, the earlier points' rows lie
    above the stored block and are untouched. -/
theorem agree2_step (c : Dev nD) (t : Fin cfg0.N) (h2 : cond2 (grid0.coords t)) (d : Vec F S4096x4096 .bf16)
    (hd : Agree2 m c (t.val - 1) d) :
    Agree2 m c t.val (scM2.view.read (Elt F) (scM2.view.writes (Elt F) ((Memref.isWhole_whole cc0_scratch2).unread d)
      [(⟨rect2 t h2, rows2 m c t⟩ : View.Piece (Elt F) S4096x4096 .bf16)])) := by
  intro t' h2' hle x
  have ht := (hcond2 t).mp h2
  have ht' := (hcond2 t').mp h2'
  by_cases hEq : t' = t
  · subst hEq
    exact View.read_writes_cons_emb _ _ (rect2 t' h2) (rows2 m c t') [] x
  · have hlt : t'.val ≤ t.val - 1 := by
      have : t'.val ≠ t.val := fun h => hEq (Fin.ext h)
      omega
    have hx0 : (x (0 : Fin 2)).val < 256 := (x (0 : Fin 2)).isLt
    rw [View.read_writes_cons_rows_of_not_mem (o := 256 * (t.val - 1)) (W := 256) _ _ _ _ [] _ (off1_eq t ht.1 ht.2) rfl
      (Or.inl (by rw [emb2_row]; omega))]
    rw [View.writes_nil, (Memref.isWhole_whole cc0_scratch2).read_unread]
    exact hd t' h2' hlt x
theorem agree3_step (c : Dev nD) (t : Fin cfg0.N) (h2 : cond2 (grid0.coords t)) (d : Vec F S4096x128 .bf16)
    (hd : Agree3 m c (t.val - 1) d) :
    Agree3 m c t.val (scM3.view.read (Elt F) (scM3.view.writes (Elt F) ((Memref.isWhole_whole cc0_scratch3).unread d)
      [(⟨rect3 t h2, rows3 m c t⟩ : View.Piece (Elt F) S4096x128 .bf16)])) := by
  intro t' h2' hle x
  have ht := (hcond2 t).mp h2
  have ht' := (hcond2 t').mp h2'
  by_cases hEq : t' = t
  · subst hEq
    exact View.read_writes_cons_emb _ _ (rect3 t' h2) (rows3 m c t') [] x
  · have hlt : t'.val ≤ t.val - 1 := by
      have : t'.val ≠ t.val := fun h => hEq (Fin.ext h)
      omega
    have hx0 : (x (0 : Fin 2)).val < 256 := (x (0 : Fin 2)).isLt
    rw [View.read_writes_cons_rows_of_not_mem (o := 256 * (t.val - 1)) (W := 256) _ _ _ _ [] _ (off2_eq t ht.1 ht.2) rfl
      (Or.inl (by rw [emb3_row]; omega))]
    rw [View.writes_nil, (Memref.isWhole_whole cc0_scratch3).read_unread]
    exact hd t' h2' hlt x

/-! ## The two row-blocked scratch buffers once every aggregation point has run -/

/-- The aggregation point that stores row r: r / 256 + 1. -/
def tOfRow (r : ℕ) : Fin cfg0.N := ⟨r / 256 % 16 + 1, by rw [show cfg0.N = 25 from N_0]; omega⟩
theorem cond2_tOfRow (r : ℕ) : cond2 (grid0.coords (tOfRow r)) := (hcond2 _).mpr (by unfold tOfRow; dsimp only; omega)

/-- All 4096 normalised distance rows, and all 4096 projected hidden rows: row r is row r mod 256 of what point
    r / 256 + 1 stored. -/
def DN (c : Dev nD) : Vec F S4096x4096 .bf16 := fun y =>
  rows2 m c (tOfRow (y (0 : Fin 2)).val) (ValueIdx.ix2 (⟨(y (0 : Fin 2)).val % 256, Nat.mod_lt _ (by norm_num)⟩ : Fin 256) (y (1 : Fin 2)))
def YY (c : Dev nD) : Vec F S4096x128 .bf16 := fun y =>
  rows3 m c (tOfRow (y (0 : Fin 2)).val) (ValueIdx.ix2 (⟨(y (0 : Fin 2)).val % 256, Nat.mod_lt _ (by norm_num)⟩ : Fin 256) (y (1 : Fin 2)))

theorem agree2_full (c : Dev nD) {n : ℕ} (hn : 16 ≤ n) (d : Vec F S4096x4096 .bf16) (h : Agree2 m c n d) : d = DN m c := by
  funext y
  have hy : (y (0 : Fin 2)).val < 4096 := ValueIdx.idx2_lt0 y
  have h2 := cond2_tOfRow (y (0 : Fin 2)).val
  have ht := (hcond2 _).mp h2
  have key := h (tOfRow (y (0 : Fin 2)).val) h2 (by omega)
    (ValueIdx.ix2 (⟨(y (0 : Fin 2)).val % 256, Nat.mod_lt _ (by norm_num)⟩ : Fin 256) (y (1 : Fin 2)))
  have hemb : (rect2 (tOfRow (y (0 : Fin 2)).val) h2).emb
      (ValueIdx.ix2 (⟨(y (0 : Fin 2)).val % 256, Nat.mod_lt _ (by norm_num)⟩ : Fin 256) (y (1 : Fin 2))) = y := by
    funext a
    apply Fin.ext
    match a with
    | ⟨0, _⟩ =>
      show (k0_off1 (grid0.coords (tOfRow (y (0 : Fin 2)).val))) 0 + 1 * ((y (0 : Fin 2)).val % 256) = (y (0 : Fin 2)).val
      rw [off1_eq _ ht.1 ht.2]
      show 256 * ((y (0 : Fin 2)).val / 256 % 16 + 1 - 1) + 1 * ((y (0 : Fin 2)).val % 256) = (y (0 : Fin 2)).val
      omega
    | ⟨1, _⟩ =>
      show (k0_off1 (grid0.coords (tOfRow (y (0 : Fin 2)).val))) 1 + 1 * (y (1 : Fin 2)).val = (y (1 : Fin 2)).val
      rw [off1_eq _ ht.1 ht.2]
      show 0 + 1 * (y (1 : Fin 2)).val = _
      omega
  rw [hemb] at key
  exact key
theorem agree3_full (c : Dev nD) {n : ℕ} (hn : 16 ≤ n) (d : Vec F S4096x128 .bf16) (h : Agree3 m c n d) : d = YY m c := by
  funext y
  have hy : (y (0 : Fin 2)).val < 4096 := ValueIdx.idx2_lt0 y
  have h2 := cond2_tOfRow (y (0 : Fin 2)).val
  have ht := (hcond2 _).mp h2
  have key := h (tOfRow (y (0 : Fin 2)).val) h2 (by omega)
    (ValueIdx.ix2 (⟨(y (0 : Fin 2)).val % 256, Nat.mod_lt _ (by norm_num)⟩ : Fin 256) (y (1 : Fin 2)))
  have hemb : (rect3 (tOfRow (y (0 : Fin 2)).val) h2).emb
      (ValueIdx.ix2 (⟨(y (0 : Fin 2)).val % 256, Nat.mod_lt _ (by norm_num)⟩ : Fin 256) (y (1 : Fin 2))) = y := by
    funext a
    apply Fin.ext
    match a with
    | ⟨0, _⟩ =>
      show (k0_off2 (grid0.coords (tOfRow (y (0 : Fin 2)).val))) 0 + 1 * ((y (0 : Fin 2)).val % 256) = (y (0 : Fin 2)).val
      rw [off2_eq _ ht.1 ht.2]
      show 256 * ((y (0 : Fin 2)).val / 256 % 16 + 1 - 1) + 1 * ((y (0 : Fin 2)).val % 256) = (y (0 : Fin 2)).val
      omega
    | ⟨1, _⟩ =>
      show (k0_off2 (grid0.coords (tOfRow (y (0 : Fin 2)).val))) 1 + 1 * (y (1 : Fin 2)).val = (y (1 : Fin 2)).val
      rw [off2_eq _ ht.1 ht.2]
      show 0 + 1 * (y (1 : Fin 2)).val = _
      omega
  rw [hemb] at key
  exact key

end Cert.KernelIdeal.Body

end
-- ==== Proof.KIRuns.lean ====
/-
  The three kinds of grid point with what each stores named by its payload.
-/
import proofs.«171890_g89756226552612_cont_sun_m_1083_24_alg».proof.Proof.KIState

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's run with its two piece lists named. -/
theorem runA_closed (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : cond0 i) (hc2 : ¬cond2 i) (hc3 : ¬cond3 i)
    (x2 : Vec F S4096x256 .f32) (x3 : Vec F S256x256 .f32) (x4 : Vec F S256x256 .f32) :
    ∃ (LS0 LS1 : List (View.Piece (Elt F) S4096x256 .bf16)),
      LS0 = [⟨Rect.unit (s := S4096x256) ![0, 0] S4096x256.size inb_S4096x256_S4096x256_0_0, k0_pay1 x2 x3⟩]
      ∧ LS1 = [⟨Rect.unit (s := S4096x256) ![0, 0] S4096x256.size inb_S4096x256_S4096x256_0_0, k0_pay2 x2 x4⟩]
      ∧ ∀ (E : Set ℕ) (K : PUnit → sProp 𝕄),
        iprop(owns (c : Thread nD τ) arg3 fullShare x2 ∗ owns (c : Thread nD τ) arg4 fullShare x3 ∗ owns (c : Thread nD τ) arg5 fullShare x4 ∗ (∃ d, owns (c : Thread nD τ) arg11 fullShare d) ∗ (∃ d, owns (c : Thread nD τ) arg12 fullShare d)
            ∗ (iprop(owns (c : Thread nD τ) arg3 fullShare x2 ∗ owns (c : Thread nD τ) arg4 fullShare x3 ∗ owns (c : Thread nD τ) arg5 fullShare x4
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K :=
  ⟨_, _, piecesA_0 c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4, piecesA_1 c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4, (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4).2.2⟩

/-- An aggregation point's run with its two piece lists named. -/
theorem runB_closed (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : cond2 i) (hc3 : ¬cond3 i)
    (x0 x1 : Vec F S256x4096 .f32) (x5 x6 : Vec F S1x256 .f32) (x7 : Vec F S512x128 .f32)
    (xs0 xs1 : Vec F S4096x256 .bf16) (xs2 : Vec F S4096x4096 .bf16) (xs3 : Vec F S4096x128 .bf16) :
    ∃ (LS2 : List (View.Piece (Elt F) S4096x4096 .bf16)) (LS3 : List (View.Piece (Elt F) S4096x128 .bf16)),
      LS2 = [⟨Rect.unit (s := S4096x4096) (k0_off1 i) S256x4096.size (k0_off1_inb i hc2), k0_pay6 x0⟩]
      ∧ LS3 = [⟨Rect.unit (s := S4096x128) (k0_off2 i) S256x128.size (k0_off2_inb i hc2), hiddenRows x0 x1 x5 x6 x7 xs0 xs1⟩]
      ∧ ∀ (E : Set ℕ) (K : PUnit → sProp 𝕄),
        iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
            ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
                ∗ owns (c : Thread nD τ) arg11 fullShare xs0 ∗ owns (c : Thread nD τ) arg12 fullShare xs1
                ∗ (arg13.view.loc (c : Thread nD τ) ↦[arg13.view.set]{fullShare} arg13.view.writes (Elt F) (harg13.unread xs2) LS2)
                ∗ (arg14.view.loc (c : Thread nD τ) ↦[arg14.view.set]{fullShare} arg14.view.writes (Elt F) (harg14.unread xs3) LS3)) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K :=
  ⟨_, _, piecesB_2 c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3, piecesB_3 c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3, (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3).2.2⟩

/-- A result point's run with its piece list named. -/
theorem runC_closed (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : ¬cond2 i) (hc3 : cond3 i)
    (x8 : Vec F S1x128 .f32) (xs2 : Vec F S4096x4096 .bf16) (xs3 : Vec F S4096x128 .bf16) :
    ∃ (L9 : List (View.Piece (Elt F) S512x128 .f32)),
      L9 = [⟨Rect.unit (s := S512x128) ![0, 0] S512x128.size inb_S512x128_S512x128_0_0,
        k0_pay4 (View.ld xs2 (Rect.unit (s := S4096x4096) (k0_off3 i) S512x4096.size (k0_off3_inb i hc3))) xs3 x8⟩]
      ∧ ∀ (E : Set ℕ) (K : PUnit → sProp 𝕄),
        iprop(owns (c : Thread nD τ) arg9 fullShare x8 ∗ (∃ d, owns (c : Thread nD τ) arg10 fullShare d) ∗ owns (c : Thread nD τ) arg13 fullShare xs2 ∗ owns (c : Thread nD τ) arg14 fullShare xs3
            ∗ (iprop(owns (c : Thread nD τ) arg9 fullShare x8
                ∗ (∃ f, arg10.view.loc (c : Thread nD τ) ↦[arg10.view.set]{fullShare} arg10.view.writes (Elt F) f L9)
                ∗ owns (c : Thread nD τ) arg13 fullShare xs2 ∗ owns (c : Thread nD τ) arg14 fullShare xs3) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K :=
  ⟨_, piecesC_9 c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x8 xs2 xs3, (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x8 xs2 xs3).2⟩

/-- The first point, with what it stores named: the two scratch buffers end at F·W₁ and F·Wₐ. -/
theorem runA (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : cond0 i) (hc2 : ¬cond2 i) (hc3 : ¬cond3 i)
    (x2 : Vec F S4096x256 .f32) (x3 : Vec F S256x256 .f32) (x4 : Vec F S256x256 .f32) (E : Set ℕ) (K : PUnit → sProp 𝕄) :
    iprop(owns (c : Thread nD τ) arg3 fullShare x2 ∗ owns (c : Thread nD τ) arg4 fullShare x3 ∗ owns (c : Thread nD τ) arg5 fullShare x4 ∗ (∃ d, owns (c : Thread nD τ) arg11 fullShare d) ∗ (∃ d, owns (c : Thread nD τ) arg12 fullShare d)
        ∗ (iprop(owns (c : Thread nD τ) arg3 fullShare x2 ∗ owns (c : Thread nD τ) arg4 fullShare x3 ∗ owns (c : Thread nD τ) arg5 fullShare x4
            ∗ owns (c : Thread nD τ) arg11 fullShare (k0_pay1 x2 x3) ∗ owns (c : Thread nD τ) arg12 fullShare (k0_pay2 x2 x4)) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K := by
  obtain ⟨LS0, LS1, rfl, rfl, h⟩ := runA_closed c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x2 x3 x4
  have h := h E K
  iintro ⟨H2, H3, H4, HS0, HS1, Hk⟩
  iapply h
  isplitl [H2]; · iexact H2
  isplitl [H3]; · iexact H3
  isplitl [H4]; · iexact H4
  isplitl [HS0]; · iexact HS0
  isplitl [HS1]; · iexact HS1
  iintro ⟨H2, H3, H4, ⟨%f0, HS0⟩, ⟨%f1, HS1⟩⟩
  iapply Hk
  isplitl [H2]; · iexact H2
  isplitl [H3]; · iexact H3
  isplitl [H4]; · iexact H4
  isplitl [HS0]
  · unfold owns; iexists _; isplitr
    swap; · iexact HS0
    ipureintro; exact read_writes_unit_zero _ _ hz2 _ _
  unfold owns; iexists _; isplitr
  swap; · iexact HS1
  ipureintro; exact read_writes_unit_zero _ _ hz2 _ _

/-- An aggregation point, with what it stores named: the third and fourth scratch buffers end at their earlier
    contents overwritten, at the point's row offset, by the 256 normalised distance rows and the 256 projected hidden rows. -/
theorem runB (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : cond2 i) (hc3 : ¬cond3 i)
    (x0 x1 : Vec F S256x4096 .f32) (x5 x6 : Vec F S1x256 .f32) (x7 : Vec F S512x128 .f32)
    (xs0 xs1 : Vec F S4096x256 .bf16) (xs2 : Vec F S4096x4096 .bf16) (xs3 : Vec F S4096x128 .bf16) (E : Set ℕ) (K : PUnit → sProp 𝕄) :
    iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
        ∗ owns (c : Thread nD τ) arg11 fullShare xs0 ∗ owns (c : Thread nD τ) arg12 fullShare xs1 ∗ owns (c : Thread nD τ) arg13 fullShare xs2 ∗ owns (c : Thread nD τ) arg14 fullShare xs3
        ∗ (iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7
            ∗ owns (c : Thread nD τ) arg11 fullShare xs0 ∗ owns (c : Thread nD τ) arg12 fullShare xs1
            ∗ owns (c : Thread nD τ) arg13 fullShare (arg13.view.read (Elt F) (arg13.view.writes (Elt F) (harg13.unread xs2) [(⟨Rect.unit (s := S4096x4096) (k0_off1 i) S256x4096.size (k0_off1_inb i hc2), k0_pay6 x0⟩ : View.Piece (Elt F) S4096x4096 .bf16)]))
            ∗ owns (c : Thread nD τ) arg14 fullShare (arg14.view.read (Elt F) (arg14.view.writes (Elt F) (harg14.unread xs3) [(⟨Rect.unit (s := S4096x128) (k0_off2 i) S256x128.size (k0_off2_inb i hc2), hiddenRows x0 x1 x5 x6 x7 xs0 xs1⟩ : View.Piece (Elt F) S4096x128 .bf16)]))) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K := by
  obtain ⟨LS2, LS3, rfl, rfl, h⟩ := runB_closed c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x0 x1 x5 x6 x7 xs0 xs1 xs2 xs3
  have h := h E K
  iintro ⟨H0, H1, H5, H6, H7, HS0, HS1, HS2, HS3, Hk⟩
  iapply h
  isplitl [H0]; · iexact H0
  isplitl [H1]; · iexact H1
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H5, H6, H7, HS0, HS1, HS2, HS3⟩
  iapply Hk
  isplitl [H0]; · iexact H0
  isplitl [H1]; · iexact H1
  isplitl [H5]; · iexact H5
  isplitl [H6]; · iexact H6
  isplitl [H7]; · iexact H7
  isplitl [HS0]; · iexact HS0
  isplitl [HS1]; · iexact HS1
  isplitl [HS2]
  · unfold owns; iexists _; isplitr
    swap; · iexact HS2
    ipureintro; rfl
  unfold owns; iexists _; isplitr
  swap; · iexact HS3
  ipureintro; rfl

/-- A result point, with what it stores named: the result window's buffer ends at the 512×128 block computed from the
    512 normalised distance rows at the point's row offset, the projected hidden rows and the last bias row. -/
theorem runC (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x4096 .bf16) (harg13 : arg13.IsWhole) (arg14 : Memref sig .tc .vmem S4096x128 .bf16) (harg14 : arg14.IsWhole) (hc0 : ¬cond0 i) (hc2 : ¬cond2 i) (hc3 : cond3 i)
    (x8 : Vec F S1x128 .f32) (xs2 : Vec F S4096x4096 .bf16) (xs3 : Vec F S4096x128 .bf16) (E : Set ℕ) (K : PUnit → sProp 𝕄) :
    iprop(owns (c : Thread nD τ) arg9 fullShare x8 ∗ (∃ d, owns (c : Thread nD τ) arg10 fullShare d) ∗ owns (c : Thread nD τ) arg13 fullShare xs2 ∗ owns (c : Thread nD τ) arg14 fullShare xs3
        ∗ (iprop(owns (c : Thread nD τ) arg9 fullShare x8
            ∗ owns (c : Thread nD τ) arg10 fullShare (k0_pay4 (View.ld xs2 (Rect.unit (s := S4096x4096) (k0_off3 i) S512x4096.size (k0_off3_inb i hc3))) xs3 x8)
            ∗ owns (c : Thread nD τ) arg13 fullShare xs2 ∗ owns (c : Thread nD τ) arg14 fullShare xs3) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14) K := by
  obtain ⟨L9, rfl, h⟩ := runC_closed c i arg1 harg1 arg2 harg2 arg3 harg3 arg4 harg4 arg5 harg5 arg6 harg6 arg7 harg7 arg8 harg8 arg9 harg9 arg10 harg10 arg11 harg11 arg12 harg12 arg13 harg13 arg14 harg14 hc0 hc2 hc3 x8 xs2 xs3
  have h := h E K
  iintro ⟨H8, H9, HS2, HS3, Hk⟩
  iapply h
  isplitl [H8]; · iexact H8
  isplitl [H9]; · iexact H9
  isplitl [HS2]; · iexact HS2
  isplitl [HS3]; · iexact HS3
  iintro ⟨H8, ⟨%f9, H9⟩, HS2, HS3⟩
  iapply Hk
  isplitl [H8]; · iexact H8
  isplitl [H9]
  · unfold owns; iexists _; isplitr
    swap; · iexact H9
    ipureintro; exact read_writes_unit_zero _ _ hz2 _ _
  isplitl [HS2]; · iexact HS2
  iexact HS3

end Cert.KernelIdeal.Body

end
-- ==== Proof.KIFrame.lean ====
/-
  The proof data of the pipeline, the body obligation at every grid point, the run and the frame.
-/
import proofs.«171890_g89756226552612_cont_sun_m_1083_24_alg».proof.Proof.KIRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What a result point leaves in the result window's buffer: the 512×128 block from the 512 normalised distance rows
    at the point's row offset, all projected hidden rows and the last bias row. (At the other points the window is idle.) -/
def outAt (c : Dev nD) (t : Fin cfg0.N) : Vec F S512x128 .f32 :=
  if h3 : cond3 (grid0.coords t) then
    k0_pay4 (View.ld (DN m c) (Rect.unit (s := S4096x4096) (k0_off3 (grid0.coords t)) S512x4096.size (k0_off3_inb (grid0.coords t) h3)))
      (YY m c) (iblk m c 8 t)
  else iblk m c 9 t

theorem outAt_pos (c : Dev nD) (t : Fin cfg0.N) (h3 : cond3 (grid0.coords t)) :
    outAt m c t = k0_pay4 (View.ld (DN m c) (Rect.unit (s := S4096x4096) (k0_off3 (grid0.coords t)) S512x4096.size (k0_off3_inb (grid0.coords t) h3)))
      (YY m c) (iblk m c 8 t) := dif_pos h3

/-- The invariant before position p: before the first point the scratch buffers hold anything; afterwards the first two
    hold the two projections and the two row-blocked ones agree with every aggregation point already run. -/
def PhiS (c : Dev nD) : ℕ → sProp 𝕄
  | 0 => Pipeline.ΦA spec0 c
  | p + 1 => iprop(iprop(owns (c : Thread nD τ) scM0 fullShare (sH1 m c) ∗ owns (c : Thread nD τ) scM1 fullShare (sH2 m c)
      ∗ (∃ d, ⌜Agree2 m c p d⌝ ∗ owns (c : Thread nD τ) scM2 fullShare d)
      ∗ (∃ d, ⌜Agree3 m c p d⌝ ∗ owns (c : Thread nD τ) scM3 fullShare d)) ∗ (∃ r, prngReg c r))

theorem PhiS_succ (c : Dev nD) (p : ℕ) :
    PhiS m c (p + 1) = iprop(iprop(owns (c : Thread nD τ) scM0 fullShare (sH1 m c) ∗ owns (c : Thread nD τ) scM1 fullShare (sH2 m c)
      ∗ (∃ d, ⌜Agree2 m c p d⌝ ∗ owns (c : Thread nD τ) scM2 fullShare d)
      ∗ (∃ d, ⌜Agree3 m c p d⌝ ∗ owns (c : Thread nD τ) scM3 fullShare d)) ∗ (∃ r, prngReg c r)) := rfl

theorem PhiS_pos (c : Dev nD) (n : ℕ) (hz : n ≠ 0) :
    PhiS m c n = iprop(iprop(owns (c : Thread nD τ) scM0 fullShare (sH1 m c) ∗ owns (c : Thread nD τ) scM1 fullShare (sH2 m c)
      ∗ (∃ d, ⌜Agree2 m c (n - 1) d⌝ ∗ owns (c : Thread nD τ) scM2 fullShare d)
      ∗ (∃ d, ⌜Agree3 m c (n - 1) d⌝ ∗ owns (c : Thread nD τ) scM3 fullShare d)) ∗ (∃ r, prngReg c r)) := by
  cases n with
  | zero => exact absurd rfl hz
  | succ n => rfl

/-- The proof data of the one pipeline on core c: the arrays as the region finds them; after the body each input's buffer
    at its block and the result's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point, by the kind of the point: the first point fills the two projections; an aggregation point
    extends the agreement of the two row-blocked scratch buffers by its own rows; a result point, all sixteen aggregation
    points behind it, finds the two buffers at their closed forms and stores the result block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from by dsimp only [dats]; simp only [Fin.coe_castSucc]]
  have hN : t.val < 25 := lt_of_lt_of_eq t.isLt (show cfg0.N = 25 from N_0)
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [show (dats m 0 c).leavesExact 4 t = owns (c : Thread nD τ) (ms4 t) fullShare ((dats m 0 c).after 4 t) from by
    unfold Dat.leavesExact; rw [live4 t], after0_4]
  rw [show (dats m 0 c).leavesExact 5 t = owns (c : Thread nD τ) (ms5 t) fullShare ((dats m 0 c).after 5 t) from by
    unfold Dat.leavesExact; rw [live5 t], after0_5]
  rw [show (dats m 0 c).leavesExact 6 t = owns (c : Thread nD τ) (ms6 t) fullShare ((dats m 0 c).after 6 t) from by
    unfold Dat.leavesExact; rw [live6 t], after0_6]
  rw [show (dats m 0 c).leavesExact 7 t = owns (c : Thread nD τ) (ms7 t) fullShare ((dats m 0 c).after 7 t) from by
    unfold Dat.leavesExact; rw [live7 t], after0_7]
  rw [show (dats m 0 c).leavesExact 8 t = owns (c : Thread nD τ) (ms8 t) fullShare ((dats m 0 c).after 8 t) from by
    unfold Dat.leavesExact; rw [live8 t], after0_8]
  by_cases hz : t.val = 0
  · -- the first point
    have hc0 : cond0 (grid0.coords t) := (hcond0 t).mpr hz
    have hc2 : ¬cond2 (grid0.coords t) := fun h => by have := (hcond2 t).mp h; omega
    have hc3 : ¬cond3 (grid0.coords t) := fun h => by have := (hcond3 t).mp h; omega
    have ht : t = t0 := Fin.ext hz
    rw [Dat.leavesExact_idle (dats m 0 c) 9 t (idle9 t (by omega)) (noFlush9 t (by omega))]
    rw [show PhiS m c t.val = Pipeline.ΦA spec0 c from by rw [hz]; rfl, PhiA0_eq]
    iintro ⟨⟨⟨HS0, HS1, HS2, HS3⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, H9⟩
    iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) hc0 hc2 hc3 (iblk m c 2 t) (iblk m c 3 t) (iblk m c 4 t) Set.univ _)
    isplitl [H2]; · iexact H2
    isplitl [H3]; · iexact H3
    isplitl [H4]; · iexact H4
    isplitl [HS0]; · iexact HS0
    isplitl [HS1]; · iexact HS1
    iintro ⟨H2, H3, H4, HS0, HS1⟩
    isplitl [HS0 HS1 HS2 HS3 Hg]
    · isplitr [Hg]
      swap; · iexact Hg
      isplitl [HS0]; · subst ht; iexact HS0
      isplitl [HS1]; · subst ht; iexact HS1
      isplitl [HS2]
      · icases HS2 with ⟨%d, HS2⟩
        iexists d; isplitr; · ipureintro; rw [hz]; exact agree2_zero m c d
        iexact HS2
      icases HS3 with ⟨%d, HS3⟩
      iexists d; isplitr; · ipureintro; rw [hz]; exact agree3_zero m c d
      iexact HS3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h17 : t.val < 17
    · -- an aggregation point
      have hc0 : ¬cond0 (grid0.coords t) := fun h => hz ((hcond0 t).mp h)
      have hc2 : cond2 (grid0.coords t) := (hcond2 t).mpr (by omega)
      have hc3 : ¬cond3 (grid0.coords t) := fun h => by have := (hcond3 t).mp h; omega
      rw [Dat.leavesExact_idle (dats m 0 c) 9 t (idle9 t h17) (noFlush9 t h17)]
      rw [PhiS_pos m c _ hz]
      iintro ⟨⟨⟨HS0, HS1, ⟨%d2, %hA2, HS2⟩, ⟨%d3, %hA3, HS3⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, H9⟩
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) hc0 hc2 hc3 (iblk m c 0 t) (iblk m c 1 t) (iblk m c 5 t) (iblk m c 6 t) (iblk m c 7 t) (sH1 m c) (sH2 m c) d2 d3 Set.univ _)
      isplitl [H0]; · iexact H0
      isplitl [H1]; · iexact H1
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H5, H6, H7, HS0, HS1, HS2, HS3⟩
      isplitl [HS0 HS1 HS2 HS3 Hg]
      · isplitr [Hg]
        swap; · iexact Hg
        isplitl [HS0]; · iexact HS0
        isplitl [HS1]; · iexact HS1
        isplitl [HS2]
        · iexists _; isplitr; · ipureintro; exact agree2_step m c t hc2 d2 hA2
          iexact HS2
        iexists _; isplitr; · ipureintro; exact agree3_step m c t hc2 d3 hA3
        iexact HS3
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a result point
      have hc0 : ¬cond0 (grid0.coords t) := fun h => hz ((hcond0 t).mp h)
      have hc2 : ¬cond2 (grid0.coords t) := fun h => by have := (hcond2 t).mp h; omega
      have hc3 : cond3 (grid0.coords t) := (hcond3 t).mpr (by omega)
      rw [show (dats m 0 c).leavesExact 9 t = owns (c : Thread nD τ) (ms9 t) fullShare ((dats m 0 c).after 9 t) from by
        unfold Dat.leavesExact; rw [live9 t (by omega)], after0_9, outAt_pos m c t hc3]
      rw [PhiS_pos m c _ hz]
      iintro ⟨⟨⟨HS0, HS1, ⟨%d2, %hA2, HS2⟩, ⟨%d3, %hA3, HS3⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
      obtain rfl := agree2_full m c (n := t.val - 1) (by omega) d2 hA2
      obtain rfl := agree3_full m c (n := t.val - 1) (by omega) d3 hA3
      iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) hc0 hc2 hc3 (iblk m c 8 t) (DN m c) (YY m c) Set.univ _)
      isplitl [H8]; · iexact H8
      isplitl [H9]; · iexists _; iexact H9
      isplitl [HS2]; · iexact HS2
      isplitl [HS3]; · iexact HS3
      iintro ⟨H8, H9, HS2, HS3⟩
      isplitl [HS0 HS1 HS2 HS3 Hg]
      · isplitr [Hg]
        swap; · iexact Hg
        isplitl [HS0]; · iexact HS0
        isplitl [HS1]; · iexact HS1
        isplitl [HS2]
        · iexists _; isplitr; · ipureintro; exact agree2_mono m c (n := t.val - 1) (by omega) _ hA2
          iexact HS2
        iexists _; isplitr; · ipureintro; exact agree3_mono m c (n := t.val - 1) (by omega) _ hA3
        iexact HS3
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 25 := N_0; omega), PhiA0_eq]
  iintro ⟨⟨HS0, HS1, ⟨%d2, -, HS2⟩, ⟨%d3, -, HS3⟩⟩, Hg⟩
  isplitr [Hg]
  swap; · iexact Hg
  isplitl [HS0]; · iexists _; iexact HS0
  isplitl [HS1]; · iexists _; iexact HS1
  isplitl [HS2]; · iexists _; iexact HS2
  iexists _; iexact HS3

/-! ## The run and the frame -/

set_option backward.isDefEq.respectTransparency.types false in
/-- Every weakly fair execution of the program terminates, every array of the pipeline ends at what the library computes
    from the proof data, and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program terminates, faults nowhere and leaves its nine argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Body

end
-- ==== Proof.KFinIdx.lean ====
/-
  Where the result window's blocks sit in the 4096×128 result array. The window is written back at the grid points
  17..24; the block of point t is rows 512·(t−17) .. 512·(t−17)+511, all 128 columns. So element (p, q) of block t is
  the array's element (512·(t−17)+p, q), and the array's row r lies in the block of point 17 + r / 512: the eight
  blocks cover the array.
-/
import proofs.«171890_g89756226552612_cont_sun_m_1083_24_alg».proof.Proof.KIBase
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-- The printed index map of the result window over the grid: from point 17 on the block index is (t − 17, 0). -/
theorem idx9 : ∀ t : Fin cfg0.N, 17 ≤ t.val → win0_9.index t (0 : Fin 2) = t.val - 17 ∧ win0_9.index t (1 : Fin 2) = 0 :=
  (by decide +kernel : ∀ t : Fin grid0.N, 17 ≤ t.val → win0_9.index t (0 : Fin 2) = t.val - 17 ∧ win0_9.index t (1 : Fin 2) = 0)

/-- The result window is written back exactly at the points 17..24. -/
theorem flush9_iff : ∀ t : Fin cfg0.N, (cfg0.win 9).flush t = true ↔ 17 ≤ t.val :=
  (by decide +kernel : ∀ t : Fin grid0.N, (cfg0.win 9).flush t = true ↔ 17 ≤ t.val)

/-- Element y of the block of point t, t ≥ 17, is the array's row 512·(t−17) + y₀ … -/
theorem emb9_row (t : Fin cfg0.N) (ht : 17 ≤ t.val) (y : S512x128.Idx) :
    ((((cfg0.win 9).blk t).view.emb y) (0 : Fin 2)).val = 512 * (t.val - 17) + (y (0 : Fin 2)).val := by
  show win0_9.index t (0 : Fin 2) * 512 + 1 * (y (0 : Fin 2)).val = _
  rw [(idx9 t ht).1]; omega
/-- … and column y₁. -/
theorem emb9_col (t : Fin cfg0.N) (ht : 17 ≤ t.val) (y : S512x128.Idx) :
    ((((cfg0.win 9).blk t).view.emb y) (1 : Fin 2)).val = (y (1 : Fin 2)).val := by
  show win0_9.index t (1 : Fin 2) * 128 + 1 * (y (1 : Fin 2)).val = _
  rw [(idx9 t ht).2]; omega

/-- An index of the array is in point t's block iff each coordinate is in the block's range on its axis. -/
theorem mem_blk9 (t : Fin cfg0.N) (i : S4096x128.Idx) :
    i ∈ ((cfg0.win 9).blk t).view.set ↔ ∀ a : Fin 2, win0_9.index t a * S512x128.size a ≤ (i a).val
      ∧ (i a).val < win0_9.index t a * S512x128.size a + S512x128.size a := by
  show i ∈ ((View.whole main_v3).slice (win0_9.rect t)).set ↔ _
  rw [View.set_slice_whole, Rect.mem_set_unit]
  exact Iff.rfl

/-- Every index of the array lies in the block of a point that writes back: row r in that of point 17 + r / 512. -/
theorem cover9 (i : S4096x128.Idx) :
    ∃ t : Fin cfg0.N, (cfg0.win 9).flush t = true ∧ i ∈ ((cfg0.win 9).blk t).view.set := by
  have hi0 : (i 0).val < 4096 := ValueIdx.idx2_lt0 i
  have hi1 : (i 1).val < 128 := ValueIdx.idx2_lt1 i
  have hN : cfg0.N = 25 := N_0
  obtain ⟨t, htv⟩ : ∃ t : Fin cfg0.N, t.val = 17 + (i 0).val / 512 := ⟨⟨17 + (i 0).val / 512, by rw [hN]; omega⟩, rfl⟩
  have ht : 17 ≤ t.val := by omega
  obtain ⟨e0, e1⟩ := idx9 t ht
  refine ⟨t, (flush9_iff t).mpr ht, ?_⟩
  rw [mem_blk9]
  intro a
  match a with
  | ⟨0, _⟩ =>
    show win0_9.index t (0 : Fin 2) * 512 ≤ (i 0).val ∧ (i 0).val < win0_9.index t (0 : Fin 2) * 512 + 512
    rw [e0, htv]; omega
  | ⟨1, _⟩ =>
    show win0_9.index t (1 : Fin 2) * 128 ≤ (i 1).val ∧ (i 1).val < win0_9.index t (1 : Fin 2) * 128 + 128
    rw [e1]; omega

end Cert.KernelIdeal.Body

end
-- ==== Proof.KFinBlk.lean ====
/-
  From the result window's blocks to the result array, for any proof data of the pipeline. If what the body leaves in
  the result window at each point t ≥ 17 is, element by element, a whole-array function G read at the block's place in
  the array, then each write-back writes block t of G, the eight blocks cover the array, and the array ends holding G.
  The run is then re-posted with the result array named G and the nine argument arrays unchanged.
-/
import proofs.«171890_g89756226552612_cont_sun_m_1083_24_alg».proof.Proof.KFinIdx

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ) (ρ : Dev nD → PrngReg)

/-- What a point that writes the result window back writes is its block of G. -/
theorem flushed9_of {c : Dev nD} (dat : Dat τ (Elt F) Unit ℕ (UR sig nD τ) ℕ cfg0 c) (out : Fin cfg0.N → Vec F S512x128 .f32)
    (hafter : ∀ t, dat.after 9 t = out t) (G : Buf (Elt F) ((cfg0.win 9).arr.view.loc (c.tc : Thread nD τ)))
    (hG : ∀ (t : Fin cfg0.N) (h3 : cond3 (grid0.coords t)) (y : S512x128.Idx), out t y = G (((cfg0.win 9).blk t).view.emb y))
    (t : Fin cfg0.N) (hf : (cfg0.win 9).flush t = true) :
    dat.flushed 9 t = ((cfg0.win 9).blk t).view.read (Elt F) G := by
  have h3 : cond3 (grid0.coords t) := (hcond3 t).mpr ((flush9_iff t).mp hf)
  show (cfg0.win 9).cut (grid0.coords t) (dat.after 9 t) = _
  rw [hafter]
  funext y
  rw [View.read_apply]
  exact hG t h3 y

/-- The result array after the run is G. -/
theorem final9_of {c : Dev nD} (dat : Dat τ (Elt F) Unit ℕ (UR sig nD τ) ℕ cfg0 c) (out : Fin cfg0.N → Vec F S512x128 .f32)
    (hafter : ∀ t, dat.after 9 t = out t) (G : Buf (Elt F) ((cfg0.win 9).arr.view.loc (c.tc : Thread nD τ)))
    (hG : ∀ (t : Fin cfg0.N) (h3 : cond3 (grid0.coords t)) (y : S512x128.Idx), out t y = G (((cfg0.win 9).blk t).view.emb y)) :
    dat.arrAt 9 cfg0.N = G :=
  dat.arrAt_eq_of_cover 9 G (flushed9_of dat out hafter G hG) cover9

/-- The run with the result array named: from a run to the library's post for proof data whose arrays are the
    region-entry contents and whose result window holds `out`, the result array is G and the nine arguments are as launched. -/
theorem run_final_of (dats : (p : Fin 1) → (c : Dev nD) → Dat τ (Elt F) Unit ℕ (UR sig nD τ) ℕ (cfgs p) c)
    (hA : ∀ c w, (dats 0 c).A w = V m c (Pipeline.arrRef spec0 w))
    (out : Dev nD → Fin cfg0.N → Vec F S512x128 .f32) (hafter : ∀ c t, (dats 0 c).after 9 t = out c t)
    (h : θ_run defs (onTc (τ := τ) (main (F := F))) (s₀ m ρ) (Pipeline.FramePost cfgs dats 0 (V m)))
    (G : (c : Dev nD) → Buf (Elt F) ((c.tc : Thread nD τ).loc main_v3))
    (hG : ∀ (c : Dev nD) (t : Fin cfg0.N) (h3 : cond3 (grid0.coords t)) (y : S512x128.Idx),
      out c t y = G c (((cfg0.win 9).blk t).view.emb y)) :
    θ_run defs (onTc (τ := τ) (main (F := F))) ⟨m, fun _ => 0, ρ⟩ (fun r => ∀ c : Dev nD,
      r.2.mem ((c.tc : Thread nD τ).loc main_v3) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 9).trans (final9_of (dats 0 c) (out c) (hafter c) (G c) (hG c)),
    ((h c).1 2).trans (((dats 0 c).arrAt_in 2 rfl _).trans ((hA c 2).trans (V_main_arg0 m c))),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).1 4).trans (((dats 0 c).arrAt_in 4 rfl _).trans ((hA c 4).trans (V_main_arg5 m c))),
      ((h c).2 main_arg6 (Pipeline.mem_restRefs_of main_arg6 (by decide) (by decide))).trans (V_main_arg6 m c),
      ((h c).1 7).trans (((dats 0 c).arrAt_in 7 rfl _).trans ((hA c 7).trans (V_main_arg7 m c))),
      ((h c).2 main_arg8 (Pipeline.mem_restRefs_of main_arg8 (by decide) (by decide))).trans (V_main_arg8 m c)⟩) h

end Cert.KernelIdeal.Body

end
-- ==== Proof.KFinal.lean ====
/-
  The kernel's result array after the run. What a result point t leaves in the result window is the 512×128 block
  computed from the normalised distance rows at the point's row offset; if that block is, element by element, a
  whole-array function G at rows 512·(t−17).. of the array, the array ends holding G, and the run is re-posted with the
  result named G and the nine argument arrays unchanged.
-/
import proofs.«171890_g89756226552612_cont_sun_m_1083_24_alg».proof.Proof.KIFrame
import proofs.«171890_g89756226552612_cont_sun_m_1083_24_alg».proof.Proof.KFinBlk

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ) (ρ : Dev nD → PrngReg)

/-- The result array after the run is G, when every result point's block is G read at the block's place in the array
    (`emb9_row`, `emb9_col`: row 512·(t−17) + y₀, column y₁). -/
theorem final9 (c : Dev nD) (G : Buf (Elt F) ((cfg0.win 9).arr.view.loc (c.tc : Thread nD τ)))
    (hG : ∀ (t : Fin cfg0.N) (h3 : cond3 (grid0.coords t)) (y : S512x128.Idx),
      outAt m c t y = G (((cfg0.win 9).blk t).view.emb y)) :
    (dats m 0 c).arrAt 9 cfg0.N = G :=
  final9_of (dats m 0 c) (outAt m c) (after0_9 m c) G hG

/-- The run with the result array named: every weakly fair execution terminates, the result array ends at G and the nine
    argument arrays as launched. -/
theorem run_final (G : (c : Dev nD) → Buf (Elt F) ((c.tc : Thread nD τ).loc main_v3))
    (hG : ∀ (c : Dev nD) (t : Fin cfg0.N) (h3 : cond3 (grid0.coords t)) (y : S512x128.Idx),
      outAt m c t y = G c (((cfg0.win 9).blk t).view.emb y)) :
    θ_run defs (onTc (τ := τ) (main (F := F))) ⟨m, fun _ => 0, ρ⟩ (fun r => ∀ c : Dev nD,
      r.2.mem ((c.tc : Thread nD τ).loc main_v3) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_final_of m ρ (dats m) (A_eq m) (outAt m) (after0_9 m) (run_main m ρ) G hG

end Cert.KernelIdeal.Body

end
-- ==== Proof.Spec.lean ====
/-
  The two programs as formulas over the extended reals, with plain row and column indices.

  Notation: F (4096×256) node features, D and C (4096×4096) the distance and cosine adjacency, W₁, Wₐ (256×256),
  b₁, b₂ (256), Wₒ (512×128), bₒ (128); ε the f32 word 0x322BCC77 (about 1e-8) read exactly.

  Both programs compute, for a row i,
      s(i) = Σₖ D(i,k) + ε,            a(i) = Σₖ |C(i,k)| + ε,
  project the features, H₁ = F·W₁ and H₂ = F·Wₐ, aggregate them with the row-normalised adjacencies, apply
  max(·, 0) to the two halves, project the 512 hidden columns by Wₒ and aggregate once more with the
  row-normalised distances. They differ in where the normalisation is applied:

  * the kernel multiplies by the reciprocal: D(i,k) · (1 / s(i)), and for the cosine branch scales the
    finished aggregate, (Σₖ C(i,k) · H₂(k,j)) · (1 / a(i)); the 512 hidden columns are contracted as two sums of 256;
  * the reference divides entry by entry, D(i,k) / s(i) and C(i,k) / a(i), and contracts the 512 columns at once.
-/
import Idealize.ShloMosaic.PureOps.Ideal

noncomputable section

namespace AAGnn

open Idealize.ShloMosaic

/-- The f32 word for 1e-8, read exactly. -/
abbrev eps : EReal := Ideal.ofBits .f32 0x322BCC77#32
/-- The f32 word for 1. -/
abbrev one : EReal := Ideal.ofBits .f32 0x3F800000#32

/-- Columns 0..255 of the 512 hidden columns. -/
def lo (j : Fin 256) : Fin 512 := ⟨j.val, by omega⟩
/-- Columns 256..511 of the 512 hidden columns. -/
def hi (j : Fin 256) : Fin 512 := ⟨256 + j.val, by omega⟩

variable (feat : Fin 4096 → Fin 256 → EReal) (dist cos : Fin 4096 → Fin 4096 → EReal)
  (W1 Wa : Fin 256 → Fin 256 → EReal) (b1 b2 : Fin 256 → EReal) (Wo : Fin 512 → Fin 128 → EReal) (bo : Fin 128 → EReal)

/-- A projection of the features: (F·W)(k, j) = Σₗ F(k,l) · W(l,j). -/
def proj (W : Fin 256 → Fin 256 → EReal) (k : Fin 4096) (j : Fin 256) : EReal := ∑ l : Fin 256, feat k l * W l j

/-- s(i) = Σₖ D(i,k) + ε. -/
def rowSum (i : Fin 4096) : EReal := (∑ k : Fin 4096, dist i k) + eps
/-- a(i) = Σₖ |C(i,k)| + ε. -/
def absRowSum (i : Fin 4096) : EReal := (∑ k : Fin 4096, max (cos i k) (-(cos i k))) + eps

/-! ## The kernel's form -/

/-- The normalised distance row as the kernel stores it: D(i,k) · (1 / s(i)). -/
def kDn (i k : Fin 4096) : EReal := dist i k * Ideal.div one (rowSum dist i)
/-- The distance branch after max(·, 0). -/
def kX1 (i : Fin 4096) (j : Fin 256) : EReal := max ((∑ k : Fin 4096, kDn dist i k * proj feat W1 k j) + b1 j) 0
/-- The cosine branch after max(·, 0): the aggregate scaled by 1 / a(i) afterwards. -/
def kX2 (i : Fin 4096) (j : Fin 256) : EReal :=
  max ((∑ k : Fin 4096, cos i k * proj feat Wa k j) * Ideal.div one (absRowSum cos i) + b2 j) 0
/-- The hidden rows projected by Wₒ, the 512 columns as two sums of 256. -/
def kY (i : Fin 4096) (c : Fin 128) : EReal :=
  (∑ j : Fin 256, kX1 feat dist W1 b1 i j * Wo (lo j) c) + (∑ j : Fin 256, kX2 feat cos Wa b2 i j * Wo (hi j) c)
/-- The kernel's result. -/
def kOut (i : Fin 4096) (c : Fin 128) : EReal :=
  (∑ k : Fin 4096, kDn dist i k * kY feat dist cos W1 Wa b1 b2 Wo k c) + bo c

/-! ## The reference's form -/

/-- D(i,k) / s(i). -/
def rW (i k : Fin 4096) : EReal := Ideal.div (dist i k) (rowSum dist i)
/-- C(i,k) / a(i). -/
def rW2 (i k : Fin 4096) : EReal := Ideal.div (cos i k) (absRowSum cos i)
/-- The distance branch before the concatenation. -/
def rXc (i : Fin 4096) (j : Fin 256) : EReal := (∑ k : Fin 4096, rW dist i k * proj feat W1 k j) + b1 j
/-- The cosine branch before the concatenation. -/
def rXa (i : Fin 4096) (j : Fin 256) : EReal := (∑ k : Fin 4096, rW2 cos i k * proj feat Wa k j) + b2 j
/-- The 512 hidden columns after max(·, 0). -/
def rX (i : Fin 4096) (j : Fin 512) : EReal :=
  max (if h : j.val < 256 then rXc feat dist W1 b1 i ⟨j.val, h⟩ else rXa feat cos Wa b2 i ⟨j.val - 256, by omega⟩) 0
/-- The hidden rows projected by Wₒ. -/
def rZ (i : Fin 4096) (c : Fin 128) : EReal := ∑ j : Fin 512, rX feat dist cos W1 Wa b1 b2 i j * Wo j c
/-- The reference's result. -/
def rOut (i : Fin 4096) (c : Fin 128) : EReal :=
  (∑ k : Fin 4096, rW dist i k * rZ feat dist cos W1 Wa b1 b2 Wo k c) + bo c

end AAGnn

end
-- ==== Proof.KPay1.lean ====
/-
  The two feature projections the kernel stores at its first grid point, read at one entry:
  (F·W)(k, j) = Σₗ F(k,l) · W(l,j), with no rounding left at the extended reals.
-/
import proofs.«171890_g89756226552612_cont_sun_m_1083_24_alg».proof.Proof.Gen.KernelIdeal.Skeleton
import proofs.«171890_g89756226552612_cont_sun_m_1083_24_alg».proof.Proof.Spec
import Idealize.ShloMosaic.Lib.ValueIdx
import Idealize.ShloMosaic.PureOps.Ideal.Laws
import Idealize.ShloMosaic.Lib.Pipeline.Value

noncomputable section

namespace AAGnn.KPay

open Idealize.ShloMosaic Idealize.ShloMosaic.ValueIdx Cert.KernelIdeal Cert.KernelIdeal.Gen

/-- Row coordinate of the left operand's index: the output's row. -/
theorem matmul_proj_lhs0 (i : S4096x256.Idx) (q : dot_S4096x256_S256x256_S4096x256_1_0_0_1_n_n.contr.Idx) : (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
/-- Column coordinate of the left operand's index: the contraction coordinate. -/
theorem matmul_proj_lhs1 (i : S4096x256.Idx) (q : dot_S4096x256_S256x256_S4096x256_1_0_0_1_n_n.contr.Idx) : (dot_S4096x256_S256x256_S4096x256_1_0_0_1_n_n.lhsIdx i q 1).val = (q ⟨0, by decide⟩).val :=
  dot_S4096x256_S256x256_S4096x256_1_0_0_1_n_n.lhsIdx_val_of_single rfl i q
/-- Row coordinate of the right operand's index: the contraction coordinate. -/
theorem matmul_proj_rhs0 (i : S4096x256.Idx) (q : dot_S4096x256_S256x256_S4096x256_1_0_0_1_n_n.contr.Idx) : (dot_S4096x256_S256x256_S4096x256_1_0_0_1_n_n.rhsIdx i q 0).val = (q ⟨0, by decide⟩).val :=
  dot_S4096x256_S256x256_S4096x256_1_0_0_1_n_n.rhsIdx_val_of_single rfl i q
/-- Column coordinate of the right operand's index: the output's column. -/
theorem matmul_proj_rhs1 (i : S4096x256.Idx) (q : dot_S4096x256_S256x256_S4096x256_1_0_0_1_n_n.contr.Idx) : (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The contraction of a 4096×256 by a 256×256 operand into the zero accumulator, at row p and column q:
    the sum over the shared axis of the products. -/
theorem matmul_proj {φ₁ φ₂ : FTy} (a : FVec Ideal S4096x256 φ₁) (b : FVec Ideal S256x256 φ₂) (p : Fin 4096) (q : Fin 256) :
    matmul dot_S4096x256_S256x256_S4096x256_1_0_0_1_n_n none a b (constant (F := Ideal) S4096x256 .f32 0x00000000#32) (ix2 p q)
      = ∑ l : Fin 256, a (ix2 p l) * b (ix2 l q) := by
  simp only [matmul]
  rw [Ideal.matmul_constant_zero_apply, ← Equiv.sum_comp (contrEquiv1 dot_S4096x256_S256x256_S4096x256_1_0_0_1_n_n 256 rfl rfl).symm]
  refine Finset.sum_congr rfl fun l _ => ?_
  have hl := contrEquiv1_symm_val dot_S4096x256_S256x256_S4096x256_1_0_0_1_n_n 256 rfl rfl l
  have el : dot_S4096x256_S256x256_S4096x256_1_0_0_1_n_n.lhsIdx (ix2 p q) ((contrEquiv1 dot_S4096x256_S256x256_S4096x256_1_0_0_1_n_n 256 rfl rfl).symm l) = ix2 p l :=
    funext fun c => Fin.ext (by
      match c with
      | ⟨0, _⟩ => exact matmul_proj_lhs0 _ _
      | ⟨1, _⟩ => exact (matmul_proj_lhs1 _ _).trans hl)
  have er : dot_S4096x256_S256x256_S4096x256_1_0_0_1_n_n.rhsIdx (ix2 p q) ((contrEquiv1 dot_S4096x256_S256x256_S4096x256_1_0_0_1_n_n 256 rfl rfl).symm l) = ix2 l q :=
    funext fun c => Fin.ext (by
      match c with
      | ⟨0, _⟩ => exact (matmul_proj_rhs0 _ _).trans hl
      | ⟨1, _⟩ => exact matmul_proj_rhs1 _ _)
  rw [el, er]

/-- The first projection as stored: H₁(k, j) = Σₗ F(k,l) · W₁(l,j). The narrowing to bf16 and the cast to the same
    shape are the identity on the extended reals. -/
theorem pay1_apply (v11 : Vec Ideal S4096x256 .f32) (v12 : Vec Ideal S256x256 .f32) (k : Fin 4096) (j : Fin 256) :
    k0_pay1 (F := Ideal) v11 v12 (ix2 k j) = ∑ l : Fin 256, v11 (ix2 k l) * v12 (ix2 l j) := by
  unfold k0_pay1
  rw [shapeCast_self, truncf_apply]
  exact matmul_proj v11 v12 k j

/-- The second projection as stored: H₂(k, j) = Σₗ F(k,l) · Wₐ(l,j). -/
theorem pay2_apply (v11 : Vec Ideal S4096x256 .f32) (v18 : Vec Ideal S256x256 .f32) (k : Fin 4096) (j : Fin 256) :
    k0_pay2 (F := Ideal) v11 v18 (ix2 k j) = ∑ l : Fin 256, v11 (ix2 k l) * v18 (ix2 l j) := by
  unfold k0_pay2
  rw [shapeCast_self, truncf_apply]
  exact matmul_proj v11 v18 k j

end AAGnn.KPay

end
-- ==== Proof.KPayLib.lean ====
/-
  Small facts about layout operations and lane sums read at a row and column, used by the kernel's payloads:
  a column vector [a] viewed as [a, 1], a column [a, 1] repeated along b columns, the sum along the lanes of a
  256×4096 block at a row, and the words 0 and |x| at the extended reals.
-/
import Idealize.ShloMosaic.Lib.ValueIdx
import Idealize.ShloMosaic.Lib.ValueLayout
import Idealize.ShloMosaic.Lib.Pipeline.Value
import Idealize.ShloMosaic.PureOps.Ideal.Laws

noncomputable section

namespace AAGnn.KPay

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 zero word as a scalar is the extended real 0. -/
theorem scalar_zero_f32 : (Scalar.ofBits (F := Ideal) .f32 0x00000000#32 : Ideal .f32) = (0 : EReal) :=
  Ideal.ofBits_zero_f32

/-- A scalar word at the extended reals is the word read exactly. -/
theorem scalar_ofBits_f32 (b : BitVec 32) : (Scalar.ofBits (F := Ideal) .f32 b : Ideal .f32) = Ideal.ofBits .f32 b := rfl

/-- The absolute value of a vector at an index: max(x, −x) of the entry. -/
theorem absf_apply {s : Shape} {φ : FTy} (x : FVec Ideal s φ) (i : s.Idx) : absf x i = max (x i) (-(x i)) := rfl

end AAGnn.KPay

end
-- ==== Proof.KPay3.lean ====
/-
  The hidden rows projected by Wₒ as the kernel stores them: the 512 hidden columns contracted as two sums of 256,
  the distance half as it arrives and the cosine half after its bias and max(·, 0).
-/
import proofs.«171890_g89756226552612_cont_sun_m_1083_24_alg».proof.Proof.Gen.KernelIdeal.Skeleton
import proofs.«171890_g89756226552612_cont_sun_m_1083_24_alg».proof.Proof.Spec
import proofs.«171890_g89756226552612_cont_sun_m_1083_24_alg».proof.Proof.KPayLib

noncomputable section

namespace AAGnn.KPay

open Idealize.ShloMosaic Idealize.ShloMosaic.ValueIdx Cert.KernelIdeal Cert.KernelIdeal.Gen

/-- Row coordinate of the left operand's index: the output's row. -/
theorem matmul_out_lhs0 (i : S256x128.Idx) (q : dot_S256x256_S256x128_S256x128_1_0_0_1_n_n.contr.Idx) : (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide),
    dif_pos (show (0 : Fin S256x256.rank) ∈ dot_S256x256_S256x128_S256x128_1_0_0_1_n_n.lhsNonContracting by decide)]
  rfl
/-- Column coordinate of the left operand's index: the contraction coordinate. -/
theorem matmul_out_lhs1 (i : S256x128.Idx) (q : dot_S256x256_S256x128_S256x128_1_0_0_1_n_n.contr.Idx) : (dot_S256x256_S256x128_S256x128_1_0_0_1_n_n.lhsIdx i q 1).val = (q ⟨0, by decide⟩).val :=
  dot_S256x256_S256x128_S256x128_1_0_0_1_n_n.lhsIdx_val_of_single rfl i q
/-- Row coordinate of the right operand's index: the contraction coordinate. -/
theorem matmul_out_rhs0 (i : S256x128.Idx) (q : dot_S256x256_S256x128_S256x128_1_0_0_1_n_n.contr.Idx) : (dot_S256x256_S256x128_S256x128_1_0_0_1_n_n.rhsIdx i q 0).val = (q ⟨0, by decide⟩).val :=
  dot_S256x256_S256x128_S256x128_1_0_0_1_n_n.rhsIdx_val_of_single rfl i q
/-- Column coordinate of the right operand's index: the output's column. -/
theorem matmul_out_rhs1 (i : S256x128.Idx) (q : dot_S256x256_S256x128_S256x128_1_0_0_1_n_n.contr.Idx) : (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide),
    dif_pos (show (1 : Fin S256x128.rank) ∈ dot_S256x256_S256x128_S256x128_1_0_0_1_n_n.rhsNonContracting by decide)]
  rfl

/-- The contraction of a 256×256 block of hidden columns by a 256×128 half of Wₒ into the zero accumulator, at row p
    and column q: the sum over the 256 hidden columns of the products. -/
theorem matmul_out {φ₁ φ₂ : FTy} (a : FVec Ideal S256x256 φ₁) (b : FVec Ideal S256x128 φ₂) (p : Fin 256) (q : Fin 128) :
    matmul dot_S256x256_S256x128_S256x128_1_0_0_1_n_n none a b (constant (F := Ideal) S256x128 .f32 0x00000000#32) (ix2 p q)
      = ∑ l : Fin 256, a (ix2 p l) * b (ix2 l q) := by
  simp only [matmul]
  rw [Ideal.matmul_constant_zero_apply, ← Equiv.sum_comp (contrEquiv1 dot_S256x256_S256x128_S256x128_1_0_0_1_n_n 256 rfl rfl).symm]
  refine Finset.sum_congr rfl fun l _ => ?_
  have hl := contrEquiv1_symm_val dot_S256x256_S256x128_S256x128_1_0_0_1_n_n 256 rfl rfl l
  have el : dot_S256x256_S256x128_S256x128_1_0_0_1_n_n.lhsIdx (ix2 p q) ((contrEquiv1 dot_S256x256_S256x128_S256x128_1_0_0_1_n_n 256 rfl rfl).symm l) = ix2 p l :=
    funext fun c => Fin.ext (by
      match c with
      | ⟨0, _⟩ => exact matmul_out_lhs0 _ _
      | ⟨1, _⟩ => exact (matmul_out_lhs1 _ _).trans hl)
  have er : dot_S256x256_S256x128_S256x128_1_0_0_1_n_n.rhsIdx (ix2 p q) ((contrEquiv1 dot_S256x256_S256x128_S256x128_1_0_0_1_n_n 256 rfl rfl).symm l) = ix2 l q :=
    funext fun c => Fin.ext (by
      match c with
      | ⟨0, _⟩ => exact (matmul_out_rhs0 _ _).trans hl
      | ⟨1, _⟩ => exact matmul_out_rhs1 _ _)
  rw [el, er]

/-- The projected hidden block at row r and column c. -/
theorem pay3_apply (v45 v47 : FVec Ideal S256x256 .f32) (v48 : Vec Ideal S1x256 .f32) (v54 v56 : Vec Ideal S256x128 .f32)
    (r : Fin 256) (c : Fin 128) :
    k0_pay3 (F := Ideal) v45 v47 v48 v54 v56 (ix2 r c)
      = (∑ j : Fin 256, v45 (ix2 r j) * v54 (ix2 j c))
          + (∑ j : Fin 256, max (v47 (ix2 r j) + v48 (ix2 (0 : Fin 1) j)) 0 * v56 (ix2 j c)) := by
  unfold k0_pay3
  rw [shapeCast_self, truncf_apply, addf_apply, matmul_out, matmul_out]
  simp only [maximumf_apply, addf_apply, broadcast_apply, broadcastTo_1b_ab_apply, shapeCast_self, scalar_zero_f32]

end AAGnn.KPay

end
-- ==== Proof.KPay4.lean ====
/-
  The kernel's result block: 512 normalised distance rows times the projected hidden rows, the output bias added.
-/
import proofs.«171890_g89756226552612_cont_sun_m_1083_24_alg».proof.Proof.Gen.KernelIdeal.Skeleton
import proofs.«171890_g89756226552612_cont_sun_m_1083_24_alg».proof.Proof.Spec
import proofs.«171890_g89756226552612_cont_sun_m_1083_24_alg».proof.Proof.KPayLib

noncomputable section

namespace AAGnn.KPay

open Idealize.ShloMosaic Idealize.ShloMosaic.ValueIdx Cert.KernelIdeal Cert.KernelIdeal.Gen

/-- Row coordinate of the left operand's index: the output's row. -/
theorem matmul_fin_lhs0 (i : S512x128.Idx) (q : dot_S512x4096_S4096x128_S512x128_1_0_0_1_n_n.contr.Idx) : (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl
/-- Column coordinate of the left operand's index: the contraction coordinate. -/
theorem matmul_fin_lhs1 (i : S512x128.Idx) (q : dot_S512x4096_S4096x128_S512x128_1_0_0_1_n_n.contr.Idx) : (dot_S512x4096_S4096x128_S512x128_1_0_0_1_n_n.lhsIdx i q 1).val = (q ⟨0, by decide⟩).val :=
  dot_S512x4096_S4096x128_S512x128_1_0_0_1_n_n.lhsIdx_val_of_single rfl i q
/-- Row coordinate of the right operand's index: the contraction coordinate. -/
theorem matmul_fin_rhs0 (i : S512x128.Idx) (q : dot_S512x4096_S4096x128_S512x128_1_0_0_1_n_n.contr.Idx) : (dot_S512x4096_S4096x128_S512x128_1_0_0_1_n_n.rhsIdx i q 0).val = (q ⟨0, by decide⟩).val :=
  dot_S512x4096_S4096x128_S512x128_1_0_0_1_n_n.rhsIdx_val_of_single rfl i q
/-- Column coordinate of the right operand's index: the output's column. -/
theorem matmul_fin_rhs1 (i : S512x128.Idx) (q : dot_S512x4096_S4096x128_S512x128_1_0_0_1_n_n.contr.Idx) : (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-- The contraction of a 512×4096 block of normalised distance rows by the 4096×128 projected hidden rows into the
    zero accumulator, at row p and column q: the sum over the 4096 neighbours of the products. -/
theorem matmul_fin {φ₁ φ₂ : FTy} (a : FVec Ideal S512x4096 φ₁) (b : FVec Ideal S4096x128 φ₂) (p : Fin 512) (q : Fin 128) :
    matmul dot_S512x4096_S4096x128_S512x128_1_0_0_1_n_n none a b (constant (F := Ideal) S512x128 .f32 0x00000000#32) (ix2 p q)
      = ∑ l : Fin 4096, a (ix2 p l) * b (ix2 l q) := by
  simp only [matmul]
  rw [Ideal.matmul_constant_zero_apply, ← Equiv.sum_comp (contrEquiv1 dot_S512x4096_S4096x128_S512x128_1_0_0_1_n_n 4096 rfl rfl).symm]
  refine Finset.sum_congr rfl fun l _ => ?_
  have hl := contrEquiv1_symm_val dot_S512x4096_S4096x128_S512x128_1_0_0_1_n_n 4096 rfl rfl l
  have el : dot_S512x4096_S4096x128_S512x128_1_0_0_1_n_n.lhsIdx (ix2 p q) ((contrEquiv1 dot_S512x4096_S4096x128_S512x128_1_0_0_1_n_n 4096 rfl rfl).symm l) = ix2 p l :=
    funext fun c => Fin.ext (by
      match c with
      | ⟨0, _⟩ => exact matmul_fin_lhs0 _ _
      | ⟨1, _⟩ => exact (matmul_fin_lhs1 _ _).trans hl)
  have er : dot_S512x4096_S4096x128_S512x128_1_0_0_1_n_n.rhsIdx (ix2 p q) ((contrEquiv1 dot_S512x4096_S4096x128_S512x128_1_0_0_1_n_n 4096 rfl rfl).symm l) = ix2 l q :=
    funext fun c => Fin.ext (by
      match c with
      | ⟨0, _⟩ => exact (matmul_fin_rhs0 _ _).trans hl
      | ⟨1, _⟩ => exact matmul_fin_rhs1 _ _)
  rw [el, er]

/-- The result block at row r and column c. -/
theorem pay4_apply (v14 : Vec Ideal S512x4096 .bf16) (v15 : Vec Ideal S4096x128 .bf16) (v17 : Vec Ideal S1x128 .f32)
    (r : Fin 512) (c : Fin 128) :
    k0_pay4 (F := Ideal) v14 v15 v17 (ix2 r c)
      = (∑ k : Fin 4096, v14 (ix2 r k) * v15 (ix2 k c)) + v17 (ix2 (0 : Fin 1) c) := by
  unfold k0_pay4
  rw [addf_apply, matmul_fin, broadcastTo_1b_ab_apply, shapeCast_self]

end AAGnn.KPay

end
-- ==== Proof.KPayRow.lean ====
/-
  The row normaliser as the kernel lays it out: the sum along the lanes of a 256×4096 block, viewed as a column,
  ε added, the reciprocal taken. Read at row r it is 1 / (Σₖ x(r,k) + ε).
-/
import proofs.«171890_g89756226552612_cont_sun_m_1083_24_alg».proof.Proof.Gen.KernelIdeal.Skeleton
import proofs.«171890_g89756226552612_cont_sun_m_1083_24_alg».proof.Proof.Spec
import proofs.«171890_g89756226552612_cont_sun_m_1083_24_alg».proof.Proof.KPayLib

noncomputable section

namespace AAGnn.KPay

open Idealize.ShloMosaic Idealize.ShloMosaic.ValueIdx Cert.KernelIdeal Cert.KernelIdeal.Gen

/-- The sum along the lanes of a 256×4096 block at row r: Σₖ x(r,k). -/
theorem laneSum_apply (src : FVec Ideal S256x4096 .f32) (r : Fin 256) :
    multiReduction (F := Ideal) .add [1] S256 src 0x00000000#32 reduces_S256x4096_S256 (.inl rfl) rfl (ix1 r)
      = ∑ k : Fin 4096, src (ix2 r k) := by
  refine (Ideal.multiReduction_add_single src 0x00000000#32 reduces_S256x4096_S256 _ _ (ix1 r)).trans ?_
  refine Finset.sum_congr rfl fun k _ => congrArg src (funext fun c => Fin.ext ?_)
  match c with
  | ⟨0, _⟩ => rfl
  | ⟨1, _⟩ => rfl

/-- The reciprocal column at row r: 1 / (Σₖ x(r,k) + ε). -/
theorem recipCol_apply (src : FVec Ideal S256x4096 .f32) (r : Fin 256) (u : Fin 1) :
    (divf (broadcast S256x1 (Scalar.ofBits (F := Ideal) .f32 0x3F800000#32) : FVec Ideal S256x1 .f32)
        (addf (shapeCast S256x1
            (multiReduction (F := Ideal) .add [1] S256 src 0x00000000#32 reduces_S256x4096_S256 (.inl rfl) rfl)
            shapeCasts_S256_S256x1 : FVec Ideal S256x1 .f32)
          (broadcast S256x1 (Scalar.ofBits (F := Ideal) .f32 0x322BCC77#32) : FVec Ideal S256x1 .f32))) (ix2 r u)
      = Ideal.div AAGnn.one ((∑ k : Fin 4096, src (ix2 r k)) + AAGnn.eps) := by
  rw [divf_apply, addf_apply, broadcast_apply, broadcast_apply, shapeCast_a_a1_apply, laneSum_apply]
  rfl

end AAGnn.KPay

end
-- ==== Proof.KPay5.lean ====
/-
  The normalised distance rows as the kernel stores them: D(r,k) · (1 / (Σₖ' D(r,k') + ε)).
-/
import proofs.«171890_g89756226552612_cont_sun_m_1083_24_alg».proof.Proof.Gen.KernelIdeal.Skeleton
import proofs.«171890_g89756226552612_cont_sun_m_1083_24_alg».proof.Proof.Spec
import proofs.«171890_g89756226552612_cont_sun_m_1083_24_alg».proof.Proof.KPayLib
import proofs.«171890_g89756226552612_cont_sun_m_1083_24_alg».proof.Proof.KPayRow

noncomputable section

namespace AAGnn.KPay

open Idealize.ShloMosaic Idealize.ShloMosaic.ValueIdx Cert.KernelIdeal Cert.KernelIdeal.Gen

/-- The normalised distance block at row r and column k. -/
theorem pay5_apply (v16 : Vec Ideal S256x4096 .f32) (r : Fin 256) (k : Fin 4096) :
    k0_pay5 (F := Ideal) v16 (ix2 r k)
      = v16 (ix2 r k) * Ideal.div AAGnn.one ((∑ k' : Fin 4096, v16 (ix2 r k')) + AAGnn.eps) := by
  unfold k0_pay5
  rw [truncf_apply, mulf_apply, broadcastTo_a1_ab_apply, recipCol_apply]

/-- The same block after the cast to its own shape, as it is stored. -/
theorem pay6_apply (v16 : Vec Ideal S256x4096 .f32) (r : Fin 256) (k : Fin 4096) :
    k0_pay6 (F := Ideal) v16 (ix2 r k)
      = v16 (ix2 r k) * Ideal.div AAGnn.one ((∑ k' : Fin 4096, v16 (ix2 r k')) + AAGnn.eps) := by
  unfold k0_pay6
  rw [shapeCast_self]
  exact pay5_apply v16 r k

end AAGnn.KPay

end
-- ==== Proof.KPayAgg.lean ====
/-
  The neighbour aggregation read at one entry: a 256×4096 block of adjacency rows times the 4096×256 projected
  features is, at row p and column q, the sum over the 4096 neighbours of the products.
-/
import proofs.«171890_g89756226552612_cont_sun_m_1083_24_alg».proof.Proof.Gen.KernelIdeal.Skeleton
import proofs.«171890_g89756226552612_cont_sun_m_1083_24_alg».proof.Proof.Spec
import proofs.«171890_g89756226552612_cont_sun_m_1083_24_alg».proof.Proof.KPayLib

noncomputable section

namespace AAGnn.KPay

open Idealize.ShloMosaic Idealize.ShloMosaic.ValueIdx Cert.KernelIdeal Cert.KernelIdeal.Gen

/-- Row coordinate of the left operand's index: the output's row. -/
theorem matmul_agg_lhs0 (i : S256x256.Idx) (q : dot_S256x4096_S4096x256_S256x256_1_0_0_1_n_n.contr.Idx) : (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide),
    dif_pos (show (0 : Fin S256x4096.rank) ∈ dot_S256x4096_S4096x256_S256x256_1_0_0_1_n_n.lhsNonContracting by decide)]
  rfl
/-- Column coordinate of the left operand's index: the contraction coordinate. -/
theorem matmul_agg_lhs1 (i : S256x256.Idx) (q : dot_S256x4096_S4096x256_S256x256_1_0_0_1_n_n.contr.Idx) : (dot_S256x4096_S4096x256_S256x256_1_0_0_1_n_n.lhsIdx i q 1).val = (q ⟨0, by decide⟩).val :=
  dot_S256x4096_S4096x256_S256x256_1_0_0_1_n_n.lhsIdx_val_of_single rfl i q
/-- Row coordinate of the right operand's index: the contraction coordinate. -/
theorem matmul_agg_rhs0 (i : S256x256.Idx) (q : dot_S256x4096_S4096x256_S256x256_1_0_0_1_n_n.contr.Idx) : (dot_S256x4096_S4096x256_S256x256_1_0_0_1_n_n.rhsIdx i q 0).val = (q ⟨0, by decide⟩).val :=
  dot_S256x4096_S4096x256_S256x256_1_0_0_1_n_n.rhsIdx_val_of_single rfl i q
/-- Column coordinate of the right operand's index: the output's column. -/
theorem matmul_agg_rhs1 (i : S256x256.Idx) (q : dot_S256x4096_S4096x256_S256x256_1_0_0_1_n_n.contr.Idx) : (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide),
    dif_pos (show (1 : Fin S4096x256.rank) ∈ dot_S256x4096_S4096x256_S256x256_1_0_0_1_n_n.rhsNonContracting by decide)]
  rfl

/-- The contraction of a 256×4096 block of adjacency rows by the 4096×256 projected features into the zero
    accumulator, at row p and column q: the sum over the 4096 neighbours of the products. -/
theorem matmul_agg {φ₁ φ₂ : FTy} (a : FVec Ideal S256x4096 φ₁) (b : FVec Ideal S4096x256 φ₂) (p : Fin 256) (q : Fin 256) :
    matmul dot_S256x4096_S4096x256_S256x256_1_0_0_1_n_n none a b (constant (F := Ideal) S256x256 .f32 0x00000000#32) (ix2 p q)
      = ∑ l : Fin 4096, a (ix2 p l) * b (ix2 l q) := by
  simp only [matmul]
  rw [Ideal.matmul_constant_zero_apply, ← Equiv.sum_comp (contrEquiv1 dot_S256x4096_S4096x256_S256x256_1_0_0_1_n_n 4096 rfl rfl).symm]
  refine Finset.sum_congr rfl fun l _ => ?_
  have hl := contrEquiv1_symm_val dot_S256x4096_S4096x256_S256x256_1_0_0_1_n_n 4096 rfl rfl l
  have el : dot_S256x4096_S4096x256_S256x256_1_0_0_1_n_n.lhsIdx (ix2 p q) ((contrEquiv1 dot_S256x4096_S4096x256_S256x256_1_0_0_1_n_n 4096 rfl rfl).symm l) = ix2 p l :=
    funext fun c => Fin.ext (by
      match c with
      | ⟨0, _⟩ => exact matmul_agg_lhs0 _ _
      | ⟨1, _⟩ => exact (matmul_agg_lhs1 _ _).trans hl)
  have er : dot_S256x4096_S4096x256_S256x256_1_0_0_1_n_n.rhsIdx (ix2 p q) ((contrEquiv1 dot_S256x4096_S4096x256_S256x256_1_0_0_1_n_n 4096 rfl rfl).symm l) = ix2 l q :=
    funext fun c => Fin.ext (by
      match c with
      | ⟨0, _⟩ => exact (matmul_agg_rhs0 _ _).trans hl
      | ⟨1, _⟩ => exact matmul_agg_rhs1 _ _)
  rw [el, er]

end AAGnn.KPay

end
-- ==== Proof.KPay7.lean ====
/-
  The distance branch after max(·, 0): the normalised distance rows times the first projection, the bias added.
-/
import proofs.«171890_g89756226552612_cont_sun_m_1083_24_alg».proof.Proof.Gen.KernelIdeal.Skeleton
import proofs.«171890_g89756226552612_cont_sun_m_1083_24_alg».proof.Proof.Spec
import proofs.«171890_g89756226552612_cont_sun_m_1083_24_alg».proof.Proof.KPayLib
import proofs.«171890_g89756226552612_cont_sun_m_1083_24_alg».proof.Proof.KPayAgg

noncomputable section

namespace AAGnn.KPay

open Idealize.ShloMosaic Idealize.ShloMosaic.ValueIdx Cert.KernelIdeal Cert.KernelIdeal.Gen

/-- The distance branch at row r and column j, over the normalised distance block as stored. -/
theorem pay7_apply (v16 : Vec Ideal S256x4096 .f32) (v38 : Vec Ideal S4096x256 .bf16) (v40 : Vec Ideal S1x256 .f32)
    (r : Fin 256) (j : Fin 256) :
    k0_pay7 (F := Ideal) v16 v38 v40 (ix2 r j)
      = max ((∑ k : Fin 4096, k0_pay5 (F := Ideal) v16 (ix2 r k) * v38 (ix2 k j)) + v40 (ix2 (0 : Fin 1) j)) 0 := by
  unfold k0_pay7
  rw [maximumf_apply, addf_apply, broadcast_apply, matmul_agg, broadcastTo_1b_ab_apply, shapeCast_self, scalar_zero_f32]

end AAGnn.KPay

end
-- ==== Proof.KPay8.lean ====
/-
  The cosine branch before the bias: the aggregate Σₖ C(r,k) · H₂(k,j) scaled by 1 / (Σₖ |C(r,k)| + ε).
-/
import proofs.«171890_g89756226552612_cont_sun_m_1083_24_alg».proof.Proof.Gen.KernelIdeal.Skeleton
import proofs.«171890_g89756226552612_cont_sun_m_1083_24_alg».proof.Proof.Spec
import proofs.«171890_g89756226552612_cont_sun_m_1083_24_alg».proof.Proof.KPayLib
import proofs.«171890_g89756226552612_cont_sun_m_1083_24_alg».proof.Proof.KPayRow
import proofs.«171890_g89756226552612_cont_sun_m_1083_24_alg».proof.Proof.KPayAgg

noncomputable section

namespace AAGnn.KPay

open Idealize.ShloMosaic Idealize.ShloMosaic.ValueIdx Cert.KernelIdeal Cert.KernelIdeal.Gen

/-- The scaled cosine aggregate at row r and column j. -/
theorem pay8_apply (v12 : Vec Ideal S256x4096 .f32) (v14 : Vec Ideal S4096x256 .bf16) (r : Fin 256) (j : Fin 256) :
    k0_pay8 (F := Ideal) v12 v14 (ix2 r j)
      = (∑ k : Fin 4096, v12 (ix2 r k) * v14 (ix2 k j))
          * Ideal.div AAGnn.one ((∑ k : Fin 4096, max (v12 (ix2 r k)) (-(v12 (ix2 r k)))) + AAGnn.eps) := by
  unfold k0_pay8
  rw [mulf_apply, matmul_agg, broadcastTo_a1_ab_apply, recipCol_apply]
  simp only [truncf_apply, absf_apply]

end AAGnn.KPay

end
-- ==== Proof.KValue.lean ====
/-
  The kernel's side of the value at the extended reals, entry by entry, as the kernel's form of the specification.

  First the blocks the body loads, read at a row and a column off the argument arrays: the two adjacency windows give
  256 rows at a time, row r of the block at grid coordinate t (1 ≤ t ≤ 16) being row 256·(t−1) + r of the array; the
  other windows are whole arrays; the three bias rows are the bias vectors viewed as one-row matrices. Then what the
  four carried buffers hold: the two projections H₁ = F·W₁ and H₂ = F·Wₐ; row i of the normalised distances
  D(i,k) · (1 / s(i)), stored by coordinate i / 256 + 1 at its local row i mod 256; row i of the hidden rows projected
  by Wₒ, the 512 hidden columns as the two halves of Wₒ. Last the result block of a coordinate t ≥ 17, whose local row
  r is row 512·(t−17) + r of the kernel's form.
-/
import proofs.«171890_g89756226552612_cont_sun_m_1083_24_alg».proof.Proof.KIState
import proofs.«171890_g89756226552612_cont_sun_m_1083_24_alg».proof.Proof.Spec
import proofs.«171890_g89756226552612_cont_sun_m_1083_24_alg».proof.Proof.KPay1
import proofs.«171890_g89756226552612_cont_sun_m_1083_24_alg».proof.Proof.KPay3
import proofs.«171890_g89756226552612_cont_sun_m_1083_24_alg».proof.Proof.KPay4
import proofs.«171890_g89756226552612_cont_sun_m_1083_24_alg».proof.Proof.KPay5
import proofs.«171890_g89756226552612_cont_sun_m_1083_24_alg».proof.Proof.KPay7
import proofs.«171890_g89756226552612_cont_sun_m_1083_24_alg».proof.Proof.KPay8
import Idealize.ShloMosaic.Lib.ValueIdx
import Idealize.ShloMosaic.Lib.Pipeline.Value
import Idealize.ShloMosaic.Lib.StableHlo.Run

set_option maxRecDepth 16384

noncomputable section

namespace AAGnn.KVal

open Cert.KernelIdeal Cert.KernelIdeal.Gen Cert.KernelIdeal.Body
open Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (c : Dev nD)

/-! ## The block index of each window, decided over the grid -/

/-- At an aggregation coordinate t (1 ≤ t ≤ 16) the two adjacency windows are at row block t − 1. -/
theorem idx01_facts : ∀ t : Fin cfg0.N, 1 ≤ t.val → t.val ≤ 16 →
    win0_0.index t (0 : Fin 2) = t.val - 1 ∧ win0_0.index t (1 : Fin 2) = 0
    ∧ win0_1.index t (0 : Fin 2) = t.val - 1 ∧ win0_1.index t (1 : Fin 2) = 0 :=
  (by decide +kernel : ∀ t : Fin grid0.N, _)

/-- The other input windows stay at block (0, 0): each is its whole array. -/
theorem idx2to8_facts : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The adjacency blocks -/

/-- Row r of the distance block at coordinate t is row 256·(t−1) + r of the distance array. -/
theorem blk0_at (t : Fin cfg0.N) (h1 : 1 ≤ t.val) (h16 : t.val ≤ 16) (r : Fin 256) (k : Fin 4096) (i : Fin 4096)
    (hi : i.val = 256 * (t.val - 1) + r.val) :
    iblk m c 0 t (ix2 r k) = V m c main_arg1 (ix2 i k) := by
  show V m c main_arg1 (((cfg0.win 0).blk t).view.emb (ix2 r k)) = V m c main_arg1 (ix2 i k)
  congr 1
  obtain ⟨e0, e1, -, -⟩ := idx01_facts t h1 h16
  funext a; apply Fin.ext
  match a with
  | ⟨0, _⟩ => show win0_0.index t (0 : Fin 2) * 256 + 1 * r.val = i.val; omega
  | ⟨1, _⟩ => show win0_0.index t (1 : Fin 2) * 4096 + 1 * k.val = k.val; omega

/-- Row r of the cosine block at coordinate t is row 256·(t−1) + r of the cosine array. -/
theorem blk1_at (t : Fin cfg0.N) (h1 : 1 ≤ t.val) (h16 : t.val ≤ 16) (r : Fin 256) (k : Fin 4096) (i : Fin 4096)
    (hi : i.val = 256 * (t.val - 1) + r.val) :
    iblk m c 1 t (ix2 r k) = V m c main_arg2 (ix2 i k) := by
  show V m c main_arg2 (((cfg0.win 1).blk t).view.emb (ix2 r k)) = V m c main_arg2 (ix2 i k)
  congr 1
  obtain ⟨-, -, e0, e1⟩ := idx01_facts t h1 h16
  funext a; apply Fin.ext
  match a with
  | ⟨0, _⟩ => show win0_1.index t (0 : Fin 2) * 256 + 1 * r.val = i.val; omega
  | ⟨1, _⟩ => show win0_1.index t (1 : Fin 2) * 4096 + 1 * k.val = k.val; omega

/-- The coordinate that stores row i is i / 256 + 1, and row i is its local row i mod 256. -/
theorem tOfRow_facts (i : Fin 4096) :
    1 ≤ (tOfRow i.val).val ∧ (tOfRow i.val).val ≤ 16 ∧ i.val = 256 * ((tOfRow i.val).val - 1) + i.val % 256 := by
  have hi := i.isLt
  show 1 ≤ i.val / 256 % 16 + 1 ∧ i.val / 256 % 16 + 1 ≤ 16 ∧ i.val = 256 * (i.val / 256 % 16 + 1 - 1) + i.val % 256
  omega

/-- The distance block of the coordinate that stores row i, at local row i mod 256: row i of the distance array. -/
theorem blk0_row (i : Fin 4096) (h : i.val % 256 < 256) (k : Fin 4096) :
    iblk m c 0 (tOfRow i.val) (ix2 (⟨i.val % 256, h⟩ : Fin 256) k) = V m c main_arg1 (ix2 i k) :=
  blk0_at m c _ (tOfRow_facts i).1 (tOfRow_facts i).2.1 _ k i (tOfRow_facts i).2.2

/-- The cosine block of the coordinate that stores row i, at local row i mod 256: row i of the cosine array. -/
theorem blk1_row (i : Fin 4096) (h : i.val % 256 < 256) (k : Fin 4096) :
    iblk m c 1 (tOfRow i.val) (ix2 (⟨i.val % 256, h⟩ : Fin 256) k) = V m c main_arg2 (ix2 i k) :=
  blk1_at m c _ (tOfRow_facts i).1 (tOfRow_facts i).2.1 _ k i (tOfRow_facts i).2.2

/-! ## The whole-array blocks -/

/-- The features block is the features array. -/
theorem blk2_at (t : Fin cfg0.N) (k : Fin 4096) (l : Fin 256) :
    iblk m c 2 t (ix2 k l) = V m c main_arg0 (ix2 k l) := by
  show V m c main_arg0 (((cfg0.win 2).blk t).view.emb (ix2 k l)) = V m c main_arg0 (ix2 k l)
  congr 1
  obtain ⟨e0, e1, -⟩ := idx2to8_facts t
  funext a; apply Fin.ext
  match a with
  | ⟨0, _⟩ => show win0_2.index t (0 : Fin 2) * 4096 + 1 * k.val = k.val; omega
  | ⟨1, _⟩ => show win0_2.index t (1 : Fin 2) * 256 + 1 * l.val = l.val; omega

/-- The W₁ block is the W₁ array. -/
theorem blk3_at (t : Fin cfg0.N) (l j : Fin 256) :
    iblk m c 3 t (ix2 l j) = V m c main_arg3 (ix2 l j) := by
  show V m c main_arg3 (((cfg0.win 3).blk t).view.emb (ix2 l j)) = V m c main_arg3 (ix2 l j)
  congr 1
  obtain ⟨-, -, e0, e1, -⟩ := idx2to8_facts t
  funext a; apply Fin.ext
  match a with
  | ⟨0, _⟩ => show win0_3.index t (0 : Fin 2) * 256 + 1 * l.val = l.val; omega
  | ⟨1, _⟩ => show win0_3.index t (1 : Fin 2) * 256 + 1 * j.val = j.val; omega

/-- The Wₐ block is the Wₐ array. -/
theorem blk4_at (t : Fin cfg0.N) (l j : Fin 256) :
    iblk m c 4 t (ix2 l j) = V m c main_arg5 (ix2 l j) := by
  show V m c main_arg5 (((cfg0.win 4).blk t).view.emb (ix2 l j)) = V m c main_arg5 (ix2 l j)
  congr 1
  obtain ⟨-, -, -, -, e0, e1, -⟩ := idx2to8_facts t
  funext a; apply Fin.ext
  match a with
  | ⟨0, _⟩ => show win0_4.index t (0 : Fin 2) * 256 + 1 * l.val = l.val; omega
  | ⟨1, _⟩ => show win0_4.index t (1 : Fin 2) * 256 + 1 * j.val = j.val; omega

/-- The Wₒ block is the Wₒ array. -/
theorem blk7_at (t : Fin cfg0.N) (j : Fin 512) (cc : Fin 128) :
    iblk m c 7 t (ix2 j cc) = V m c main_arg7 (ix2 j cc) := by
  show V m c main_arg7 (((cfg0.win 7).blk t).view.emb (ix2 j cc)) = V m c main_arg7 (ix2 j cc)
  congr 1
  obtain ⟨-, -, -, -, -, -, -, -, -, -, e0, e1, -⟩ := idx2to8_facts t
  funext a; apply Fin.ext
  match a with
  | ⟨0, _⟩ => show win0_7.index t (0 : Fin 2) * 512 + 1 * j.val = j.val; omega
  | ⟨1, _⟩ => show win0_7.index t (1 : Fin 2) * 128 + 1 * cc.val = cc.val; omega

/-! ## The bias rows -/

/-- A vector [a] viewed as the one-row matrix [1, a] reads, at (0, j), the vector at j. -/
theorem shapeCast_a_1a_apply {α : Type} {a : ℕ} (x : (⟨1, ![a]⟩ : Shape).Idx → α) (h : (⟨1, ![a]⟩ : Shape).ShapeCasts ⟨2, ![1, a]⟩)
    (u : Fin 1) (j : Fin a) : shapeCast ⟨2, ![1, a]⟩ x h (ix2 u j) = x (ix1 j) :=
  shapeCast_apply x h _ _ (by
    have hu : u.val = 0 := by omega
    rw [Shape.rowMajor_val_two, Shape.rowMajor_val_one]
    show j.val = u.val * a + j.val
    rw [hu, Nat.zero_mul, Nat.zero_add])

/-- The first bias row as the region finds it: the bias vector b₁. -/
theorem v0_at (u : Fin 1) (j : Fin 256) :
    (V m c main_v0 : S1x256.Idx → EReal) (ix2 u j) = V m c main_arg4 (ix1 j) := by
  have e : (V m c main_v0 : S1x256.Idx → EReal)
      = shapeCast S1x256 (m ((c : Thread nD τ).loc main_arg4)) shapeCasts_S256_S1x256 := by
    dsimp only [Gen.V, Gen.hostOps0]; after_results; rfl
  rw [e, V_main_arg4]
  exact shapeCast_a_1a_apply _ _ u j

/-- The second bias row: the bias vector b₂. -/
theorem v1_at (u : Fin 1) (j : Fin 256) :
    (V m c main_v1 : S1x256.Idx → EReal) (ix2 u j) = V m c main_arg6 (ix1 j) := by
  have e : (V m c main_v1 : S1x256.Idx → EReal)
      = shapeCast S1x256 (m ((c : Thread nD τ).loc main_arg6)) shapeCasts_S256_S1x256 := by
    dsimp only [Gen.V, Gen.hostOps0]; after_results; rfl
  rw [e, V_main_arg6]
  exact shapeCast_a_1a_apply _ _ u j

/-- The output bias row: the bias vector bₒ. -/
theorem v2_at (u : Fin 1) (cc : Fin 128) :
    (V m c main_v2 : S1x128.Idx → EReal) (ix2 u cc) = V m c main_arg8 (ix1 cc) := by
  have e : (V m c main_v2 : S1x128.Idx → EReal)
      = shapeCast S1x128 (m ((c : Thread nD τ).loc main_arg8)) shapeCasts_S128_S1x128 := by
    dsimp only [Gen.V, Gen.hostOps0]; after_results; rfl
  rw [e, V_main_arg8]
  exact shapeCast_a_1a_apply _ _ u cc

/-- The first bias block at (0, j): b₁(j). -/
theorem blk5_at (t : Fin cfg0.N) (u : Fin 1) (j : Fin 256) :
    iblk m c 5 t (ix2 u j) = V m c main_arg4 (ix1 j) := by
  refine Eq.trans ?_ (v0_at m c u j)
  show V m c main_v0 (((cfg0.win 5).blk t).view.emb (ix2 u j)) = V m c main_v0 (ix2 u j)
  congr 1
  obtain ⟨-, -, -, -, -, -, e0, e1, -⟩ := idx2to8_facts t
  funext a; apply Fin.ext
  match a with
  | ⟨0, _⟩ => show win0_5.index t (0 : Fin 2) * 1 + 1 * u.val = u.val; omega
  | ⟨1, _⟩ => show win0_5.index t (1 : Fin 2) * 256 + 1 * j.val = j.val; omega

/-- The second bias block at (0, j): b₂(j). -/
theorem blk6_at (t : Fin cfg0.N) (u : Fin 1) (j : Fin 256) :
    iblk m c 6 t (ix2 u j) = V m c main_arg6 (ix1 j) := by
  refine Eq.trans ?_ (v1_at m c u j)
  show V m c main_v1 (((cfg0.win 6).blk t).view.emb (ix2 u j)) = V m c main_v1 (ix2 u j)
  congr 1
  obtain ⟨-, -, -, -, -, -, -, -, e0, e1, -⟩ := idx2to8_facts t
  funext a; apply Fin.ext
  match a with
  | ⟨0, _⟩ => show win0_6.index t (0 : Fin 2) * 1 + 1 * u.val = u.val; omega
  | ⟨1, _⟩ => show win0_6.index t (1 : Fin 2) * 256 + 1 * j.val = j.val; omega

/-- The output bias block at (0, c): bₒ(c). -/
theorem blk8_at (t : Fin cfg0.N) (u : Fin 1) (cc : Fin 128) :
    iblk m c 8 t (ix2 u cc) = V m c main_arg8 (ix1 cc) := by
  refine Eq.trans ?_ (v2_at m c u cc)
  show V m c main_v2 (((cfg0.win 8).blk t).view.emb (ix2 u cc)) = V m c main_v2 (ix2 u cc)
  congr 1
  obtain ⟨-, -, -, -, -, -, -, -, -, -, -, -, e0, e1⟩ := idx2to8_facts t
  funext a; apply Fin.ext
  match a with
  | ⟨0, _⟩ => show win0_8.index t (0 : Fin 2) * 1 + 1 * u.val = u.val; omega
  | ⟨1, _⟩ => show win0_8.index t (1 : Fin 2) * 128 + 1 * cc.val = cc.val; omega

/-! ## The two halves of the output weight -/

/-- Rows 0..255 of the 512×128 block, at (j, c): row j. -/
theorem woLo_at (x7 : Vec Ideal S512x128 .f32) (j : Fin 256) (cc : Fin 128) :
    woLo x7 (ix2 j cc) = x7 (ix2 (AAGnn.lo j) cc) := by
  show x7 ((Rect.unit (s := S512x128) ![0, 0] S256x128.size inb_S512x128_S256x128_0_0).emb (ix2 j cc)) = x7 (ix2 (AAGnn.lo j) cc)
  congr 1
  funext a; apply Fin.ext
  match a with
  | ⟨0, _⟩ => show 0 + 1 * j.val = j.val; omega
  | ⟨1, _⟩ => show 0 + 1 * cc.val = cc.val; omega

/-- Rows 256..511 of the 512×128 block, at (j, c): row 256 + j. -/
theorem woHi_at (x7 : Vec Ideal S512x128 .f32) (j : Fin 256) (cc : Fin 128) :
    woHi x7 (ix2 j cc) = x7 (ix2 (AAGnn.hi j) cc) := by
  show x7 ((Rect.unit (s := S512x128) ![256, 0] S256x128.size inb_S512x128_S256x128_256_0).emb (ix2 j cc)) = x7 (ix2 (AAGnn.hi j) cc)
  congr 1
  funext a; apply Fin.ext
  match a with
  | ⟨0, _⟩ => show 256 + 1 * j.val = 256 + j.val; omega
  | ⟨1, _⟩ => show 0 + 1 * cc.val = cc.val; omega

/-- Rows 0..255 of the Wₒ block: rows 0..255 of Wₒ. -/
theorem woLo_blk7 (t : Fin cfg0.N) (j : Fin 256) (cc : Fin 128) :
    woLo (iblk m c 7 t) (ix2 j cc) = V m c main_arg7 (ix2 (AAGnn.lo j) cc) :=
  (woLo_at _ j cc).trans (blk7_at m c t _ cc)

/-- Rows 256..511 of the Wₒ block: rows 256..511 of Wₒ. -/
theorem woHi_blk7 (t : Fin cfg0.N) (j : Fin 256) (cc : Fin 128) :
    woHi (iblk m c 7 t) (ix2 j cc) = V m c main_arg7 (ix2 (AAGnn.hi j) cc) :=
  (woHi_at _ j cc).trans (blk7_at m c t _ cc)

/-! ## The two projections -/

/-- The first scratch buffer holds H₁ = F·W₁. -/
theorem sH1_at (k : Fin 4096) (j : Fin 256) :
    sH1 m c (ix2 k j) = AAGnn.proj (fun i j => V m c main_arg0 (ix2 i j)) (fun l j => V m c main_arg3 (ix2 l j)) k j := by
  unfold sH1
  refine (KPay.pay1_apply _ _ k j).trans ?_
  unfold AAGnn.proj
  exact Finset.sum_congr rfl fun l _ => by rw [blk2_at, blk3_at]

/-- The second scratch buffer holds H₂ = F·Wₐ. -/
theorem sH2_at (k : Fin 4096) (j : Fin 256) :
    sH2 m c (ix2 k j) = AAGnn.proj (fun i j => V m c main_arg0 (ix2 i j)) (fun l j => V m c main_arg5 (ix2 l j)) k j := by
  unfold sH2
  refine (KPay.pay2_apply _ _ k j).trans ?_
  unfold AAGnn.proj
  exact Finset.sum_congr rfl fun l _ => by rw [blk2_at, blk4_at]

/-! ## The normalised distance rows -/

/-- Row i of the normalised distances, from the block of the coordinate that stores it. -/
theorem dn_row (i : Fin 4096) (h : i.val % 256 < 256) (k : Fin 4096) :
    k0_pay5 (F := Ideal) (iblk m c 0 (tOfRow i.val)) (ix2 (⟨i.val % 256, h⟩ : Fin 256) k)
      = AAGnn.kDn (fun i k => V m c main_arg1 (ix2 i k)) i k := by
  refine (KPay.pay5_apply _ _ k).trans ?_
  unfold AAGnn.kDn AAGnn.rowSum
  simp only [blk0_row]

/-- The third scratch buffer, once every aggregation coordinate has run, holds D(i,k) · (1 / s(i)). -/
theorem DN_at (i k : Fin 4096) :
    DN m c (ix2 i k) = AAGnn.kDn (fun i k => V m c main_arg1 (ix2 i k)) i k := by
  show rows2 m c (tOfRow i.val) (ix2 (⟨i.val % 256, Nat.mod_lt _ (by norm_num)⟩ : Fin 256) k) = _
  unfold rows2
  refine (KPay.pay6_apply _ _ k).trans ?_
  unfold AAGnn.kDn AAGnn.rowSum
  simp only [blk0_row]

/-! ## The hidden rows -/

/-- The distance branch after max(·, 0), at row i. -/
theorem x1_row (i : Fin 4096) (h : i.val % 256 < 256) (j : Fin 256) :
    k0_pay7 (F := Ideal) (iblk m c 0 (tOfRow i.val)) (sH1 m c) (iblk m c 5 (tOfRow i.val)) (ix2 (⟨i.val % 256, h⟩ : Fin 256) j)
      = AAGnn.kX1 (fun i j => V m c main_arg0 (ix2 i j)) (fun i k => V m c main_arg1 (ix2 i k)) (fun l j => V m c main_arg3 (ix2 l j)) (fun j => V m c main_arg4 (ix1 j)) i j := by
  refine (KPay.pay7_apply _ _ _ _ j).trans ?_
  unfold AAGnn.kX1
  simp only [dn_row, sH1_at, blk5_at]

/-- The cosine branch after its bias and max(·, 0), at row i. -/
theorem x2_row (i : Fin 4096) (h : i.val % 256 < 256) (j : Fin 256) :
    max (k0_pay8 (F := Ideal) (iblk m c 1 (tOfRow i.val)) (sH2 m c) (ix2 (⟨i.val % 256, h⟩ : Fin 256) j)
        + iblk m c 6 (tOfRow i.val) (ix2 (0 : Fin 1) j)) 0
      = AAGnn.kX2 (fun i j => V m c main_arg0 (ix2 i j)) (fun i k => V m c main_arg2 (ix2 i k)) (fun l j => V m c main_arg5 (ix2 l j)) (fun j => V m c main_arg6 (ix1 j)) i j := by
  rw [KPay.pay8_apply]
  unfold AAGnn.kX2 AAGnn.absRowSum
  simp only [blk1_row, sH2_at, blk6_at]

/-- The fourth scratch buffer, once every aggregation coordinate has run, holds the hidden rows projected by Wₒ. -/
theorem YY_at (i : Fin 4096) (cc : Fin 128) :
    YY m c (ix2 i cc) = AAGnn.kY (fun i j => V m c main_arg0 (ix2 i j)) (fun i k => V m c main_arg1 (ix2 i k)) (fun i k => V m c main_arg2 (ix2 i k)) (fun l j => V m c main_arg3 (ix2 l j)) (fun l j => V m c main_arg5 (ix2 l j)) (fun j => V m c main_arg4 (ix1 j)) (fun j => V m c main_arg6 (ix1 j)) (fun j cc => V m c main_arg7 (ix2 j cc)) i cc := by
  show rows3 m c (tOfRow i.val) (ix2 (⟨i.val % 256, Nat.mod_lt _ (by norm_num)⟩ : Fin 256) cc) = _
  unfold rows3
  refine (KPay.pay3_apply _ _ _ _ _ _ cc).trans ?_
  unfold AAGnn.kY
  refine congrArg₂ (· + ·) (Finset.sum_congr rfl fun j _ => ?_) (Finset.sum_congr rfl fun j _ => ?_)
  · exact congrArg₂ (· * ·) (x1_row m c i _ j) (woLo_blk7 m c _ j cc)
  · exact congrArg₂ (· * ·) (x2_row m c i _ j) (woHi_blk7 m c _ j cc)

/-! ## The result block -/

/-- The result block a coordinate t ≥ 17 stores, at local row r: row 512·(t−17) + r of the kernel's form. -/
theorem out_at (t : Fin cfg0.N) (h17 : 17 ≤ t.val) (hc3 : cond3 (grid0.coords t)) (r : Fin 512) (cc : Fin 128) (i : Fin 4096)
    (hi : i.val = 512 * (t.val - 17) + r.val) :
    k0_pay4 (F := Ideal) (View.ld (DN m c) (Rect.unit (s := S4096x4096) (k0_off3 (grid0.coords t)) S512x4096.size (k0_off3_inb (grid0.coords t) hc3)))
        (YY m c) (iblk m c 8 t) (ix2 r cc)
      = AAGnn.kOut (fun i j => V m c main_arg0 (ix2 i j)) (fun i k => V m c main_arg1 (ix2 i k)) (fun i k => V m c main_arg2 (ix2 i k)) (fun l j => V m c main_arg3 (ix2 l j)) (fun l j => V m c main_arg5 (ix2 l j)) (fun j => V m c main_arg4 (ix1 j)) (fun j => V m c main_arg6 (ix1 j)) (fun j cc => V m c main_arg7 (ix2 j cc)) (fun cc => V m c main_arg8 (ix1 cc)) i cc := by
  have hld : ∀ k : Fin 4096, View.ld (DN m c) (Rect.unit (s := S4096x4096) (k0_off3 (grid0.coords t)) S512x4096.size (k0_off3_inb (grid0.coords t) hc3)) (ix2 r k)
      = DN m c (ix2 i k) := fun k => by
    show DN m c ((Rect.unit (s := S4096x4096) (k0_off3 (grid0.coords t)) S512x4096.size (k0_off3_inb (grid0.coords t) hc3)).emb (ix2 r k)) = DN m c (ix2 i k)
    refine congrArg (DN m c) ?_
    funext a; apply Fin.ext
    match a with
    | ⟨0, _⟩ =>
      show (k0_off3 (grid0.coords t)) 0 + 1 * r.val = i.val
      rw [off3_eq t h17]
      show 512 * (t.val - 17) + 1 * r.val = i.val
      omega
    | ⟨1, _⟩ =>
      show (k0_off3 (grid0.coords t)) 1 + 1 * k.val = k.val
      rw [off3_eq t h17]
      show 0 + 1 * k.val = k.val
      omega
  refine (KPay.pay4_apply _ _ _ r cc).trans ?_
  unfold AAGnn.kOut
  simp only [hld, DN_at, YY_at, blk8_at]

end AAGnn.KVal

end
-- ==== Proof.RefValue.lean ====
/-
  The reference's result array, index by index, is the reference's form of the specification.

  Each stage of the reference is read at an index from the stages before it: a row sum is the initial value 0 plus the
  sum over the row, a broadcast reads its operand at the kept coordinates, a contraction is the sum of the products
  over the contracted coordinate, the concatenation of the two 256-column branches reads the first branch at columns
  0..255 and the second at columns 256..511, and max(·, 0) is taken entry by entry.
-/
import proofs.«171890_g89756226552612_cont_sun_m_1083_24_alg».proof.Proof.Gen.ReferenceIdeal.Run
import proofs.«171890_g89756226552612_cont_sun_m_1083_24_alg».proof.Proof.Gen.ReferenceIdeal.Read
import proofs.«171890_g89756226552612_cont_sun_m_1083_24_alg».proof.Proof.Spec
import Idealize.ShloMosaic.Lib.ValueIdx
import Idealize.ShloMosaic.PureOps.Ideal.Laws

noncomputable section

namespace AAGnn.Ref

open Cert.ReferenceIdeal Cert.ReferenceIdeal.Gen Cert.ReferenceIdeal.Read Idealize.ShloMosaic Idealize.ShloMosaic.ValueIdx

/-- Two rank-2 indices are equal when their coordinates are. -/
macro "idx2" : tactic => `(tactic| (funext a; match a with | ⟨0, _⟩ => rfl | ⟨1, _⟩ => rfl))
/-- Two rank-1 indices are equal when their coordinate is. -/
macro "idx1" : tactic => `(tactic| (funext a; match a with | ⟨0, _⟩ => rfl))

variable (a0 : (⟨S4096x256, .f32⟩ : BufTy).Contents (Elt Ideal)) (a1 a2 : (⟨S4096x4096, .f32⟩ : BufTy).Contents (Elt Ideal)) (a3 : (⟨S256x256, .f32⟩ : BufTy).Contents (Elt Ideal)) (a4 : (⟨S256, .f32⟩ : BufTy).Contents (Elt Ideal))
  (a5 : (⟨S256x256, .f32⟩ : BufTy).Contents (Elt Ideal)) (a6 : (⟨S256, .f32⟩ : BufTy).Contents (Elt Ideal)) (a7 : (⟨S512x128, .f32⟩ : BufTy).Contents (Elt Ideal)) (a8 : (⟨S128, .f32⟩ : BufTy).Contents (Elt Ideal))

/-! ## The distance row sums and the normalised distances -/

/-- The broadcast row sum of the distances plus ε, at (i, k), is s(i). -/
theorem v4_at (i k : Fin 4096) :
    val_main_v4 (F := Ideal) a1 (ix2 i k) = AAGnn.rowSum (fun i k => a1 (ix2 i k)) i := by
  have e4 : idx_main_v4 (ix2 i k) = ix2 i (0 : Fin 1) := by idx2
  have e1 : idx_main_v1 (ix2 i (0 : Fin 1)) = ix1 i := by idx1
  have e0 : ∀ k', idx_main_v0 (ix1 i) k' = ix2 i k' := fun k' => by idx2
  rw [val_main_v4_apply, val_main_v3_apply, val_main_v1_apply, val_main_v0_apply, val_main_v2_apply,
    val_main_cst_0_apply, val_main_cst_apply, e4, e1]
  simp only [e0, Ideal.addf_def, Ideal.ofBits_def, Ideal.ofBits_zero_f32, zero_add]
  rfl

/-- D(i,k) / s(i). -/
theorem v5_at (i k : Fin 4096) :
    val_main_v5 (F := Ideal) a1 (ix2 i k) = AAGnn.rW (fun i k => a1 (ix2 i k)) i k := by
  rw [val_main_v5_apply, v4_at]
  rfl

/-- The same row sum, taken a second time for the last aggregation. -/
theorem v29_at (i k : Fin 4096) :
    val_main_v29 (F := Ideal) a1 (ix2 i k) = AAGnn.rowSum (fun i k => a1 (ix2 i k)) i := by
  have e4 : idx_main_v29 (ix2 i k) = ix2 i (0 : Fin 1) := by idx2
  have e1 : idx_main_v26 (ix2 i (0 : Fin 1)) = ix1 i := by idx1
  have e0 : ∀ k', idx_main_v25 (ix1 i) k' = ix2 i k' := fun k' => by idx2
  rw [val_main_v29_apply, val_main_v28_apply, val_main_v26_apply, val_main_v25_apply, val_main_v27_apply,
    val_main_cst_4_apply, val_main_cst_3_apply, e4, e1]
  simp only [e0, Ideal.addf_def, Ideal.ofBits_def, Ideal.ofBits_zero_f32, zero_add]
  rfl

theorem v30_at (i k : Fin 4096) :
    val_main_v30 (F := Ideal) a1 (ix2 i k) = AAGnn.rW (fun i k => a1 (ix2 i k)) i k := by
  rw [val_main_v30_apply, v29_at]
  rfl

/-! ## The projections and the two branches -/

/-- H₁ = F·W₁ at (k, j). -/
theorem v6_at (k : Fin 4096) (j : Fin 256) :
    val_main_v6 (F := Ideal) a0 a3 (ix2 k j) = AAGnn.proj (fun i j => a0 (ix2 i j)) (fun l j => a3 (ix2 l j)) k j := by
  have el : ∀ l, lidx_main_v6 (ix2 k j) l = ix2 k l := fun l => by idx2
  have er : ∀ l, ridx_main_v6 (ix2 k j) l = ix2 l j := fun l => by idx2
  rw [val_main_v6_apply]
  simp only [el, er]
  rfl

/-- H₂ = F·Wₐ at (k, j). -/
theorem v18_at (k : Fin 4096) (j : Fin 256) :
    val_main_v18 (F := Ideal) a0 a5 (ix2 k j) = AAGnn.proj (fun i j => a0 (ix2 i j)) (fun l j => a5 (ix2 l j)) k j := by
  have el : ∀ l, lidx_main_v18 (ix2 k j) l = ix2 k l := fun l => by idx2
  have er : ∀ l, ridx_main_v18 (ix2 k j) l = ix2 l j := fun l => by idx2
  rw [val_main_v18_apply]
  simp only [el, er]
  rfl

/-- The distance branch before the concatenation. -/
theorem v10_at (i : Fin 4096) (j : Fin 256) :
    val_main_v10 (F := Ideal) a0 a1 a3 a4 (ix2 i j) = AAGnn.rXc (fun i j => a0 (ix2 i j)) (fun i k => a1 (ix2 i k)) (fun l j => a3 (ix2 l j)) (fun j => a4 (ix1 j)) i j := by
  have el : ∀ k, lidx_main_v7 (ix2 i j) k = ix2 i k := fun k => by idx2
  have er : ∀ k, ridx_main_v7 (ix2 i j) k = ix2 k j := fun k => by idx2
  have e9 : idx_main_v9 (ix2 i j) = ix2 (0 : Fin 1) j := by idx2
  have e8 : idx_main_v8 (ix2 (0 : Fin 1) j) = ix1 j := by idx1
  rw [val_main_v10_apply, val_main_v7_apply, val_main_v9_apply, val_main_v8_apply, e9, e8]
  simp only [el, er, v5_at, v6_at, Ideal.addf_def]
  rfl

/-- The broadcast row sum of |C| plus ε, at (i, k), is a(i). -/
theorem v16_at (i k : Fin 4096) :
    val_main_v16 (F := Ideal) a2 (ix2 i k) = AAGnn.absRowSum (fun i k => a2 (ix2 i k)) i := by
  have e4 : idx_main_v16 (ix2 i k) = ix2 i (0 : Fin 1) := by idx2
  have e1 : idx_main_v13 (ix2 i (0 : Fin 1)) = ix1 i := by idx1
  have e0 : ∀ k', idx_main_v12 (ix1 i) k' = ix2 i k' := fun k' => by idx2
  rw [val_main_v16_apply, val_main_v15_apply, val_main_v13_apply, val_main_v12_apply, val_main_v14_apply,
    val_main_cst_2_apply, val_main_cst_1_apply, e4, e1]
  simp only [e0, val_main_v11_apply, Ideal.addf_def, Ideal.ofBits_def, Ideal.ofBits_zero_f32, zero_add]
  rfl

/-- C(i,k) / a(i). -/
theorem v17_at (i k : Fin 4096) :
    val_main_v17 (F := Ideal) a2 (ix2 i k) = AAGnn.rW2 (fun i k => a2 (ix2 i k)) i k := by
  rw [val_main_v17_apply, v16_at]
  rfl

/-- The cosine branch before the concatenation. -/
theorem v22_at (i : Fin 4096) (j : Fin 256) :
    val_main_v22 (F := Ideal) a0 a2 a5 a6 (ix2 i j) = AAGnn.rXa (fun i j => a0 (ix2 i j)) (fun i k => a2 (ix2 i k)) (fun l j => a5 (ix2 l j)) (fun j => a6 (ix1 j)) i j := by
  have el : ∀ k, lidx_main_v19 (ix2 i j) k = ix2 i k := fun k => by idx2
  have er : ∀ k, ridx_main_v19 (ix2 i j) k = ix2 k j := fun k => by idx2
  have e9 : idx_main_v21 (ix2 i j) = ix2 (0 : Fin 1) j := by idx2
  have e8 : idx_main_v20 (ix2 (0 : Fin 1) j) = ix1 j := by idx1
  rw [val_main_v22_apply, val_main_v19_apply, val_main_v21_apply, val_main_v20_apply, e9, e8]
  simp only [el, er, v17_at, v18_at, Ideal.addf_def]
  rfl

/-! ## The concatenation and max(·, 0) -/

/-- Columns 0..255 of the concatenation are the distance branch. -/
theorem v23_lo (i : Fin 4096) (j : Fin 256) :
    val_main_v23 (F := Ideal) a0 a1 a2 a3 a4 a5 a6 (ix2 i (AAGnn.lo j)) = val_main_v10 (F := Ideal) a0 a1 a3 a4 (ix2 i j) := by
  unfold val_main_v23
  exact concatenate_pair_apply_left (t := S4096x512) (s₁ := S4096x256) (s₂ := S4096x256) (1 : Fin 2)
    (val_main_v10 (F := Ideal) a0 a1 a3 a4) (val_main_v22 (F := Ideal) a0 a2 a5 a6)
    concatenates_S4096x256_S4096x256_S4096x512_d1 (ix2 i (AAGnn.lo j)) rfl
    (ix2 i j) (fun b => match b with | ⟨0, _⟩ => rfl | ⟨1, _⟩ => rfl)

/-- Columns 256..511 of the concatenation are the cosine branch. -/
theorem v23_hi (i : Fin 4096) (j : Fin 256) :
    val_main_v23 (F := Ideal) a0 a1 a2 a3 a4 a5 a6 (ix2 i (AAGnn.hi j)) = val_main_v22 (F := Ideal) a0 a2 a5 a6 (ix2 i j) := by
  unfold val_main_v23
  exact concatenate_pair_apply_right (t := S4096x512) (s₁ := S4096x256) (s₂ := S4096x256) (1 : Fin 2)
    (val_main_v10 (F := Ideal) a0 a1 a3 a4) (val_main_v22 (F := Ideal) a0 a2 a5 a6)
    concatenates_S4096x256_S4096x256_S4096x512_d1 (ix2 i (AAGnn.hi j)) rfl rfl
    (ix2 i j) (fun b hb => match b, hb with | ⟨0, _⟩, _ => rfl | ⟨1, _⟩, hb => absurd rfl hb)
    (by show j.val + 256 = 256 + j.val; omega)

/-- max(·, 0) entry by entry. -/
theorem v24_eq (i : Fin 4096) (j' : Fin 512) :
    val_main_v24 (F := Ideal) a0 a1 a2 a3 a4 a5 a6 (ix2 i j')
      = max (val_main_v23 (F := Ideal) a0 a1 a2 a3 a4 a5 a6 (ix2 i j')) 0 := by
  rw [val_main_v24_apply, val_main_call0_v0_apply, val_main_call0_cst_apply]
  simp only [Ideal.maximumf_def, Ideal.ofBits_def, Ideal.ofBits_zero_f32]

theorem rX_lo (feat : Fin 4096 → Fin 256 → EReal) (dist cos : Fin 4096 → Fin 4096 → EReal)
    (W1 Wa : Fin 256 → Fin 256 → EReal) (b1 b2 : Fin 256 → EReal) (i : Fin 4096) (j : Fin 256) :
    AAGnn.rX feat dist cos W1 Wa b1 b2 i (AAGnn.lo j) = max (AAGnn.rXc feat dist W1 b1 i j) 0 := by
  unfold AAGnn.rX
  rw [dif_pos (show (AAGnn.lo j).val < 256 from j.isLt)]
  rfl

theorem rX_hi (feat : Fin 4096 → Fin 256 → EReal) (dist cos : Fin 4096 → Fin 4096 → EReal)
    (W1 Wa : Fin 256 → Fin 256 → EReal) (b1 b2 : Fin 256 → EReal) (i : Fin 4096) (j : Fin 256) :
    AAGnn.rX feat dist cos W1 Wa b1 b2 i (AAGnn.hi j) = max (AAGnn.rXa feat cos Wa b2 i j) 0 := by
  unfold AAGnn.rX
  rw [dif_neg (show ¬ (AAGnn.hi j).val < 256 from by show ¬ (256 + j.val < 256); omega)]
  have e : (⟨(AAGnn.hi j).val - 256, by have := j.isLt; show 256 + j.val - 256 < 256; omega⟩ : Fin 256) = j :=
    Fin.ext (by show 256 + j.val - 256 = j.val; omega)
  rw [e]

/-- The 512 hidden columns after max(·, 0). -/
theorem v24_at (i : Fin 4096) (j' : Fin 512) :
    val_main_v24 (F := Ideal) a0 a1 a2 a3 a4 a5 a6 (ix2 i j')
      = AAGnn.rX (fun i j => a0 (ix2 i j)) (fun i k => a1 (ix2 i k)) (fun i k => a2 (ix2 i k)) (fun l j => a3 (ix2 l j)) (fun l j => a5 (ix2 l j)) (fun j => a4 (ix1 j)) (fun j => a6 (ix1 j)) i j' := by
  rw [v24_eq]
  by_cases h : j'.val < 256
  · obtain ⟨j, rfl⟩ : ∃ j : Fin 256, j' = AAGnn.lo j := ⟨⟨j'.val, h⟩, rfl⟩
    rw [v23_lo, v10_at, rX_lo]
  · obtain ⟨j, rfl⟩ : ∃ j : Fin 256, j' = AAGnn.hi j :=
      ⟨⟨j'.val - 256, by have := j'.isLt; omega⟩, Fin.ext (by show j'.val = 256 + (j'.val - 256); omega)⟩
    rw [v23_hi, v22_at, rX_hi]

/-! ## The output projection and the last aggregation -/

/-- The hidden rows projected by Wₒ. -/
theorem v31_at (i : Fin 4096) (c : Fin 128) :
    val_main_v31 (F := Ideal) a0 a1 a2 a3 a4 a5 a6 a7 (ix2 i c)
      = AAGnn.rZ (fun i j => a0 (ix2 i j)) (fun i k => a1 (ix2 i k)) (fun i k => a2 (ix2 i k)) (fun l j => a3 (ix2 l j)) (fun l j => a5 (ix2 l j)) (fun j => a4 (ix1 j)) (fun j => a6 (ix1 j)) (fun j c => a7 (ix2 j c)) i c := by
  have el : ∀ k, lidx_main_v31 (ix2 i c) k = ix2 i k := fun k => by idx2
  have er : ∀ k, ridx_main_v31 (ix2 i c) k = ix2 k c := fun k => by idx2
  rw [val_main_v31_apply]
  simp only [el, er, v24_at]
  rfl

/-- The reference's result array at (i, c) is the reference's form of the specification, over the argument arrays read
    as functions of their coordinates. -/
theorem ref_eq (i : Fin 4096) (c : Fin 128) :
    val_main_v35 (F := Ideal) a0 a1 a2 a3 a4 a5 a6 a7 a8 (ix2 i c)
      = AAGnn.rOut (fun i j => a0 (ix2 i j)) (fun i k => a1 (ix2 i k)) (fun i k => a2 (ix2 i k)) (fun l j => a3 (ix2 l j)) (fun l j => a5 (ix2 l j)) (fun j => a4 (ix1 j)) (fun j => a6 (ix1 j)) (fun j c => a7 (ix2 j c)) (fun c => a8 (ix1 c)) i c := by
  have el : ∀ k, lidx_main_v32 (ix2 i c) k = ix2 i k := fun k => by idx2
  have er : ∀ k, ridx_main_v32 (ix2 i c) k = ix2 k c := fun k => by idx2
  have e9 : idx_main_v34 (ix2 i c) = ix2 (0 : Fin 1) c := by idx2
  have e8 : idx_main_v33 (ix2 (0 : Fin 1) c) = ix1 c := by idx1
  rw [val_main_v35_apply, val_main_v32_apply, val_main_v34_apply, val_main_v33_apply, e9, e8]
  simp only [el, er, v30_at, v31_at, Ideal.addf_def]
  rfl

end AAGnn.Ref

end
-- ==== Proof.Algebra.lean ====
/-
  The kernel's form and the reference's form agree on real-valued inputs whose distance row sums are not zero.

  Off zero, x / y is x · y⁻¹ on the extended reals, so D(i,k) · (1 / s(i)) = D(i,k) / s(i) needs only s(i) ≠ 0 and
  1 · y⁻¹ = y⁻¹. In the cosine branch a(i) = Σₖ |C(i,k)| + ε is a positive real (ε > 0), and for real values
  multiplication distributes over the finite sum: (Σₖ C(i,k) · H(k,j)) · a⁻¹ = Σₖ (C(i,k) · a⁻¹) · H(k,j).
  The sum over the 512 hidden columns is the sum over the first 256 plus the sum over the last 256.
-/
import proofs.«171890_g89756226552612_cont_sun_m_1083_24_alg».proof.Proof.Spec
import Mathlib

noncomputable section

namespace AAGnn

open Idealize.ShloMosaic

/-! ## The two constants -/

/-- The word 0x3F800000 denotes 1. -/
theorem one_eq : one = 1 := by
  simp [one, Ideal.ofBits, Ideal.ieee]
  norm_cast
  norm_num

/-- The word 0x322BCC77 denotes a positive real, 11258999 · 2⁻⁵⁰. -/
theorem eps_real : ∃ r : ℝ, 0 < r ∧ eps = (r : EReal) := by
  refine ⟨11258999 * (2:ℝ)^(-50:ℤ), by positivity, ?_⟩
  simp [eps, Ideal.ofBits, Ideal.ieee]

/-! ## Finite sums and division of real values inside the extended reals -/

/-- A finite sum of real values, taken in the extended reals, is the real sum. -/
theorem coe_sum {ι : Type*} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- Off zero the quotient is the product with the inverse. -/
theorem div_of_ne {x y : EReal} (hy : y ≠ 0) : Ideal.div x y = x * y⁻¹ := by
  unfold Ideal.div
  rw [if_neg hy]

/-- Off zero the reciprocal 1 / y is the inverse. -/
theorem div_one_of_ne {y : EReal} (hy : y ≠ 0) : Ideal.div one y = y⁻¹ := by
  rw [div_of_ne hy, one_eq, one_mul]

/-- For real values a product of a finite sum with a scalar distributes:
    (Σₖ cₖ · pₖ) · r = Σₖ (cₖ · r) · pₖ. -/
theorem sum_mul_real {ι : Type*} (s : Finset ι) (c p : ι → ℝ) (r : ℝ) :
    (∑ k ∈ s, (c k : EReal) * (p k : EReal)) * (r : EReal)
      = ∑ k ∈ s, ((c k : EReal) * (r : EReal)) * (p k : EReal) := by
  simp only [← EReal.coe_mul, coe_sum]
  rw [Finset.sum_mul]
  exact congrArg _ (Finset.sum_congr rfl fun k _ => by ring)

/-! ## The distance branch -/

/-- D(i,k) · (1 / s(i)) = D(i,k) / s(i) when s(i) ≠ 0. -/
theorem kDn_eq_rW (dist : Fin 4096 → Fin 4096 → EReal) (i k : Fin 4096) (h : rowSum dist i ≠ 0) :
    kDn dist i k = rW dist i k := by
  unfold kDn rW
  rw [div_one_of_ne h, div_of_ne h]

theorem kX1_eq (feat : Fin 4096 → Fin 256 → EReal) (dist : Fin 4096 → Fin 4096 → EReal)
    (W1 : Fin 256 → Fin 256 → EReal) (b1 : Fin 256 → EReal) (i : Fin 4096) (j : Fin 256)
    (h : rowSum dist i ≠ 0) :
    kX1 feat dist W1 b1 i j = max (rXc feat dist W1 b1 i j) 0 := by
  unfold kX1 rXc
  simp only [kDn_eq_rW dist i _ h]

/-! ## The cosine branch -/

/-- A projection of real features by a real matrix is real. -/
theorem proj_real (featR : Fin 4096 → Fin 256 → ℝ) (WR : Fin 256 → Fin 256 → ℝ) (k : Fin 4096) (j : Fin 256) :
    proj (fun i l => ((featR i l : ℝ) : EReal)) (fun l j => ((WR l j : ℝ) : EReal)) k j
      = ((∑ l : Fin 256, featR k l * WR l j : ℝ) : EReal) := by
  unfold proj
  simp only [← EReal.coe_mul, coe_sum]

/-- a(i) = Σₖ |C(i,k)| + ε is a positive real when C is real. -/
theorem absRowSum_real (cosR : Fin 4096 → Fin 4096 → ℝ) (i : Fin 4096) :
    ∃ a : ℝ, 0 < a ∧ absRowSum (fun i k => ((cosR i k : ℝ) : EReal)) i = (a : EReal) := by
  obtain ⟨e, he, hee⟩ := eps_real
  refine ⟨(∑ k : Fin 4096, |cosR i k|) + e, ?_, ?_⟩
  · have : 0 ≤ ∑ k : Fin 4096, |cosR i k| := Finset.sum_nonneg fun k _ => abs_nonneg _
    linarith
  · unfold absRowSum
    have hm : ∀ x : ℝ, max (x : EReal) (-(x : EReal)) = ((|x| : ℝ) : EReal) := fun x => by
      rw [abs_eq_max_neg, ← EReal.coe_neg]
      exact (EReal.coe_strictMono.monotone.map_max).symm
    simp only [hm, coe_sum, hee, ← EReal.coe_add]

/-- The cosine aggregate scaled afterwards is the aggregate of the scaled entries:
    (Σₖ C(i,k) · H₂(k,j)) · (1 / a(i)) = Σₖ (C(i,k) / a(i)) · H₂(k,j). -/
theorem kX2_eq (featR : Fin 4096 → Fin 256 → ℝ) (cosR : Fin 4096 → Fin 4096 → ℝ)
    (WaR : Fin 256 → Fin 256 → ℝ) (b2 : Fin 256 → EReal) (i : Fin 4096) (j : Fin 256) :
    kX2 (fun i l => ((featR i l : ℝ) : EReal)) (fun i k => ((cosR i k : ℝ) : EReal))
        (fun l j => ((WaR l j : ℝ) : EReal)) b2 i j
      = max (rXa (fun i l => ((featR i l : ℝ) : EReal)) (fun i k => ((cosR i k : ℝ) : EReal))
        (fun l j => ((WaR l j : ℝ) : EReal)) b2 i j) 0 := by
  obtain ⟨a, ha, hae⟩ := absRowSum_real cosR i
  have hne : ((a : ℝ) : EReal) ≠ 0 := EReal.coe_ne_zero.mpr ha.ne'
  unfold kX2 rXa rW2
  rw [hae, div_one_of_ne hne]
  simp only [div_of_ne hne, proj_real, ← EReal.coe_inv]
  rw [sum_mul_real]

/-! ## The 512 hidden columns as two halves -/

/-- A sum over the 512 columns is the sum over columns 0..255 plus the sum over columns 256..511. -/
theorem sum_512_split (g : Fin 512 → EReal) :
    ∑ j : Fin 512, g j = (∑ j : Fin 256, g (lo j)) + ∑ j : Fin 256, g (hi j) :=
  Fin.sum_univ_add (a := 256) (b := 256) g

theorem rX_lo (feat : Fin 4096 → Fin 256 → EReal) (dist cos : Fin 4096 → Fin 4096 → EReal)
    (W1 Wa : Fin 256 → Fin 256 → EReal) (b1 b2 : Fin 256 → EReal) (i : Fin 4096) (j : Fin 256) :
    rX feat dist cos W1 Wa b1 b2 i (lo j) = max (rXc feat dist W1 b1 i j) 0 := by
  unfold rX
  rw [dif_pos (show (lo j).val < 256 from j.isLt)]
  rfl

theorem rX_hi (feat : Fin 4096 → Fin 256 → EReal) (dist cos : Fin 4096 → Fin 4096 → EReal)
    (W1 Wa : Fin 256 → Fin 256 → EReal) (b1 b2 : Fin 256 → EReal) (i : Fin 4096) (j : Fin 256) :
    rX feat dist cos W1 Wa b1 b2 i (hi j) = max (rXa feat cos Wa b2 i j) 0 := by
  unfold rX
  rw [dif_neg (show ¬ (hi j).val < 256 from by show ¬ (256 + j.val < 256); omega)]
  have e : (⟨(hi j).val - 256, by have := j.isLt; show 256 + j.val - 256 < 256; omega⟩ : Fin 256) = j :=
    Fin.ext (by show 256 + j.val - 256 = j.val; omega)
  rw [e]

/-! ## The two forms agree -/

section
variable (featR : Fin 4096 → Fin 256 → ℝ) (distR cosR : Fin 4096 → Fin 4096 → ℝ)
  (W1R WaR : Fin 256 → Fin 256 → ℝ) (b1R b2R : Fin 256 → ℝ) (WoR : Fin 512 → Fin 128 → ℝ) (boR : Fin 128 → ℝ)

theorem kY_eq_rZ (i : Fin 4096) (c : Fin 128)
    (h : rowSum (fun i k => ((distR i k : ℝ) : EReal)) i ≠ 0) :
    kY (fun i j => ((featR i j : ℝ) : EReal)) (fun i k => ((distR i k : ℝ) : EReal))
        (fun i k => ((cosR i k : ℝ) : EReal)) (fun l j => ((W1R l j : ℝ) : EReal))
        (fun l j => ((WaR l j : ℝ) : EReal)) (fun j => ((b1R j : ℝ) : EReal)) (fun j => ((b2R j : ℝ) : EReal))
        (fun j c => ((WoR j c : ℝ) : EReal)) i c
      = rZ (fun i j => ((featR i j : ℝ) : EReal)) (fun i k => ((distR i k : ℝ) : EReal))
        (fun i k => ((cosR i k : ℝ) : EReal)) (fun l j => ((W1R l j : ℝ) : EReal))
        (fun l j => ((WaR l j : ℝ) : EReal)) (fun j => ((b1R j : ℝ) : EReal)) (fun j => ((b2R j : ℝ) : EReal))
        (fun j c => ((WoR j c : ℝ) : EReal)) i c := by
  unfold kY rZ
  rw [sum_512_split]
  simp only [rX_lo, rX_hi, kX1_eq _ _ _ _ i _ h, kX2_eq]

/-- On real-valued inputs whose distance row sums s(i) are all nonzero, the kernel's form equals the reference's. -/
theorem kOut_eq_rOut (hs : ∀ i, rowSum (fun i k => ((distR i k : ℝ) : EReal)) i ≠ 0) (i : Fin 4096) (c : Fin 128) :
    kOut (fun i j => ((featR i j : ℝ) : EReal)) (fun i k => ((distR i k : ℝ) : EReal))
        (fun i k => ((cosR i k : ℝ) : EReal)) (fun l j => ((W1R l j : ℝ) : EReal))
        (fun l j => ((WaR l j : ℝ) : EReal)) (fun j => ((b1R j : ℝ) : EReal)) (fun j => ((b2R j : ℝ) : EReal))
        (fun j c => ((WoR j c : ℝ) : EReal)) (fun c => ((boR c : ℝ) : EReal)) i c
      = rOut (fun i j => ((featR i j : ℝ) : EReal)) (fun i k => ((distR i k : ℝ) : EReal))
        (fun i k => ((cosR i k : ℝ) : EReal)) (fun l j => ((W1R l j : ℝ) : EReal))
        (fun l j => ((WaR l j : ℝ) : EReal)) (fun j => ((b1R j : ℝ) : EReal)) (fun j => ((b2R j : ℝ) : EReal))
        (fun j c => ((WoR j c : ℝ) : EReal)) (fun c => ((boR c : ℝ) : EReal)) i c := by
  unfold kOut rOut
  simp only [kDn_eq_rW _ i _ (hs i), fun k => kY_eq_rZ featR distR cosR W1R WaR b1R b2R WoR k c (hs k)]

end

end AAGnn

end
-- ==== Proof.PreFacts.lean ====
/-
  The precondition read back. It is the conjunction of ten tests on the nine argument arrays: for each array, that
  every entry x has |x| < +∞, and, for the second array D, that every row i has 0 < |Σₖ D(i,k) + ε|. On the
  extended reals the first says that every entry is a real number, the second that Σₖ D(i,k) + ε is never 0,
  so the reciprocal 1 / (Σₖ D(i,k) + ε) is the field inverse.
-/
import proofs.«171890_g89756226552612_cont_sun_m_1083_24_alg».proof.Pre_finite_inputs
import proofs.«171890_g89756226552612_cont_sun_m_1083_24_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace AAGnn.PreFacts

open Idealize.ShloMosaic Idealize.ShloMosaic.ValueIdx Cert.Pre_finite_inputs

/-- The scalar shape has one index. -/
instance : Subsingleton S_.Idx := ⟨fun a b => funext fun d => d.elim0⟩

/-- The word 0x7F800000 is +∞. -/
theorem inf_word : Ideal.ofBits .f32 0x7F800000#32 = (⊤ : EReal) := by simp [Ideal.ofBits, Ideal.ieee]

/-- An extended real whose absolute value is below +∞ is a real. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | top => simp [Ideal.cmp] at h
  | coe r => exact ⟨r, rfl⟩

/-- An extended real whose absolute value is above 0 is not 0. -/
theorem ne_zero_of_abs_pos (y : EReal)
    (h : Ideal.cmp .olt (Ideal.ofBits .f32 0x00000000#32) (max y (-y)) = 1#1) : y ≠ 0 := by
  rw [Ideal.ofBits_zero_f32] at h
  refine (Ideal.zero_lt_max_neg_iff y).mp ?_
  by_contra hn
  simp [Ideal.cmp, hn] at h

/-- An array all of whose entries pass the test |x| < +∞ has only real entries. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) (i : s.Idx) : ∃ r : ℝ, a i = r :=
  real_of_abs_lt_inf (a i) (Host.reduce_andi_all _ _ hr hu ix0 e i)

/-- The row sums of a 4096×4096 array, kept as a column: at row i, Σₖ D(i,k). -/
theorem rowSum_apply (a1 : FVec Ideal S4096x4096 .f32)
    (hb : S4096.BroadcastsInDim S4096x1 (![0] : Fin 1 → Fin S4096x1.rank))
    (hr : S4096x4096.ReducesTo [1] S4096) (hu : 0 < S_.numel) (i : Fin 4096) (u : Fin 1) :
    broadcastInDim S4096x1 ![0] hb (Host.reduceAdd a1 (constant (F := Ideal) S_ .f32 0x00000000#32) hr hu) (ix2 i u)
      = ∑ k : Fin 4096, a1 (ix2 i k) := by
  rw [broadcastInDim_apply ![0] hb _ (ix2 i u) (ix1 i) (fun a => by match a with | ⟨0, _⟩ => rfl)]
  simp only [Host.reduceAdd, Ideal.hostReduceAdd_def]
  rw [Ideal.hostReduceAdd_single hr (by decide)]
  refine Eq.trans (b := (0 : EReal) + ∑ k : Fin 4096, a1 (ix2 i k)) ?_ (zero_add _)
  exact congrArg₂ (· + ·) Ideal.ofBits_zero_f32 (Finset.sum_congr rfl fun k _ =>
    congrArg a1 (funext fun a => Fin.ext (by match a with | ⟨0, _⟩ => rfl | ⟨1, _⟩ => rfl)))

/-- An array whose every row passes the test 0 < |Σₖ D(i,k) + ε| has no row with Σₖ D(i,k) + ε = 0. -/
theorem row_ne_zero (a1 : FVec Ideal S4096x4096 .f32)
    (hb0 : S_.BroadcastsInDim S4096x1 (![] : Fin 0 → Fin S4096x1.rank))
    (hb : S4096.BroadcastsInDim S4096x1 (![0] : Fin 1 → Fin S4096x1.rank))
    (hr : S4096x4096.ReducesTo [1] S4096) (hu : 0 < S_.numel) (hra : S4096x1.ReducesTo [0, 1] S_)
    (e : Host.reduce IntOp.andi
        (cmpf .olt (broadcastInDim S4096x1 ![] hb0 (constant (F := Ideal) S_ .f32 0x00000000#32))
          (Host.absf (addf
            (broadcastInDim S4096x1 ![0] hb (Host.reduceAdd a1 (constant (F := Ideal) S_ .f32 0x00000000#32) hr hu))
            (broadcastInDim S4096x1 ![] hb0 (constant (F := Ideal) S_ .f32 0x322BCC77#32)))))
        (constantI S_ 1 1#1) hra hu ix0 = 1#1) (i : Fin 4096) :
    (∑ k : Fin 4096, a1 (ix2 i k)) + AAGnn.eps ≠ 0 := by
  have hne := ne_zero_of_abs_pos
    (broadcastInDim S4096x1 ![0] hb (Host.reduceAdd a1 (constant (F := Ideal) S_ .f32 0x00000000#32) hr hu)
        (ix2 i (0 : Fin 1)) + Ideal.ofBits .f32 0x322BCC77#32)
    (Host.reduce_andi_all _ _ hra hu ix0 e (ix2 i (0 : Fin 1)))
  rw [rowSum_apply] at hne
  exact hne

/-- A rank-2 array of reals as a function of row and column. -/
theorem exists_real2 {m n : ℕ} (a : (⟨2, ![m, n]⟩ : Shape).Idx → EReal) (h : ∀ i, ∃ r : ℝ, a i = r) :
    ∃ f : Fin m → Fin n → ℝ, ∀ p q, a (ix2 p q) = (f p q : EReal) := by
  choose f hf using h
  exact ⟨fun p q => f (ix2 p q), fun p q => hf _⟩

/-- A rank-1 array of reals as a function of its coordinate. -/
theorem exists_real1 {n : ℕ} (a : (⟨1, ![n]⟩ : Shape).Idx → EReal) (h : ∀ i, ∃ r : ℝ, a i = r) :
    ∃ f : Fin n → ℝ, ∀ p, a (ix1 p) = (f p : EReal) := by
  choose f hf using h
  exact ⟨fun p => f (ix1 p), fun p => hf _⟩

variable [Facts]

/-- What the precondition says of the nine arrays: every entry of each is a real, and no row of the second has
    Σₖ D(i,k) + ε = 0. -/
theorem decode (a0 : FVec Ideal S4096x256 .f32) (a1 a2 : FVec Ideal S4096x4096 .f32) (a3 : FVec Ideal S256x256 .f32)
    (a4 : FVec Ideal S256 .f32) (a5 : FVec Ideal S256x256 .f32) (a6 : FVec Ideal S256 .f32)
    (a7 : FVec Ideal S512x128 .f32) (a8 : FVec Ideal S128 .f32)
    (h : fn (F := Ideal) a0 a1 a2 a3 a4 a5 a6 a7 a8 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) ∧ (∀ i, ∃ r : ℝ, a7 i = r)
      ∧ (∀ i, ∃ r : ℝ, a8 i = r) ∧ ∀ i : Fin 4096, (∑ k : Fin 4096, a1 (ix2 i k)) + AAGnn.eps ≠ 0 := by
  have h0 := congrFun h ix0
  dsimp only [fn, fn_part1, fn_part2, fn_part3] at h0
  obtain ⟨h9, hrow⟩ := IntOp.andi_eq_one.1 h0
  obtain ⟨h8, e8⟩ := IntOp.andi_eq_one.1 h9
  obtain ⟨h7, e7⟩ := IntOp.andi_eq_one.1 h8
  obtain ⟨h6, e6⟩ := IntOp.andi_eq_one.1 h7
  obtain ⟨h5, e5⟩ := IntOp.andi_eq_one.1 h6
  obtain ⟨h4, e4⟩ := IntOp.andi_eq_one.1 h5
  obtain ⟨h3, e3⟩ := IntOp.andi_eq_one.1 h4
  obtain ⟨h2, e2⟩ := IntOp.andi_eq_one.1 h3
  obtain ⟨e0, e1⟩ := IntOp.andi_eq_one.1 h2
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7, all_real a8 _ _ _ e8,
    fun i => row_ne_zero a1 _ _ _ _ _ hrow i⟩

end AAGnn.PreFacts

end
-- ==== Proof.AlgCore.lean ====
/-
  Under the precondition the kernel's form and the reference's form agree on the argument arrays: every entry of the
  nine arrays is a real number and no distance row sum s(i) = Σₖ D(i,k) + ε is zero, which is what the agreement of the
  two forms on real-valued inputs asks.
-/
import proofs.«171890_g89756226552612_cont_sun_m_1083_24_alg».proof.Proof.Algebra
import proofs.«171890_g89756226552612_cont_sun_m_1083_24_alg».proof.Proof.PreFacts

noncomputable section

namespace AAGnn.AlgCore

open Idealize.ShloMosaic Idealize.ShloMosaic.ValueIdx Cert.Pre_finite_inputs

variable [Facts]

/-- The two forms agree on argument arrays that pass the precondition. -/
theorem forms_agree (a0 : FVec Ideal S4096x256 .f32) (a1 a2 : FVec Ideal S4096x4096 .f32) (a3 : FVec Ideal S256x256 .f32)
    (a4 : FVec Ideal S256 .f32) (a5 : FVec Ideal S256x256 .f32) (a6 : FVec Ideal S256 .f32)
    (a7 : FVec Ideal S512x128 .f32) (a8 : FVec Ideal S128 .f32)
    (h : fn (F := Ideal) a0 a1 a2 a3 a4 a5 a6 a7 a8 = fun _ => 1#1) (i : Fin 4096) (cc : Fin 128) :
    AAGnn.kOut (fun i j => a0 (ix2 i j)) (fun i k => a1 (ix2 i k)) (fun i k => a2 (ix2 i k)) (fun l j => a3 (ix2 l j))
        (fun l j => a5 (ix2 l j)) (fun j => a4 (ix1 j)) (fun j => a6 (ix1 j)) (fun j c => a7 (ix2 j c)) (fun c => a8 (ix1 c)) i cc
      = AAGnn.rOut (fun i j => a0 (ix2 i j)) (fun i k => a1 (ix2 i k)) (fun i k => a2 (ix2 i k)) (fun l j => a3 (ix2 l j))
        (fun l j => a5 (ix2 l j)) (fun j => a4 (ix1 j)) (fun j => a6 (ix1 j)) (fun j c => a7 (ix2 j c)) (fun c => a8 (ix1 c)) i cc := by
  obtain ⟨r0, r1, r2, r3, r4, r5, r6, r7, r8, hrow⟩ := PreFacts.decode a0 a1 a2 a3 a4 a5 a6 a7 a8 h
  obtain ⟨f0, h0⟩ := PreFacts.exists_real2 a0 r0
  obtain ⟨f1, h1⟩ := PreFacts.exists_real2 a1 r1
  obtain ⟨f2, h2⟩ := PreFacts.exists_real2 a2 r2
  obtain ⟨f3, h3⟩ := PreFacts.exists_real2 a3 r3
  obtain ⟨f4, h4⟩ := PreFacts.exists_real1 a4 r4
  obtain ⟨f5, h5⟩ := PreFacts.exists_real2 a5 r5
  obtain ⟨f6, h6⟩ := PreFacts.exists_real1 a6 r6
  obtain ⟨f7, h7⟩ := PreFacts.exists_real2 a7 r7
  obtain ⟨f8, h8⟩ := PreFacts.exists_real1 a8 r8
  have e0 : (fun i j => a0 (ix2 i j)) = fun i j => ((f0 i j : ℝ) : EReal) := funext fun i => funext fun j => h0 i j
  have e1 : (fun i k => a1 (ix2 i k)) = fun i k => ((f1 i k : ℝ) : EReal) := funext fun i => funext fun k => h1 i k
  have e2 : (fun i k => a2 (ix2 i k)) = fun i k => ((f2 i k : ℝ) : EReal) := funext fun i => funext fun k => h2 i k
  have e3 : (fun l j => a3 (ix2 l j)) = fun l j => ((f3 l j : ℝ) : EReal) := funext fun l => funext fun j => h3 l j
  have e4 : (fun j => a4 (ix1 j)) = fun j => ((f4 j : ℝ) : EReal) := funext fun j => h4 j
  have e5 : (fun l j => a5 (ix2 l j)) = fun l j => ((f5 l j : ℝ) : EReal) := funext fun l => funext fun j => h5 l j
  have e6 : (fun j => a6 (ix1 j)) = fun j => ((f6 j : ℝ) : EReal) := funext fun j => h6 j
  have e7 : (fun j c => a7 (ix2 j c)) = fun j c => ((f7 j c : ℝ) : EReal) := funext fun j => funext fun c => h7 j c
  have e8 : (fun c => a8 (ix1 c)) = fun c => ((f8 c : ℝ) : EReal) := funext fun c => h8 c
  rw [e0, e1, e2, e3, e4, e5, e6, e7, e8]
  refine AAGnn.kOut_eq_rOut f0 f1 f2 f3 f5 f4 f6 f7 f8 (fun i => ?_) i cc
  have hr := hrow i
  simp only [h1] at hr
  exact hr

end AAGnn.AlgCore

end
-- ==== Proof.Alg.lean ====
/-
  The algebraic claim, assembled. The kernel's result array ends at the kernel's form of the specification of the
  argument arrays as launched: each result block is that form read at the block's rows. The reference's result array is
  the reference's form of its own argument arrays, which agree with the kernel's. Under the precondition every entry
  is a real and no distance row sum is zero, and there the two forms are equal.
-/
import proofs.«171890_g89756226552612_cont_sun_m_1083_24_alg».proof.Defs
import proofs.«171890_g89756226552612_cont_sun_m_1083_24_alg».proof.Proof.KFinal
import proofs.«171890_g89756226552612_cont_sun_m_1083_24_alg».proof.Proof.KValue
import proofs.«171890_g89756226552612_cont_sun_m_1083_24_alg».proof.Proof.RefValue
import proofs.«171890_g89756226552612_cont_sun_m_1083_24_alg».proof.Proof.AlgCore
import proofs.«171890_g89756226552612_cont_sun_m_1083_24_alg».proof.Proof.Gen.Pre_finite_inputs

set_option maxRecDepth 16384

noncomputable section

open Idealize.ShloMosaic Idealize.ShloMosaic.TcCoe Idealize.SL.Sem Idealize.ShloMosaic.ValueIdx

/-! ## The kernel's result array is the kernel's form -/

namespace Cert.KernelIdeal.Body

open Cert.KernelIdeal Cert.KernelIdeal.Gen

variable (m : (ℓ : Loc nD τ sig) → Buf (Elt Ideal) ℓ) (ρ : Dev nD → PrngReg)

/-- The kernel's form of the specification, over the argument arrays as launched, as an array. -/
def GK (c : Dev nD) : Buf (Elt Ideal) ((c.tc : Thread nD τ).loc main_v3) := fun y =>
  AAGnn.kOut (fun i j => m ((c.tc : Thread nD τ).loc main_arg0) (ix2 i j)) (fun i k => m ((c.tc : Thread nD τ).loc main_arg1) (ix2 i k)) (fun i k => m ((c.tc : Thread nD τ).loc main_arg2) (ix2 i k))
    (fun l j => m ((c.tc : Thread nD τ).loc main_arg3) (ix2 l j)) (fun l j => m ((c.tc : Thread nD τ).loc main_arg5) (ix2 l j)) (fun j => m ((c.tc : Thread nD τ).loc main_arg4) (ix1 j))
    (fun j => m ((c.tc : Thread nD τ).loc main_arg6) (ix1 j)) (fun j cc => m ((c.tc : Thread nD τ).loc main_arg7) (ix2 j cc)) (fun cc => m ((c.tc : Thread nD τ).loc main_arg8) (ix1 cc)) (y 0) (y 1)

/-- Each result block is the kernel's form read at the block's place in the array. -/
theorem outAt_eq_GK (c : Dev nD) (t : Fin cfg0.N) (h3 : cond3 (grid0.coords t)) (y : S512x128.Idx) :
    outAt m c t y = GK m c (((cfg0.win 9).blk t).view.emb y) := by
  have ht : 17 ≤ t.val := (hcond3 t).mp h3
  have hN : cfg0.N = 25 := N_0
  have htl : t.val < 25 := hN ▸ t.isLt
  obtain ⟨r, cc, rfl⟩ : ∃ (r : Fin 512) (cc : Fin 128), y = ix2 r cc := ⟨y 0, y 1, eq_ix2 y⟩
  have hr : r.val < 512 := r.isLt
  obtain ⟨i, hi⟩ : ∃ i : Fin 4096, i.val = 512 * (t.val - 17) + r.val := ⟨⟨512 * (t.val - 17) + r.val, by omega⟩, rfl⟩
  have hemb : ((cfg0.win 9).blk t).view.emb (ix2 r cc) = ix2 i cc := by
    funext a; apply Fin.ext
    match a with
    | ⟨0, _⟩ => exact (emb9_row t ht (ix2 r cc)).trans hi.symm
    | ⟨1, _⟩ => exact emb9_col t ht (ix2 r cc)
  rw [hemb, outAt_pos m c t h3]
  have key := AAGnn.KVal.out_at m c t ht h3 r cc i hi
  rw [V_main_arg0 m c, V_main_arg1 m c, V_main_arg2 m c, V_main_arg3 m c, V_main_arg4 m c, V_main_arg5 m c,
    V_main_arg6 m c, V_main_arg7 m c, V_main_arg8 m c] at key
  exact key

end Cert.KernelIdeal.Body

/-! ## The claims -/

namespace Cert.Proof.AlgClaims

/-- The reference runs and leaves its argument arrays unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From agreeing argument arrays that pass the precondition both programs run, and both result arrays are the
    kernel's form of the kernel's argument arrays. -/
theorem algebraic : Cert.algebraic_KernelIdeal_ReferenceIdeal := by
  intro m ρ m' ρ' hpre hagree
  refine ⟨fun c => Cert.KernelIdeal.Body.GK m c,
    Cert.KernelIdeal.Body.run_final m ρ (fun c => Cert.KernelIdeal.Body.GK m c) (Cert.KernelIdeal.Body.outAt_eq_GK m), ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8⟩ := hagree c
  rw [Cert.ReferenceIdeal.Read.val_main_v35_eq, g0, g1, g2, g3, g4, g5, g6, g7, g8]
  funext y
  obtain ⟨i, cc, rfl⟩ : ∃ (i : Fin 4096) (cc : Fin 128), y = ix2 i cc := ⟨y 0, y 1, eq_ix2 y⟩
  refine (AAGnn.Ref.ref_eq _ _ _ _ _ _ _ _ _ i cc).trans ?_
  exact (AAGnn.AlgCore.forms_agree _ _ _ _ _ _ _ _ _ (hpre c) i cc).symm

end Cert.Proof.AlgClaims

end
-- ==== Proof.lean ====
/-
  A dense graph layer on 4096 nodes, as one phased kernel, against its plain formulation.

  Both programs take node features F (4096×256), a distance matrix D and a cosine matrix C (4096×4096), weights
  W₁, Wₐ (256×256) and Wₒ (512×128), and biases b₁, b₂ (256), bₒ (128). With the row normalisers
      s(i) = Σₖ D(i,k) + ε,        a(i) = Σₖ |C(i,k)| + ε          (ε the f32 word for 1e-8),
  they compute
      X₁ = max(D̂·(F·W₁) + b₁, 0),   X₂ = max(Ĉ·(F·Wₐ) + b₂, 0),   out = D̂·([X₁ X₂]·Wₒ) + bₒ,
  where D̂ and Ĉ are D and C with row i divided by s(i) and a(i).

  The kernel runs on a grid of 25 points and carries four scratch buffers between them. Point 0 stores the two
  projections F·W₁ and F·Wₐ. Points 1..16 each take 256 rows of D and C, store the 256 rows D(i,·)·(1/s(i)) into a
  4096×4096 scratch buffer and the 256 rows of [X₁ X₂]·Wₒ — contracted as two sums over 256 columns — into a
  4096×128 one; the cosine branch scales the finished aggregate, (Σₖ C(i,k)·H₂(k,j))·(1/a(i)). Points 17..24 each
  read 512 stored rows of D̂ back, multiply them by the stored 4096×128 matrix, add bₒ and write 512 rows of the result.

  The frames (Kernel at the word level, KernelIdeal over the extended reals) are one proof, generic in the float
  instance: the body at each kind of point, and an invariant saying which rows of the two row-blocked scratch buffers
  already hold what their aggregation point stored; past point 16 the invariant determines both buffers completely,
  which is what makes the result block at a later point a function of the arguments alone.

  The value claim: over the extended reals the kernel's result is the formula above with the reciprocals multiplied
  in, the reference's the same formula with entrywise quotients. They agree once every input is a real and no s(i)
  vanishes — x·(1·s⁻¹) = x·s⁻¹ needs s ≠ 0 (at s = 0 the quotient conventions differ: 1/0 = +∞ but 0/0 = −∞), moving
  1/a(i) across the sum over k and splitting the 512-column contraction need finiteness; a(i) ≥ ε > 0 always.
  Hence the precondition's last conjunct, s(i) ≠ 0 for every row.
-/
import proofs.«171890_g89756226552612_cont_sun_m_1083_24_alg».proof.Defs
import proofs.«171890_g89756226552612_cont_sun_m_1083_24_alg».proof.Proof.Gen.Kernel
import proofs.«171890_g89756226552612_cont_sun_m_1083_24_alg».proof.Proof.Gen.KernelIdeal
import proofs.«171890_g89756226552612_cont_sun_m_1083_24_alg».proof.Proof.Gen.ReferenceIdeal
import proofs.«171890_g89756226552612_cont_sun_m_1083_24_alg».proof.Proof.Gen.Pre_finite_inputs
import proofs.«171890_g89756226552612_cont_sun_m_1083_24_alg».proof.Proof.KBFrame
import proofs.«171890_g89756226552612_cont_sun_m_1083_24_alg».proof.Proof.KIFrame
import proofs.«171890_g89756226552612_cont_sun_m_1083_24_alg».proof.Proof.Alg
import Idealize.ShloMosaic.Adequacy
import Idealize.ShloMosaic.Init

noncomputable section

namespace Cert.Proof

open Idealize.ShloMosaic Idealize.SL.Sem

/-- The five claims: the two kernel frames from the generic body proof, the reference's frame from its run, the
    empty list of rewrites, and the equality of results over the extended reals. -/
theorem claim : Cert.Claim := ⟨Cert.Kernel.Gen.facts, Cert.KernelIdeal.Gen.facts, Cert.ReferenceIdeal.Gen.facts, Cert.Pre_finite_inputs.Gen.facts,
  fun m ρ _ => Cert.Kernel.Body.frame m ρ,
  fun m ρ _ => Cert.KernelIdeal.Body.frame m ρ,
  Cert.Proof.AlgClaims.frame_ri,
  trivial,
  Cert.Proof.AlgClaims.algebraic⟩

end Cert.Proof

end
